-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S128 : Shape := ⟨1, ![128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8x2048x1024 .f32) (main_arg1 : FVec F S1024x128 .f32) (main_arg2 : FVec F S128 .f32) (main_arg3 : FVec F S1024x128 .f32) (main_arg4 : FVec F S128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S8x2048x1024 : Shape := ⟨3, ![8, 2048, 1024]⟩
abbrev S1024x128 : Shape := ⟨2, ![1024, 128]⟩
abbrev S128 : Shape := ⟨1, ![128]⟩
abbrev S1024x256 : Shape := ⟨2, ![1024, 256]⟩
abbrev S256 : Shape := ⟨1, ![256]⟩
abbrev S8x2048x128 : Shape := ⟨3, ![8, 2048, 128]⟩
abbrev S1x512x1024 : Shape := ⟨3, ![1, 512, 1024]⟩
abbrev S1x512x128 : Shape := ⟨3, ![1, 512, 128]⟩
abbrev S512x1024 : Shape := ⟨2, ![512, 1024]⟩
abbrev S512x256 : Shape := ⟨2, ![512, 256]⟩
abbrev S1x256 : Shape := ⟨2, ![1, 256]⟩
abbrev S512x128 : Shape := ⟨2, ![512, 128]⟩
abbrev S1x1024x128 : Shape := ⟨3, ![1, 1024, 128]⟩
abbrev S1x1024x1024 : Shape := ⟨3, ![1, 1024, 1024]⟩
abbrev S1024x1 : Shape := ⟨2, ![1024, 1]⟩
abbrev S1024x1024 : Shape := ⟨2, ![1024, 1024]⟩
abbrev S1024x512 : Shape := ⟨2, ![1024, 512]⟩
abbrev S1024 : Shape := ⟨1, ![1024]⟩

abbrev nBuf : Space → Nat
  | .hbm => 11
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S1024x256, .f32⟩
  | .hbm, ⟨6, _⟩ => ⟨S256, .f32⟩
  | .hbm, ⟨7, _⟩ => ⟨S8x2048x128, .bf16⟩
  | .hbm, ⟨8, _⟩ => ⟨S8x2048x128, .bf16⟩
  | .hbm, ⟨9, _⟩ => ⟨S8x2048x1024, .bf16⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x256, .f32⟩
  | .local _ .vmem, ⟨3, _⟩ => ⟨S256, .f32⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1, .f32⟩
  | .local _ .vmem, ⟨21, _⟩ => ⟨S1024x1, .f32⟩
  | .local _ .vmem, ⟨22, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  concatenates_S1024x128_S1024x128_S1024x256_d1 : Shape.Concatenates [S1024x128, S1024x128] S1024x256 1
  concatenates_S128_S128_S256_d0 : Shape.Concatenates [S128, S128] S256 0
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  slices_S512x256_o0_0_S512x128 : S512x256.Slices ![0, 0] S512x128
  slices_S512x256_o0_128_S512x128 : S512x256.Slices ![0, 128] S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x256_S512x256_1_0_0_1_n_n_wf : DotDims.WF S512x1024 S1024x256 S512x256 [1] [0] [0] [1] [] []
  dot_S1024x128_S512x128_S1024x512_1_1_0_0_n_n_wf : DotDims.WF S1024x128 S512x128 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S8x2048x128.size a
  hwx0_3 : ∀ i : grid0.Coords, EltTy.bits .bf16 = 32 ∨ (Rect.block (s := S8x2048x128) S1x512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S8x2048x128.size a
  hwx0_4 : ∀ i : grid0.Coords, EltTy.bits .bf16 = 32 ∨ (Rect.block (s := S8x2048x128) S1x512x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .bf16 = 32 ∨ (Rect.block (s := S8x2048x1024) S1x512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x128.size a
  hwx1_0 : ∀ i : grid1.Coords, EltTy.bits .bf16 = 32 ∨ (Rect.block (s := S8x2048x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S8x2048x128.size a
  hwx1_1 : ∀ i : grid1.Coords, EltTy.bits .bf16 = 32 ∨ (Rect.block (s := S8x2048x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x1024.size a
  hwx1_2 : ∀ i : grid1.Coords, EltTy.bits .bf16 = 32 ∨ (Rect.block (s := S8x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x2048x1024.size a
  hwx1_4 : ∀ i : grid1.Coords, EltTy.bits .f32 = 32 ∨ (Rect.block (s := S8x2048x1024) S1x1024x1024.size (cc1_transform_4 i) (hinb1_4 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S128 : Shape := ⟨1, ![128]⟩
abbrev S8x2048x128 : Shape := ⟨3, ![8, 2048, 128]⟩
abbrev S1x1x128 : Shape := ⟨3, ![1, 1, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S128, .f32⟩
  | .hbm, ⟨3, _⟩ => ⟨S1024x128, .f32⟩
  | .hbm, ⟨4, _⟩ => ⟨S128, .f32⟩
  | .hbm, ⟨5, _⟩ => ⟨S8x2048x128, .f32⟩
  | .hbm, ⟨6, _⟩ => ⟨S1x1x128, .f32⟩
  | .hbm, ⟨7, _⟩ => ⟨S8x2048x128, .f32⟩
  | .hbm, ⟨8, _⟩ => ⟨S8x2048x128, .f32⟩
  | .hbm, ⟨9, _⟩ => ⟨S8x2048x128, .f32⟩
  | .hbm, ⟨10, _⟩ => ⟨S1x1x128, .f32⟩
  | .hbm, ⟨11, _⟩ => ⟨S8x2048x128, .f32⟩
  | .hbm, ⟨12, _⟩ => ⟨S8x2048x128, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x1024, .f32⟩
  | .hbm, ⟨29, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x2048x128_0_1_2 : S1x1x128.BroadcastsInDim S8x2048x128 (![0, 1, 2] : Fin 3 → Fin S8x2048x128.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BitsProj.lean ====
/-
  The projection call: one grid point per (batch entry, block of 512 tokens). At a point the body reads the point's
  block of x, the whole concatenated weight matrix and the whole concatenated bias, and overwrites the point's blocks
  of the three results: the first 128 columns of x·W + β, the last 128 columns, and x itself in the narrower format.
  Every result block is written whole by one store, so what a result's staging buffer holds after the body is that
  store's value, a function of the three input blocks alone.
-/
import proofs.«107902_j85942295593581_2_alg».proof.Proof.Gen.Kernel.Launch
import proofs.«107902_j85942295593581_2_alg».proof.Proof.Gen.Kernel.Skeleton
import proofs.«107902_j85942295593581_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did (the weights and the bias are fetched once: their block never moves). -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body reads and writes through. -/
abbrev rX : Rect S1x512x1024 := Rect.unit (s := S1x512x1024) ![0, 0, 0] S1x512x1024.size inb_S1x512x1024_S1x512x1024_0_0_0
abbrev rW : Rect S1024x256 := Rect.unit (s := S1024x256) ![0, 0] S1024x256.size inb_S1024x256_S1024x256_0_0
abbrev rB : Rect S256 := Rect.unit (s := S256) ![0] S256.size inb_S256_S256_0
abbrev rP : Rect S1x512x128 := Rect.unit (s := S1x512x128) ![0, 0, 0] S1x512x128.size inb_S1x512x128_S1x512x128_0_0_0

/-- What the body leaves in each result's staging buffer: its one store, as a piece list. -/
def outF (x0 : Vec F S1x512x1024 .f32) (x1 : Vec F S1024x256 .f32) (x2 : Vec F S256 .f32) : Vec F S1x512x128 .bf16 :=
  View.canon [⟨rP, k0_pay3 (View.ld x0 rX) (View.ld x1 rW) (View.ld x2 rB)⟩]
def outG (x0 : Vec F S1x512x1024 .f32) (x1 : Vec F S1024x256 .f32) (x2 : Vec F S256 .f32) : Vec F S1x512x128 .bf16 :=
  View.canon [⟨rP, k0_pay4 (View.ld x0 rX) (View.ld x1 rW) (View.ld x2 rB)⟩]
def outX (x0 : Vec F S1x512x1024 .f32) : Vec F S1x512x1024 .bf16 :=
  View.canon [⟨rX, k0_pay5 (View.ld x0 rX)⟩]

/-- One whole-buffer store covers the buffer. -/
theorem coverP (p0 : Vec F S1x512x128 .bf16) (y : S1x512x128.Idx) :
    ∃ pc ∈ ([⟨rP, p0⟩] : List (View.Piece (Elt F) S1x512x128 .bf16)), y ∈ pc.1.set :=
  View.cover_of_tiled [⟨rP, p0⟩] S1x512x128.size (by rfl) y
theorem coverX (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

set_option maxHeartbeats 2000000 in
/-- The body on whole staging buffers: the three inputs at their contents, the three results at anything; it ends
    with the inputs as they were and each result at its store's value. -/
theorem sound_kernel (c : Dev nD) (E : Set ℕ) (i : grid0.Coords)
    (arg2 : Memref sig .tc .vmem S1x512x1024 .f32) (harg2 : arg2.IsWhole) (arg3 : Memref sig .tc .vmem S1024x256 .f32) (harg3 : arg3.IsWhole)
    (arg4 : Memref sig .tc .vmem S256 .f32) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x1024 .bf16) (harg7 : arg7.IsWhole)
    (x0 : Vec F S1x512x1024 .f32) (x1 : Vec F S1024x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outF x0 x1 x2) ∗ owns (c : Thread nD τ) arg6 fullShare (outG x0 x1 x2)
            ∗ owns (c : Thread nD τ) arg7 fullShare (outX x0)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  isplitl [H4]
  · iexists _; isplitr
    swap; · iexact H4
    ipureintro
    exact View.read_writes_eq_canon _ _ _ (coverP _)
  iexists _; isplitr
  swap; · iexact H5
  ipureintro
  exact View.read_writes_eq_canon _ _ _ (coverX _)

/-- The call's proof data on core `c`: the arrays as the call finds them; after the body at point `t` each input's
    buffer at its block and each result's at its store's value of the input blocks; the invariant is the scoped rest
    and the generator register, untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outF (iblk V c 0 t) (iblk V c 1 t) (iblk V c 2 t)
    | ⟨4, _⟩ => outG (iblk V c 0 t) (iblk V c 1 t) (iblk V c 2 t)
    | ⟨5, _⟩ => outX (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outF (iblk V c 0 t) (iblk V c 1 t) (iblk V c 2 t) := by dsimp only [dat]
theorem after_4 (c : Dev nD) (t : Fin cfg0.N) : (dat V c).after 4 t = outG (iblk V c 0 t) (iblk V c 1 t) (iblk V c 2 t) := by dsimp only [dat]
theorem after_5 (c : Dev nD) (t : Fin cfg0.N) : (dat V c).after 5 t = outX (iblk V c 0 t) := by dsimp only [dat]

theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end

end Cert.Kernel.Proj

end
-- ==== Proof.BitsAttnRuns.lean ====
/-
  The attention call's body, run once per control case. The body branches twice on the position along the key axis:
  at the first key block it resets its three carried buffers (the running shift, the running sum of exponentials, the
  running weighted sum) before anything else, and at the last key block it divides the weighted sum by the sum of
  exponentials, adds the query tokens and stores the result block. In between it only folds the current key block
  into the carried buffers. So there are three cases: first block, a middle block, last block.
-/
import proofs.«107902_j85942295593581_2_alg».proof.Proof.Gen.Kernel.Launch
import proofs.«107902_j85942295593581_2_alg».proof.Proof.Gen.Kernel.Skeleton
import proofs.«107902_j85942295593581_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch: is this the first key block? -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)
/-- The body's second branch: is this the last key block? -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

set_option maxHeartbeats 4000000 in
/-- First key block: the carried buffers may hold anything on entry; the result block is not touched. -/
noncomputable def runFirst (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    isplitl [HS1]
    · iexists _; iexact HS1
    iexists _; iexact HS2

set_option maxHeartbeats 4000000 in
/-- A middle key block: the carried buffers hold what the block before left; the result block is not touched. -/
noncomputable def runMid (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    isplitl [HS1]
    · iexists _; iexact HS1
    iexists _; iexact HS2

set_option maxHeartbeats 4000000 in
/-- The last key block: the carried buffers hold what the block before left; the result block, at anything on entry,
    is stored whole. -/
noncomputable def runLast (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; iexact HS0
    isplitl [HS1]
    · iexists _; iexact HS1
    iexists _; iexact HS2

end Cert.Kernel.Attn

end
-- ==== Proof.BitsAttn.lean ====
/-
  The attention call: one grid point per (batch entry, block of 1024 query tokens, block of 512 key tokens), the key
  blocks innermost. The three carried buffers — running shift, running sum of exponentials, running weighted sum — are
  reset at the first key block of a query block, updated at every key block from what the block before left, and read
  out into the result block at the last key block. What they hold after each point is therefore a recursion on the
  point: the case the point is in, run on the point's input blocks and on what the point before left.
-/
import proofs.«107902_j85942295593581_2_alg».proof.Proof.BitsAttnRuns

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or at an earlier point
    with the same block (the query-side blocks are fetched once per query block). -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Where the result window is idle, live, written back. -/
theorem idle4_first : ∀ t : Fin cfg1.N, condFirst (grid1.coords t) → ¬condLast (grid1.coords t) → cfg1.idle 4 (grid1.coords t) = true := by decide +kernel
theorem noFlush4_first : ∀ t : Fin cfg1.N, condFirst (grid1.coords t) → ¬condLast (grid1.coords t) → (cfg1.win 4).flush t = false := by decide +kernel
theorem idle4_mid : ∀ t : Fin cfg1.N, ¬condFirst (grid1.coords t) → ¬condLast (grid1.coords t) → cfg1.idle 4 (grid1.coords t) = true := by decide +kernel
theorem noFlush4_mid : ∀ t : Fin cfg1.N, ¬condFirst (grid1.coords t) → ¬condLast (grid1.coords t) → (cfg1.win 4).flush t = false := by decide +kernel
theorem live4_last : ∀ t : Fin cfg1.N, ¬condFirst (grid1.coords t) → condLast (grid1.coords t) → cfg1.idle 4 (grid1.coords t) = false := by decide +kernel
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel

/-- Each window's current staging buffer at point `t`, and the three carried buffers. -/
abbrev ms0 (t : Fin cfg1.N) : Memref sig .tc .vmem S1x1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .f32 := win1_4.stage (cfg1.slots t 4)
abbrev hs4 (t : Fin cfg1.N) : (ms4 t).IsWhole := hstage1_4 ((cfg1.slots t 4).cast nbuf1_4)
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2
abbrev VS0 : View sig .tc .vmem S1024x1 .f32 := scM0.view
abbrev VS1 : View sig .tc .vmem S1024x1 .f32 := scM1.view
abbrev VS2 : View sig .tc .vmem S1024x1024 .f32 := scM2.view
/-- One staging buffer of the result window, through which its contents are stated. -/
abbrev VO4 : View sig .tc .vmem S1x1024x1024 .f32 := (Memref.whole cc1_stg4_0 : Memref sig .tc .vmem S1x1024x1024 .f32).view

/-! ## What each case leaves: its stores cover each buffer they touch, so the buffer's contents are the stores' alone -/
theorem coverFirst0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) (y : S1024x1.Idx) :
    ∃ pc ∈ (runFirst c i arg3 harg3 arg4 harg4 arg5 harg5 arg6 harg6 arg7 harg7 arg8 harg8 arg9 harg9 arg10 harg10 hc1 hc2 x0 x1 x2 x3).1, y ∈ pc.1.set :=
  View.cover_of_tiledL (runFirst c i arg3 harg3 arg4 harg4 arg5 harg5 arg6 harg6 arg7 harg7 arg8 harg8 arg9 harg9 arg10 harg10 hc1 hc2 x0 x1 x2 x3).1 S1024x1.size (by sl_kernel_rfl) y
def soutFirst0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) : Vec F S1024x1 .f32 :=
  VS0.read (Elt F) (VS0.writes (Elt F) VS0.junk (runFirst c i arg3 harg3 arg4 harg4 arg5 harg5 arg6 harg6 arg7 harg7 arg8 harg8 arg9 harg9 arg10 harg10 hc1 hc2 x0 x1 x2 x3).1)
theorem coverFirst1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) (y : S1024x1.Idx) :
    ∃ pc ∈ (runFirst c i arg3 harg3 arg4 harg4 arg5 harg5 arg6 harg6 arg7 harg7 arg8 harg8 arg9 harg9 arg10 harg10 hc1 hc2 x0 x1 x2 x3).2.1, y ∈ pc.1.set :=
  View.cover_of_tiledL (runFirst c i arg3 harg3 arg4 harg4 arg5 harg5 arg6 harg6 arg7 harg7 arg8 harg8 arg9 harg9 arg10 harg10 hc1 hc2 x0 x1 x2 x3).2.1 S1024x1.size (by sl_kernel_rfl) y
def soutFirst1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) : Vec F S1024x1 .f32 :=
  VS1.read (Elt F) (VS1.writes (Elt F) VS1.junk (runFirst c i arg3 harg3 arg4 harg4 arg5 harg5 arg6 harg6 arg7 harg7 arg8 harg8 arg9 harg9 arg10 harg10 hc1 hc2 x0 x1 x2 x3).2.1)
theorem coverFirst2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) (y : S1024x1024.Idx) :
    ∃ pc ∈ (runFirst c i arg3 harg3 arg4 harg4 arg5 harg5 arg6 harg6 arg7 harg7 arg8 harg8 arg9 harg9 arg10 harg10 hc1 hc2 x0 x1 x2 x3).2.2.1, y ∈ pc.1.set :=
  View.cover_of_tiledL (runFirst c i arg3 harg3 arg4 harg4 arg5 harg5 arg6 harg6 arg7 harg7 arg8 harg8 arg9 harg9 arg10 harg10 hc1 hc2 x0 x1 x2 x3).2.2.1 S1024x1024.size (by sl_kernel_rfl) y
def soutFirst2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) : Vec F S1024x1024 .f32 :=
  VS2.read (Elt F) (VS2.writes (Elt F) VS2.junk (runFirst c i arg3 harg3 arg4 harg4 arg5 harg5 arg6 harg6 arg7 harg7 arg8 harg8 arg9 harg9 arg10 harg10 hc1 hc2 x0 x1 x2 x3).2.2.1)
theorem coverMid0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runMid c i arg3 harg3 arg4 harg4 arg5 harg5 arg6 harg6 arg7 harg7 arg8 harg8 arg9 harg9 arg10 harg10 hc1 hc2 x0 x1 x2 x3 xs0 xs1 xs2).1, y ∈ pc.1.set :=
  View.cover_of_tiledL (runMid c i arg3 harg3 arg4 harg4 arg5 harg5 arg6 harg6 arg7 harg7 arg8 harg8 arg9 harg9 arg10 harg10 hc1 hc2 x0 x1 x2 x3 xs0 xs1 xs2).1 S1024x1.size (by sl_kernel_rfl) y
def soutMid0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS0.read (Elt F) (VS0.writes (Elt F) VS0.junk (runMid c i arg3 harg3 arg4 harg4 arg5 harg5 arg6 harg6 arg7 harg7 arg8 harg8 arg9 harg9 arg10 harg10 hc1 hc2 x0 x1 x2 x3 xs0 xs1 xs2).1)
theorem coverMid1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runMid c i arg3 harg3 arg4 harg4 arg5 harg5 arg6 harg6 arg7 harg7 arg8 harg8 arg9 harg9 arg10 harg10 hc1 hc2 x0 x1 x2 x3 xs0 xs1 xs2).2.1, y ∈ pc.1.set :=
  View.cover_of_tiledL (runMid c i arg3 harg3 arg4 harg4 arg5 harg5 arg6 harg6 arg7 harg7 arg8 harg8 arg9 harg9 arg10 harg10 hc1 hc2 x0 x1 x2 x3 xs0 xs1 xs2).2.1 S1024x1.size (by sl_kernel_rfl) y
def soutMid1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS1.read (Elt F) (VS1.writes (Elt F) VS1.junk (runMid c i arg3 harg3 arg4 harg4 arg5 harg5 arg6 harg6 arg7 harg7 arg8 harg8 arg9 harg9 arg10 harg10 hc1 hc2 x0 x1 x2 x3 xs0 xs1 xs2).2.1)
theorem coverMid2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1024.Idx) :
    ∃ pc ∈ (runMid c i arg3 harg3 arg4 harg4 arg5 harg5 arg6 harg6 arg7 harg7 arg8 harg8 arg9 harg9 arg10 harg10 hc1 hc2 x0 x1 x2 x3 xs0 xs1 xs2).2.2.1, y ∈ pc.1.set :=
  View.cover_of_tiledL (runMid c i arg3 harg3 arg4 harg4 arg5 harg5 arg6 harg6 arg7 harg7 arg8 harg8 arg9 harg9 arg10 harg10 hc1 hc2 x0 x1 x2 x3 xs0 xs1 xs2).2.2.1 S1024x1024.size (by sl_kernel_rfl) y
def soutMid2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1024 .f32 :=
  VS2.read (Elt F) (VS2.writes (Elt F) VS2.junk (runMid c i arg3 harg3 arg4 harg4 arg5 harg5 arg6 harg6 arg7 harg7 arg8 harg8 arg9 harg9 arg10 harg10 hc1 hc2 x0 x1 x2 x3 xs0 xs1 xs2).2.2.1)
theorem coverLast4 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1x1024x1024.Idx) :
    ∃ pc ∈ (runLast c i arg3 harg3 arg4 harg4 arg5 harg5 arg6 harg6 arg7 harg7 arg8 harg8 arg9 harg9 arg10 harg10 hc1 hc2 x0 x1 x2 x3 xs0 xs1 xs2).1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).1 S1x1024x1024.size (by sl_kernel_rfl) y
def soutLast4 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1x1024x1024 .f32 :=
  VO4.read (Elt F) (VO4.writes (Elt F) VO4.junk (runLast c i arg3 harg3 arg4 harg4 arg5 harg5 arg6 harg6 arg7 harg7 arg8 harg8 arg9 harg9 arg10 harg10 hc1 hc2 x0 x1 x2 x3 xs0 xs1 xs2).1)
theorem coverLast0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runLast c i arg3 harg3 arg4 harg4 arg5 harg5 arg6 harg6 arg7 harg7 arg8 harg8 arg9 harg9 arg10 harg10 hc1 hc2 x0 x1 x2 x3 xs0 xs1 xs2).2.1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).2.1 S1024x1.size (by sl_kernel_rfl) y
def soutLast0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS0.read (Elt F) (VS0.writes (Elt F) VS0.junk (runLast c i arg3 harg3 arg4 harg4 arg5 harg5 arg6 harg6 arg7 harg7 arg8 harg8 arg9 harg9 arg10 harg10 hc1 hc2 x0 x1 x2 x3 xs0 xs1 xs2).2.1)
theorem coverLast1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runLast c i arg3 harg3 arg4 harg4 arg5 harg5 arg6 harg6 arg7 harg7 arg8 harg8 arg9 harg9 arg10 harg10 hc1 hc2 x0 x1 x2 x3 xs0 xs1 xs2).2.2.1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).2.2.1 S1024x1.size (by sl_kernel_rfl) y
def soutLast1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS1.read (Elt F) (VS1.writes (Elt F) VS1.junk (runLast c i arg3 harg3 arg4 harg4 arg5 harg5 arg6 harg6 arg7 harg7 arg8 harg8 arg9 harg9 arg10 harg10 hc1 hc2 x0 x1 x2 x3 xs0 xs1 xs2).2.2.1)
theorem coverLast2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1024.Idx) :
    ∃ pc ∈ (runLast c i arg3 harg3 arg4 harg4 arg5 harg5 arg6 harg6 arg7 harg7 arg8 harg8 arg9 harg9 arg10 harg10 hc1 hc2 x0 x1 x2 x3 xs0 xs1 xs2).2.2.2.1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).2.2.2.1 S1024x1024.size (by sl_kernel_rfl) y
def soutLast2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1024 .f32 :=
  VS2.read (Elt F) (VS2.writes (Elt F) VS2.junk (runLast c i arg3 harg3 arg4 harg4 arg5 harg5 arg6 harg6 arg7 harg7 arg8 harg8 arg9 harg9 arg10 harg10 hc1 hc2 x0 x1 x2 x3 xs0 xs1 xs2).2.2.2.1)

/-! ## What the carried buffers and the result's staging buffer hold after each point -/

/-- After the body at position `n`: (running shift, running sum, running weighted sum, result block). The case is
    read off the position: a multiple of 4 is a first key block and starts afresh; position ≡ 3 is a last key block;
    the others are middle blocks; both continue from what position `n - 1` left. The result block is only written
    at a last key block; elsewhere its component is a placeholder nothing reads. -/
def stAt (c : Dev nD) : (n : ℕ) → n < cfg1.N → Vec F S1024x1 .f32 × Vec F S1024x1 .f32 × Vec F S1024x1024 .f32 × Vec F S1x1024x1024 .f32
  | 0, hn => (soutFirst0 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) scM2 (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), soutFirst1 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) scM2 (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), soutFirst2 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) scM2 (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), VO4.read (Elt F) VO4.junk)
  | n + 1, hn =>
    if h0 : (n + 1) % 4 = 0 then
      (soutFirst0 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) ((hcondFirst ⟨n + 1, hn⟩).mpr h0) (fun h => (fun h3 => by (try dsimp only at h3); omega) ((hcondLast ⟨n + 1, hn⟩).mp h)) (iblk V c 0 ⟨n + 1, hn⟩) (iblk V c 1 ⟨n + 1, hn⟩) (iblk V c 2 ⟨n + 1, hn⟩) (iblk V c 3 ⟨n + 1, hn⟩), soutFirst1 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) ((hcondFirst ⟨n + 1, hn⟩).mpr h0) (fun h => (fun h3 => by (try dsimp only at h3); omega) ((hcondLast ⟨n + 1, hn⟩).mp h)) (iblk V c 0 ⟨n + 1, hn⟩) (iblk V c 1 ⟨n + 1, hn⟩) (iblk V c 2 ⟨n + 1, hn⟩) (iblk V c 3 ⟨n + 1, hn⟩), soutFirst2 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) ((hcondFirst ⟨n + 1, hn⟩).mpr h0) (fun h => (fun h3 => by (try dsimp only at h3); omega) ((hcondLast ⟨n + 1, hn⟩).mp h)) (iblk V c 0 ⟨n + 1, hn⟩) (iblk V c 1 ⟨n + 1, hn⟩) (iblk V c 2 ⟨n + 1, hn⟩) (iblk V c 3 ⟨n + 1, hn⟩), VO4.read (Elt F) VO4.junk)
    else
      if h3 : (n + 1) % 4 = 3 then
        (soutLast0 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutLast1 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutLast2 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutLast4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1)
      else
        (soutMid0 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) (fun h => h3 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutMid1 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) (fun h => h3 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutMid2 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) (fun h => h3 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, VO4.read (Elt F) VO4.junk)

theorem stAt_first (c : Dev nD) (t : Fin cfg1.N) (h0 : t.val % 4 = 0) (hc2 : ¬condLast (grid1.coords t)) :
    stAt V c t.val t.isLt = (soutFirst0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (iblk V c 0 t) (iblk V c 1 t) (iblk V c 2 t) (iblk V c 3 t), soutFirst1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (iblk V c 0 t) (iblk V c 1 t) (iblk V c 2 t) (iblk V c 3 t), soutFirst2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (iblk V c 0 t) (iblk V c 1 t) (iblk V c 2 t) (iblk V c 3 t), VO4.read (Elt F) VO4.junk) := by
  obtain ⟨n, hn⟩ := t
  cases n with
  | zero => exact rfl
  | succ n => exact (dif_pos h0).trans rfl

theorem stAt_mid (c : Dev nD) (t : Fin cfg1.N) (h0 : ¬t.val % 4 = 0) (h3 : ¬t.val % 4 = 3) :
    stAt V c t.val t.isLt = (soutMid0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutMid1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutMid2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, VO4.read (Elt F) VO4.junk) := by
  obtain ⟨n, hn⟩ := t
  cases n with
  | zero => exact (by exfalso; (try dsimp only at h0); exact absurd (Nat.zero_mod _) h0)
  | succ n => exact (dif_neg h0).trans ((dif_neg h3).trans rfl)

theorem stAt_last (c : Dev nD) (t : Fin cfg1.N) (h0 : ¬t.val % 4 = 0) (h3 : t.val % 4 = 3) :
    stAt V c t.val t.isLt = (soutLast0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutLast1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutLast2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutLast4 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h3).trans rfl)

/-! ## The invariant: the carried buffers at what the point before left -/

/-- The projection call's ten staging buffers, which this call never touches, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The scoped rest and the generator register, with the three carried buffers singled out at some contents. -/
theorem PhiA_split (c : Dev nD) : Pipeline.ΦA spec1 c
    ⊢ (iprop(others (F := F) c ∗ (∃ d, owns (c : Thread nD τ) scM0 fullShare d) ∗ (∃ d, owns (c : Thread nD τ) scM1 fullShare d)
        ∗ (∃ d, owns (c : Thread nD τ) scM2 fullShare d) ∗ (∃ r, prngReg c r)) : sProp 𝕄) := by
  unfold Pipeline.ΦA others; rw [scopedRest1_eq]; simp only [scM0, scM1, scM2, owns_whole]
  iintro ⟨⟨A0, A1, A2, A3, A4, A5, A6, A7, A8, A9, S0, S1, S2⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  iexact Hg

theorem PhiA_join (c : Dev nD) : (iprop(others (F := F) c ∗ (∃ d, owns (c : Thread nD τ) scM0 fullShare d) ∗ (∃ d, owns (c : Thread nD τ) scM1 fullShare d)
        ∗ (∃ d, owns (c : Thread nD τ) scM2 fullShare d) ∗ (∃ r, prngReg c r)) : sProp 𝕄) ⊢ Pipeline.ΦA spec1 c := by
  unfold Pipeline.ΦA others; rw [scopedRest1_eq]; simp only [scM0, scM1, scM2, owns_whole]
  iintro ⟨⟨A0, A1, A2, A3, A4, A5, A6, A7, A8, A9⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    iexact S2
  iexact Hg

/-- The invariant before position `n`: before the first point the scoped rest at anything; afterwards the carried
    buffers at what the point before left in them. -/
def PhiS (c : Dev nD) : (n : ℕ) → n ≤ cfg1.N → sProp 𝕄
  | 0, _ => Pipeline.ΦA spec1 c
  | n + 1, hn => iprop(others (F := F) c ∗ owns (c : Thread nD τ) scM0 fullShare (stAt V c n hn).1 ∗ owns (c : Thread nD τ) scM1 fullShare (stAt V c n hn).2.1
      ∗ owns (c : Thread nD τ) scM2 fullShare (stAt V c n hn).2.2.1 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM0 fullShare (stAt V c n hn).1 ∗ owns (c : Thread nD τ) scM1 fullShare (stAt V c n hn).2.1
      ∗ owns (c : Thread nD τ) scM2 fullShare (stAt V c n hn).2.2.1 ∗ (∃ r, prngReg c r)) := rfl

theorem PhiS_pos (c : Dev nD) (n : ℕ) (h : n ≤ cfg1.N) (hz : n ≠ 0) :
    PhiS V c n h = iprop(others (F := F) c ∗ owns (c : Thread nD τ) scM0 fullShare (stAt V c (n - 1) (by omega)).1 ∗ owns (c : Thread nD τ) scM1 fullShare (stAt V c (n - 1) (by omega)).2.1
      ∗ owns (c : Thread nD τ) scM2 fullShare (stAt V c (n - 1) (by omega)).2.2.1 ∗ (∃ r, prngReg c r)) := by
  cases n with
  | zero => exact absurd rfl hz
  | succ n => rfl

/-- At any position the invariant yields the carried buffers at SOME contents. -/
theorem PhiS_weaken (c : Dev nD) (n : ℕ) (h : n ≤ cfg1.N) : PhiS V c n h
    ⊢ (iprop(others (F := F) c ∗ (∃ d, owns (c : Thread nD τ) scM0 fullShare d) ∗ (∃ d, owns (c : Thread nD τ) scM1 fullShare d)
        ∗ (∃ d, owns (c : Thread nD τ) scM2 fullShare d) ∗ (∃ r, prngReg c r)) : sProp 𝕄) := by
  cases n with
  | zero => exact PhiA_split c
  | succ n =>
    rw [PhiS_succ]
    iintro ⟨Ho, S0, S1, S2, Hg⟩
    isplitl [Ho]; · iexact Ho
    isplitl [S0]; · iexists _; iexact S0
    isplitl [S1]; · iexists _; iexact S1
    isplitl [S2]; · iexists _; iexact S2
    iexact Hg

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stAt V c t.val t.isLt).2.2.2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (stAt V c t.val t.isLt).2.2.2 := by dsimp only [dat]

theorem before_0 (c : Dev nD) (t : Fin cfg1.N) (d) : (dat V c).before 0 t d = iblk V c 0 t :=
  before_in0 V (dat V c) (A_eq V c 0) (after_0 V c) t d
theorem before_1 (c : Dev nD) (t : Fin cfg1.N) (d) : (dat V c).before 1 t d = iblk V c 1 t :=
  before_in1 V (dat V c) (A_eq V c 1) (after_1 V c) t d
theorem before_2 (c : Dev nD) (t : Fin cfg1.N) (d) : (dat V c).before 2 t d = iblk V c 2 t :=
  before_in2 V (dat V c) (A_eq V c 2) (after_2 V c) t d
theorem before_3 (c : Dev nD) (t : Fin cfg1.N) (d) : (dat V c).before 3 t d = iblk V c 3 t :=
  before_in3 V (dat V c) (A_eq V c 3) (after_3 V c) t d

theorem leaves_0 (c : Dev nD) (t : Fin cfg1.N) : (dat V c).leavesExact 0 t = owns (c : Thread nD τ) (ms0 t) fullShare (iblk V c 0 t) := by
  unfold Dat.leavesExact; rw [live_in0 t, after_0]
theorem leaves_1 (c : Dev nD) (t : Fin cfg1.N) : (dat V c).leavesExact 1 t = owns (c : Thread nD τ) (ms1 t) fullShare (iblk V c 1 t) := by
  unfold Dat.leavesExact; rw [live_in1 t, after_1]
theorem leaves_2 (c : Dev nD) (t : Fin cfg1.N) : (dat V c).leavesExact 2 t = owns (c : Thread nD τ) (ms2 t) fullShare (iblk V c 2 t) := by
  unfold Dat.leavesExact; rw [live_in2 t, after_2]
theorem leaves_3 (c : Dev nD) (t : Fin cfg1.N) : (dat V c).leavesExact 3 t = owns (c : Thread nD τ) (ms3 t) fullShare (iblk V c 3 t) := by
  unfold Dat.leavesExact; rw [live_in3 t, after_3]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point: the inputs' buffers hold their blocks; the position says which case the point is in; the
    invariant hands over the carried buffers (at what the point before left, or at anything where the case resets
    them) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 64 := lt_of_lt_of_eq t.isLt (show cfg1.N = 64 from N_1)
  by_cases h0 : t.val % 4 = 0
  · have hc1 : condFirst (grid1.coords t) := (hcondFirst t).mpr h0
    have hc2 : ¬condLast (grid1.coords t) := fun h => by have := (hcondLast t).mp h; omega
    rw [Dat.leavesExact_idle (dat V c) 4 t (idle4_first t hc1 hc2) (noFlush4_first t hc1 hc2)]
    rw [stAt_first V c t h0 hc2]
    unfold soutFirst0 soutFirst1 soutFirst2; (try dsimp only)
    rw [PhiS_castSucc V c t]
    iintro ⟨HΦ, Ho, ⟨%d0, H0⟩, ⟨%d1, H1⟩, ⟨%d2, H2⟩, ⟨%d3, H3⟩, ⟨%d4, H4⟩⟩
    ihave HΦ' := (PhiS_weaken V c t.val _) $$ HΦ
    icases HΦ' with ⟨Hoth, HS0, HS1, HS2, Hg⟩
    iapply ((runFirst c (grid1.coords t) _ _ _ _ _ _ _ _ _ _ _ _ _ _ _ _ ((hcondFirst t).mpr h0) hc2 (iblk V c 0 t) (iblk V c 1 t) (iblk V c 2 t) (iblk V c 3 t)).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%e0, HS0⟩, ⟨%e1, HS1⟩, ⟨%e2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (coverFirst0 c _ _ _ _ _ _ _ _ _ _ _ _ _ _ _ _ _ _ _ _ _ _ _)
      isplitl [HS1]
      · unfold owns; iexists _; isplitr
        swap; · iexact HS1
        ipureintro; exact View.read_writes_of_cover _ _ _ _ _ (coverFirst1 c _ _ _ _ _ _ _ _ _ _ _ _ _ _ _ _ _ _ _ _ _ _ _)
      isplitl [HS2]
      · unfold owns; iexists _; isplitr
        swap; · iexact HS2
        ipureintro; exact View.read_writes_of_cover _ _ _ _ _ (coverFirst2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc1 : ¬condFirst (grid1.coords t) := fun h => h0 ((hcondFirst t).mp h)
    by_cases h3 : t.val % 4 = 3
    · have hc2 : condLast (grid1.coords t) := (hcondLast t).mpr h3
      rw [show (dat V c).leavesExact 4 t = owns (c : Thread nD τ) (ms4 t) fullShare ((dat V c).after 4 t) from by
        unfold Dat.leavesExact; rw [live4_last t hc1 hc2], after_4]
      rw [stAt_last V c t h0 h3]
      unfold soutLast0 soutLast1 soutLast2 soutLast4; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ _ _ _ _ (fun h => h0 ((hcondFirst t).mp h)) ((hcondLast t).mpr h3) (iblk V c 0 t) (iblk V c 1 t) (iblk V c 2 t) (iblk V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverLast0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverLast1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverLast2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast4 c _ _ _ _ _ _ _ _ _ _ _ _ _ _ _ _ _ _ _ _ _ _ _ _ _ _)
    · have hc2 : ¬condLast (grid1.coords t) := fun h => h3 ((hcondLast t).mp h)
      rw [Dat.leavesExact_idle (dat V c) 4 t (idle4_mid t hc1 hc2) (noFlush4_mid t hc1 hc2)]
      rw [stAt_mid V c t h0 h3]
      unfold soutMid0 soutMid1 soutMid2; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ _ _ _ _ (fun h => h0 ((hcondFirst t).mp h)) (fun h => h3 ((hcondLast t).mp h)) (iblk V c 0 t) (iblk V c 1 t) (iblk V c 2 t) (iblk V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverMid0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverMid1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverMid2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact sound_body V c t

/-- Before the first point the invariant is the scoped rest and the generator register. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the carried buffers' contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact (PhiS_weaken V c _ _).trans (PhiA_join c)

end

end Cert.Kernel.Attn

end
-- ==== Proof.BitsRun.lean ====
/-
  The whole program, from the launch to the return: the host concatenates the two weight matrices and the two biases,
  the projection call writes the queries, the keys and the narrowed tokens, the attention call reads those three and
  the tokens and writes the result. Between two items every unscoped buffer of a core holds known contents: the launch
  memory, then the concatenations, then each call's result arrays at what its write-backs leave and everything else as
  it was. Every execution ends, and the final memory holds those last contents at every unscoped buffer; in particular
  no item writes an argument.
-/
import proofs.«107902_j85942295593581_2_alg».proof.Proof.BitsProj
import proofs.«107902_j85942295593581_2_alg».proof.Proof.BitsAttn

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host's two concatenations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its arrays at what its write-backs leave, everything else as before. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention call. -/
def W3 (c : Dev nD) : Valuation τ sig (Elt F) :=
  Pipeline.withArrays spec1 c (W2 m ρ c) fun w => (Attn.dat (V2 m ρ) c).arrAt w cfg1.N
theorem W3_arr (c : Dev nD) (w : Fin cfg1.W) :
    W3 m ρ c (Proc.devRef .tc (Pipeline.arrRef spec1 w)) = (Attn.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Attn.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No item writes an argument -/

/-- The concatenations write only their two result buffers. -/
theorem W1_of_arg (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact ⟨StableHlo.devRef_ne_of_ne h0, StableHlo.devRef_ne_of_ne h1⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 3).trans (((Attn.dat (V2 m ρ) c).arrAt_in 3 rfl _).trans (Attn.A_eq (V2 m ρ) c 3))
    _ = W1 m ρ c (Proc.devRef .tc main_arg0) := (W2_arr m ρ c 0).trans (((Proj.dat (V1 m ρ) c).arrAt_in 0 rfl _).trans (Proj.A_eq (V1 m ρ) c 0))
    _ = W0 m ρ c (Proc.devRef .tc main_arg0) := W1_of_arg m ρ c main_arg0 (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide) (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_arg m ρ c main_arg4 (by decide) (by decide)
    _ = m ((c : Thread nD τ).loc main_arg4) := rfl

/-! ## The proof data family and the thread state -/

abbrev adm : (p : Fin 2) → (pcfgs (F := F) p).Adm := fun p => (cfgs p).toPCfg_adm
/-- Each call's proof data at the contents the call is entered from. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.Phi_in (V2 m ρ) c)
    unfold Pipeline.ΦA
    iintro ⟨Hp, -, Hr⟩
    isplitl [Hr]; · iexact Hr
    iexact Hp
  hout c := by
    refine (Attn.Phi_out (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every execution ends, and the final memory holds, at every unscoped buffer of every core, the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every execution ends and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Run

end
-- ==== Proof.IdealProj.lean ====
/-
  The projection call: one grid point per (batch entry, block of 512 tokens). At a point the body reads the point's
  block of x, the whole concatenated weight matrix and the whole concatenated bias, and overwrites the point's blocks
  of the three results: the first 128 columns of x·W + β, the last 128 columns, and x itself in the narrower format.
  Every result block is written whole by one store, so what a result's staging buffer holds after the body is that
  store's value, a function of the three input blocks alone.
-/
import proofs.«107902_j85942295593581_2_alg».proof.Proof.Gen.KernelIdeal.Launch
import proofs.«107902_j85942295593581_2_alg».proof.Proof.Gen.KernelIdeal.Skeleton
import proofs.«107902_j85942295593581_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or an
    earlier one did (the weights and the bias are fetched once: their block never moves). -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The whole-buffer rectangles the body reads and writes through. -/
abbrev rX : Rect S1x512x1024 := Rect.unit (s := S1x512x1024) ![0, 0, 0] S1x512x1024.size inb_S1x512x1024_S1x512x1024_0_0_0
abbrev rW : Rect S1024x256 := Rect.unit (s := S1024x256) ![0, 0] S1024x256.size inb_S1024x256_S1024x256_0_0
abbrev rB : Rect S256 := Rect.unit (s := S256) ![0] S256.size inb_S256_S256_0
abbrev rP : Rect S1x512x128 := Rect.unit (s := S1x512x128) ![0, 0, 0] S1x512x128.size inb_S1x512x128_S1x512x128_0_0_0

/-- What the body leaves in each result's staging buffer: its one store, as a piece list. -/
def outF (x0 : Vec F S1x512x1024 .f32) (x1 : Vec F S1024x256 .f32) (x2 : Vec F S256 .f32) : Vec F S1x512x128 .bf16 :=
  View.canon [⟨rP, k0_pay3 (View.ld x0 rX) (View.ld x1 rW) (View.ld x2 rB)⟩]
def outG (x0 : Vec F S1x512x1024 .f32) (x1 : Vec F S1024x256 .f32) (x2 : Vec F S256 .f32) : Vec F S1x512x128 .bf16 :=
  View.canon [⟨rP, k0_pay4 (View.ld x0 rX) (View.ld x1 rW) (View.ld x2 rB)⟩]
def outX (x0 : Vec F S1x512x1024 .f32) : Vec F S1x512x1024 .bf16 :=
  View.canon [⟨rX, k0_pay5 (View.ld x0 rX)⟩]

/-- One whole-buffer store covers the buffer. -/
theorem coverP (p0 : Vec F S1x512x128 .bf16) (y : S1x512x128.Idx) :
    ∃ pc ∈ ([⟨rP, p0⟩] : List (View.Piece (Elt F) S1x512x128 .bf16)), y ∈ pc.1.set :=
  View.cover_of_tiled [⟨rP, p0⟩] S1x512x128.size (by rfl) y
theorem coverX (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

set_option maxHeartbeats 2000000 in
/-- The body on whole staging buffers: the three inputs at their contents, the three results at anything; it ends
    with the inputs as they were and each result at its store's value. -/
theorem sound_kernel (c : Dev nD) (E : Set ℕ) (i : grid0.Coords)
    (arg2 : Memref sig .tc .vmem S1x512x1024 .f32) (harg2 : arg2.IsWhole) (arg3 : Memref sig .tc .vmem S1024x256 .f32) (harg3 : arg3.IsWhole)
    (arg4 : Memref sig .tc .vmem S256 .f32) (harg4 : arg4.IsWhole) (arg5 : Memref sig .tc .vmem S1x512x128 .bf16) (harg5 : arg5.IsWhole)
    (arg6 : Memref sig .tc .vmem S1x512x128 .bf16) (harg6 : arg6.IsWhole) (arg7 : Memref sig .tc .vmem S1x512x1024 .bf16) (harg7 : arg7.IsWhole)
    (x0 : Vec F S1x512x1024 .f32) (x1 : Vec F S1024x256 .f32) (x2 : Vec F S256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outF x0 x1 x2) ∗ owns (c : Thread nD τ) arg6 fullShare (outG x0 x1 x2)
            ∗ owns (c : Thread nD τ) arg7 fullShare (outX x0)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  isplitl [H4]
  · iexists _; isplitr
    swap; · iexact H4
    ipureintro
    exact View.read_writes_eq_canon _ _ _ (coverP _)
  iexists _; isplitr
  swap; · iexact H5
  ipureintro
  exact View.read_writes_eq_canon _ _ _ (coverX _)

/-- The call's proof data on core `c`: the arrays as the call finds them; after the body at point `t` each input's
    buffer at its block and each result's at its store's value of the input blocks; the invariant is the scoped rest
    and the generator register, untouched; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outF (iblk V c 0 t) (iblk V c 1 t) (iblk V c 2 t)
    | ⟨4, _⟩ => outG (iblk V c 0 t) (iblk V c 1 t) (iblk V c 2 t)
    | ⟨5, _⟩ => outX (iblk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outF (iblk V c 0 t) (iblk V c 1 t) (iblk V c 2 t) := by dsimp only [dat]
theorem after_4 (c : Dev nD) (t : Fin cfg0.N) : (dat V c).after 4 t = outG (iblk V c 0 t) (iblk V c 1 t) (iblk V c 2 t) := by dsimp only [dat]
theorem after_5 (c : Dev nD) (t : Fin cfg0.N) : (dat V c).after 5 t = outX (iblk V c 0 t) := by dsimp only [dat]

theorem before_0 (c : Dev nD) (t : Fin cfg0.N) (d) : (dat V c).before 0 t d = iblk V c 0 t :=
  before_in0 V (dat V c) (A_eq V c 0) (after_0 V c) t d
theorem before_1 (c : Dev nD) (t : Fin cfg0.N) (d) : (dat V c).before 1 t d = iblk V c 1 t :=
  before_in1 V (dat V c) (A_eq V c 1) (after_1 V c) t d
theorem before_2 (c : Dev nD) (t : Fin cfg0.N) (d) : (dat V c).before 2 t d = iblk V c 2 t :=
  before_in2 V (dat V c) (A_eq V c 2) (after_2 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dat (F := F) V c) (defs₀ (F := F)) Variants.none () Set.univ := fun t => by
  rw [bigSep_W0, bigSep_W0]
  exact sound_body V c t

end

end Cert.KernelIdeal.Proj

end
-- ==== Proof.IdealAttnRuns.lean ====
/-
  The attention call's body, run once per control case. The body branches twice on the position along the key axis:
  at the first key block it resets its three carried buffers (the running shift, the running sum of exponentials, the
  running weighted sum) before anything else, and at the last key block it divides the weighted sum by the sum of
  exponentials, adds the query tokens and stores the result block. In between it only folds the current key block
  into the carried buffers. So there are three cases: first block, a middle block, last block.
-/
import proofs.«107902_j85942295593581_2_alg».proof.Proof.Gen.KernelIdeal.Launch
import proofs.«107902_j85942295593581_2_alg».proof.Proof.Gen.KernelIdeal.Skeleton
import proofs.«107902_j85942295593581_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch: is this the first key block? -/
abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)
/-- The body's second branch: is this the last key block? -/
abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

set_option maxHeartbeats 4000000 in
/-- First key block: the carried buffers may hold anything on entry; the result block is not touched. -/
noncomputable def runFirst (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    isplitl [HS1]
    · iexists _; iexact HS1
    iexists _; iexact HS2

set_option maxHeartbeats 4000000 in
/-- A middle key block: the carried buffers hold what the block before left; the result block is not touched. -/
noncomputable def runMid (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi4 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, fun xi4 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]
    · iexists _; iexact HS0
    isplitl [HS1]
    · iexists _; iexact HS1
    iexists _; iexact HS2

set_option maxHeartbeats 4000000 in
/-- The last key block: the carried buffers hold what the block before left; the result block, at anything on entry,
    is stored whole. -/
noncomputable def runLast (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    Σ' (L4 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; iexact H4
    isplitl [HS0]
    · iexists _; iexact HS0
    isplitl [HS1]
    · iexists _; iexact HS1
    iexists _; iexact HS2

end Cert.KernelIdeal.Attn

end
-- ==== Proof.IdealAttn.lean ====
/-
  The attention call: one grid point per (batch entry, block of 1024 query tokens, block of 512 key tokens), the key
  blocks innermost. The three carried buffers — running shift, running sum of exponentials, running weighted sum — are
  reset at the first key block of a query block, updated at every key block from what the block before left, and read
  out into the result block at the last key block. What they hold after each point is therefore a recursion on the
  point: the case the point is in, run on the point's input blocks and on what the point before left.
-/
import proofs.«107902_j85942295593581_2_alg».proof.Proof.IdealAttnRuns

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or at an earlier point
    with the same block (the query-side blocks are fetched once per query block). -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Where the result window is idle, live, written back. -/
theorem idle4_first : ∀ t : Fin cfg1.N, condFirst (grid1.coords t) → ¬condLast (grid1.coords t) → cfg1.idle 4 (grid1.coords t) = true := by decide +kernel
theorem noFlush4_first : ∀ t : Fin cfg1.N, condFirst (grid1.coords t) → ¬condLast (grid1.coords t) → (cfg1.win 4).flush t = false := by decide +kernel
theorem idle4_mid : ∀ t : Fin cfg1.N, ¬condFirst (grid1.coords t) → ¬condLast (grid1.coords t) → cfg1.idle 4 (grid1.coords t) = true := by decide +kernel
theorem noFlush4_mid : ∀ t : Fin cfg1.N, ¬condFirst (grid1.coords t) → ¬condLast (grid1.coords t) → (cfg1.win 4).flush t = false := by decide +kernel
theorem live4_last : ∀ t : Fin cfg1.N, ¬condFirst (grid1.coords t) → condLast (grid1.coords t) → cfg1.idle 4 (grid1.coords t) = false := by decide +kernel
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
theorem live_in3 : ∀ t : Fin cfg1.N, cfg1.idle 3 (grid1.coords t) = false := by decide +kernel

/-- Each window's current staging buffer at point `t`, and the three carried buffers. -/
abbrev ms0 (t : Fin cfg1.N) : Memref sig .tc .vmem S1x1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .f32 := win1_4.stage (cfg1.slots t 4)
abbrev hs4 (t : Fin cfg1.N) : (ms4 t).IsWhole := hstage1_4 ((cfg1.slots t 4).cast nbuf1_4)
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2
abbrev VS0 : View sig .tc .vmem S1024x1 .f32 := scM0.view
abbrev VS1 : View sig .tc .vmem S1024x1 .f32 := scM1.view
abbrev VS2 : View sig .tc .vmem S1024x1024 .f32 := scM2.view
/-- One staging buffer of the result window, through which its contents are stated. -/
abbrev VO4 : View sig .tc .vmem S1x1024x1024 .f32 := (Memref.whole cc1_stg4_0 : Memref sig .tc .vmem S1x1024x1024 .f32).view

/-! ## What each case leaves: its stores cover each buffer they touch, so the buffer's contents are the stores' alone -/
theorem coverFirst0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) (y : S1024x1.Idx) :
    ∃ pc ∈ (runFirst c i arg3 harg3 arg4 harg4 arg5 harg5 arg6 harg6 arg7 harg7 arg8 harg8 arg9 harg9 arg10 harg10 hc1 hc2 x0 x1 x2 x3).1, y ∈ pc.1.set :=
  View.cover_of_tiledL (runFirst c i arg3 harg3 arg4 harg4 arg5 harg5 arg6 harg6 arg7 harg7 arg8 harg8 arg9 harg9 arg10 harg10 hc1 hc2 x0 x1 x2 x3).1 S1024x1.size (by sl_kernel_rfl) y
def soutFirst0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) : Vec F S1024x1 .f32 :=
  VS0.read (Elt F) (VS0.writes (Elt F) VS0.junk (runFirst c i arg3 harg3 arg4 harg4 arg5 harg5 arg6 harg6 arg7 harg7 arg8 harg8 arg9 harg9 arg10 harg10 hc1 hc2 x0 x1 x2 x3).1)
theorem coverFirst1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) (y : S1024x1.Idx) :
    ∃ pc ∈ (runFirst c i arg3 harg3 arg4 harg4 arg5 harg5 arg6 harg6 arg7 harg7 arg8 harg8 arg9 harg9 arg10 harg10 hc1 hc2 x0 x1 x2 x3).2.1, y ∈ pc.1.set :=
  View.cover_of_tiledL (runFirst c i arg3 harg3 arg4 harg4 arg5 harg5 arg6 harg6 arg7 harg7 arg8 harg8 arg9 harg9 arg10 harg10 hc1 hc2 x0 x1 x2 x3).2.1 S1024x1.size (by sl_kernel_rfl) y
def soutFirst1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) : Vec F S1024x1 .f32 :=
  VS1.read (Elt F) (VS1.writes (Elt F) VS1.junk (runFirst c i arg3 harg3 arg4 harg4 arg5 harg5 arg6 harg6 arg7 harg7 arg8 harg8 arg9 harg9 arg10 harg10 hc1 hc2 x0 x1 x2 x3).2.1)
theorem coverFirst2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) (y : S1024x1024.Idx) :
    ∃ pc ∈ (runFirst c i arg3 harg3 arg4 harg4 arg5 harg5 arg6 harg6 arg7 harg7 arg8 harg8 arg9 harg9 arg10 harg10 hc1 hc2 x0 x1 x2 x3).2.2.1, y ∈ pc.1.set :=
  View.cover_of_tiledL (runFirst c i arg3 harg3 arg4 harg4 arg5 harg5 arg6 harg6 arg7 harg7 arg8 harg8 arg9 harg9 arg10 harg10 hc1 hc2 x0 x1 x2 x3).2.2.1 S1024x1024.size (by sl_kernel_rfl) y
def soutFirst2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) : Vec F S1024x1024 .f32 :=
  VS2.read (Elt F) (VS2.writes (Elt F) VS2.junk (runFirst c i arg3 harg3 arg4 harg4 arg5 harg5 arg6 harg6 arg7 harg7 arg8 harg8 arg9 harg9 arg10 harg10 hc1 hc2 x0 x1 x2 x3).2.2.1)
theorem coverMid0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runMid c i arg3 harg3 arg4 harg4 arg5 harg5 arg6 harg6 arg7 harg7 arg8 harg8 arg9 harg9 arg10 harg10 hc1 hc2 x0 x1 x2 x3 xs0 xs1 xs2).1, y ∈ pc.1.set :=
  View.cover_of_tiledL (runMid c i arg3 harg3 arg4 harg4 arg5 harg5 arg6 harg6 arg7 harg7 arg8 harg8 arg9 harg9 arg10 harg10 hc1 hc2 x0 x1 x2 x3 xs0 xs1 xs2).1 S1024x1.size (by sl_kernel_rfl) y
def soutMid0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS0.read (Elt F) (VS0.writes (Elt F) VS0.junk (runMid c i arg3 harg3 arg4 harg4 arg5 harg5 arg6 harg6 arg7 harg7 arg8 harg8 arg9 harg9 arg10 harg10 hc1 hc2 x0 x1 x2 x3 xs0 xs1 xs2).1)
theorem coverMid1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runMid c i arg3 harg3 arg4 harg4 arg5 harg5 arg6 harg6 arg7 harg7 arg8 harg8 arg9 harg9 arg10 harg10 hc1 hc2 x0 x1 x2 x3 xs0 xs1 xs2).2.1, y ∈ pc.1.set :=
  View.cover_of_tiledL (runMid c i arg3 harg3 arg4 harg4 arg5 harg5 arg6 harg6 arg7 harg7 arg8 harg8 arg9 harg9 arg10 harg10 hc1 hc2 x0 x1 x2 x3 xs0 xs1 xs2).2.1 S1024x1.size (by sl_kernel_rfl) y
def soutMid1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS1.read (Elt F) (VS1.writes (Elt F) VS1.junk (runMid c i arg3 harg3 arg4 harg4 arg5 harg5 arg6 harg6 arg7 harg7 arg8 harg8 arg9 harg9 arg10 harg10 hc1 hc2 x0 x1 x2 x3 xs0 xs1 xs2).2.1)
theorem coverMid2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1024.Idx) :
    ∃ pc ∈ (runMid c i arg3 harg3 arg4 harg4 arg5 harg5 arg6 harg6 arg7 harg7 arg8 harg8 arg9 harg9 arg10 harg10 hc1 hc2 x0 x1 x2 x3 xs0 xs1 xs2).2.2.1, y ∈ pc.1.set :=
  View.cover_of_tiledL (runMid c i arg3 harg3 arg4 harg4 arg5 harg5 arg6 harg6 arg7 harg7 arg8 harg8 arg9 harg9 arg10 harg10 hc1 hc2 x0 x1 x2 x3 xs0 xs1 xs2).2.2.1 S1024x1024.size (by sl_kernel_rfl) y
def soutMid2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1024 .f32 :=
  VS2.read (Elt F) (VS2.writes (Elt F) VS2.junk (runMid c i arg3 harg3 arg4 harg4 arg5 harg5 arg6 harg6 arg7 harg7 arg8 harg8 arg9 harg9 arg10 harg10 hc1 hc2 x0 x1 x2 x3 xs0 xs1 xs2).2.2.1)
theorem coverLast4 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1x1024x1024.Idx) :
    ∃ pc ∈ (runLast c i arg3 harg3 arg4 harg4 arg5 harg5 arg6 harg6 arg7 harg7 arg8 harg8 arg9 harg9 arg10 harg10 hc1 hc2 x0 x1 x2 x3 xs0 xs1 xs2).1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).1 S1x1024x1024.size (by sl_kernel_rfl) y
def soutLast4 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1x1024x1024 .f32 :=
  VO4.read (Elt F) (VO4.writes (Elt F) VO4.junk (runLast c i arg3 harg3 arg4 harg4 arg5 harg5 arg6 harg6 arg7 harg7 arg8 harg8 arg9 harg9 arg10 harg10 hc1 hc2 x0 x1 x2 x3 xs0 xs1 xs2).1)
theorem coverLast0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runLast c i arg3 harg3 arg4 harg4 arg5 harg5 arg6 harg6 arg7 harg7 arg8 harg8 arg9 harg9 arg10 harg10 hc1 hc2 x0 x1 x2 x3 xs0 xs1 xs2).2.1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).2.1 S1024x1.size (by sl_kernel_rfl) y
def soutLast0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS0.read (Elt F) (VS0.writes (Elt F) VS0.junk (runLast c i arg3 harg3 arg4 harg4 arg5 harg5 arg6 harg6 arg7 harg7 arg8 harg8 arg9 harg9 arg10 harg10 hc1 hc2 x0 x1 x2 x3 xs0 xs1 xs2).2.1)
theorem coverLast1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1.Idx) :
    ∃ pc ∈ (runLast c i arg3 harg3 arg4 harg4 arg5 harg5 arg6 harg6 arg7 harg7 arg8 harg8 arg9 harg9 arg10 harg10 hc1 hc2 x0 x1 x2 x3 xs0 xs1 xs2).2.2.1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).2.2.1 S1024x1.size (by sl_kernel_rfl) y
def soutLast1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1 .f32 :=
  VS1.read (Elt F) (VS1.writes (Elt F) VS1.junk (runLast c i arg3 harg3 arg4 harg4 arg5 harg5 arg6 harg6 arg7 harg7 arg8 harg8 arg9 harg9 arg10 harg10 hc1 hc2 x0 x1 x2 x3 xs0 xs1 xs2).2.2.1)
theorem coverLast2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) (y : S1024x1024.Idx) :
    ∃ pc ∈ (runLast c i arg3 harg3 arg4 harg4 arg5 harg5 arg6 harg6 arg7 harg7 arg8 harg8 arg9 harg9 arg10 harg10 hc1 hc2 x0 x1 x2 x3 xs0 xs1 xs2).2.2.2.1, y ∈ pc.1.set :=
  View.cover_of_tiledL (runLast c i arg3 harg3 arg4 harg4 arg5 harg5 arg6 harg6 arg7 harg7 arg8 harg8 arg9 harg9 arg10 harg10 hc1 hc2 x0 x1 x2 x3 xs0 xs1 xs2).2.2.2.1 S1024x1024.size (by sl_kernel_rfl) y
def soutLast2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) : Vec F S1024x1024 .f32 :=
  VS2.read (Elt F) (VS2.writes (Elt F) VS2.junk (runLast c i arg3 harg3 arg4 harg4 arg5 harg5 arg6 harg6 arg7 harg7 arg8 harg8 arg9 harg9 arg10 harg10 hc1 hc2 x0 x1 x2 x3 xs0 xs1 xs2).2.2.2.1)

/-! ## What the carried buffers and the result's staging buffer hold after each point -/

/-- After the body at position `n`: (running shift, running sum, running weighted sum, result block). The case is
    read off the position: a multiple of 4 is a first key block and starts afresh; position ≡ 3 is a last key block;
    the others are middle blocks; both continue from what position `n - 1` left. The result block is only written
    at a last key block; elsewhere its component is a placeholder nothing reads. -/
def stAt (c : Dev nD) : (n : ℕ) → n < cfg1.N → Vec F S1024x1 .f32 × Vec F S1024x1 .f32 × Vec F S1024x1024 .f32 × Vec F S1x1024x1024 .f32
  | 0, hn => (soutFirst0 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) scM2 (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), soutFirst1 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) scM2 (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), soutFirst2 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) scM2 (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩) (iblk V c 3 ⟨0, hn⟩), VO4.read (Elt F) VO4.junk)
  | n + 1, hn =>
    if h0 : (n + 1) % 4 = 0 then
      (soutFirst0 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) ((hcondFirst ⟨n + 1, hn⟩).mpr h0) (fun h => (fun h3 => by (try dsimp only at h3); omega) ((hcondLast ⟨n + 1, hn⟩).mp h)) (iblk V c 0 ⟨n + 1, hn⟩) (iblk V c 1 ⟨n + 1, hn⟩) (iblk V c 2 ⟨n + 1, hn⟩) (iblk V c 3 ⟨n + 1, hn⟩), soutFirst1 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) ((hcondFirst ⟨n + 1, hn⟩).mpr h0) (fun h => (fun h3 => by (try dsimp only at h3); omega) ((hcondLast ⟨n + 1, hn⟩).mp h)) (iblk V c 0 ⟨n + 1, hn⟩) (iblk V c 1 ⟨n + 1, hn⟩) (iblk V c 2 ⟨n + 1, hn⟩) (iblk V c 3 ⟨n + 1, hn⟩), soutFirst2 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) ((hcondFirst ⟨n + 1, hn⟩).mpr h0) (fun h => (fun h3 => by (try dsimp only at h3); omega) ((hcondLast ⟨n + 1, hn⟩).mp h)) (iblk V c 0 ⟨n + 1, hn⟩) (iblk V c 1 ⟨n + 1, hn⟩) (iblk V c 2 ⟨n + 1, hn⟩) (iblk V c 3 ⟨n + 1, hn⟩), VO4.read (Elt F) VO4.junk)
    else
      if h3 : (n + 1) % 4 = 3 then
        (soutLast0 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutLast1 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutLast2 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutLast4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) ((hcondLast ⟨n + 1, hn⟩).mpr h3) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1)
      else
        (soutMid0 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) (fun h => h3 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutMid1 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) (fun h => h3 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, soutMid2 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) scM2 (Memref.isWhole_whole _) (fun h => h0 ((hcondFirst ⟨n + 1, hn⟩).mp h)) (fun h => h3 ((hcondLast ⟨n + 1, hn⟩).mp h)) (iblk V c 0 ⟨n + 1, hn⟩) (iblk V c 1 ⟨n + 1, hn⟩) (iblk V c 2 ⟨n + 1, hn⟩) (iblk V c 3 ⟨n + 1, hn⟩) (stAt c n (Nat.lt_of_succ_lt hn)).1 (stAt c n (Nat.lt_of_succ_lt hn)).2.1 (stAt c n (Nat.lt_of_succ_lt hn)).2.2.1, VO4.read (Elt F) VO4.junk)

theorem stAt_first (c : Dev nD) (t : Fin cfg1.N) (h0 : t.val % 4 = 0) (hc2 : ¬condLast (grid1.coords t)) :
    stAt V c t.val t.isLt = (soutFirst0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (iblk V c 0 t) (iblk V c 1 t) (iblk V c 2 t) (iblk V c 3 t), soutFirst1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (iblk V c 0 t) (iblk V c 1 t) (iblk V c 2 t) (iblk V c 3 t), soutFirst2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (iblk V c 0 t) (iblk V c 1 t) (iblk V c 2 t) (iblk V c 3 t), VO4.read (Elt F) VO4.junk) := by
  obtain ⟨n, hn⟩ := t
  cases n with
  | zero => exact rfl
  | succ n => exact (dif_pos h0).trans rfl

theorem stAt_mid (c : Dev nD) (t : Fin cfg1.N) (h0 : ¬t.val % 4 = 0) (h3 : ¬t.val % 4 = 3) :
    stAt V c t.val t.isLt = (soutMid0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutMid1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutMid2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, VO4.read (Elt F) VO4.junk) := by
  obtain ⟨n, hn⟩ := t
  cases n with
  | zero => exact (by exfalso; (try dsimp only at h0); exact absurd (Nat.zero_mod _) h0)
  | succ n => exact (dif_neg h0).trans ((dif_neg h3).trans rfl)

theorem stAt_last (c : Dev nD) (t : Fin cfg1.N) (h0 : ¬t.val % 4 = 0) (h3 : t.val % 4 = 3) :
    stAt V c t.val t.isLt = (soutLast0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutLast1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutLast2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1, soutLast4 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (iblk V c 0 t) (iblk V c 1 t) (iblk V c 2 t) (iblk V c 3 t) (stAt V c (t.val - 1) (Nat.lt_of_le_of_lt (Nat.sub_le _ _) t.isLt)).1 (stAt V c (t.val - 1) (Nat.lt_of_le_of_lt (Nat.sub_le _ _) t.isLt)).2.1 (stAt V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h3).trans rfl)

/-! ## The invariant: the carried buffers at what the point before left -/

/-- The projection call's ten staging buffers, which this call never touches, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The scoped rest and the generator register, with the three carried buffers singled out at some contents. -/
theorem PhiA_split (c : Dev nD) : Pipeline.ΦA spec1 c
    ⊢ (iprop(others (F := F) c ∗ (∃ d, owns (c : Thread nD τ) scM0 fullShare d) ∗ (∃ d, owns (c : Thread nD τ) scM1 fullShare d)
        ∗ (∃ d, owns (c : Thread nD τ) scM2 fullShare d) ∗ (∃ r, prngReg c r)) : sProp 𝕄) := by
  unfold Pipeline.ΦA others; rw [scopedRest1_eq]; simp only [scM0, scM1, scM2, owns_whole]
  iintro ⟨⟨A0, A1, A2, A3, A4, A5, A6, A7, A8, A9, S0, S1, S2⟩, Hg⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [S0]; · iexact S0
  isplitl [S1]; · iexact S1
  isplitl [S2]; · iexact S2
  iexact Hg

theorem PhiA_join (c : Dev nD) : (iprop(others (F := F) c ∗ (∃ d, owns (c : Thread nD τ) scM0 fullShare d) ∗ (∃ d, owns (c : Thread nD τ) scM1 fullShare d)
        ∗ (∃ d, owns (c : Thread nD τ) scM2 fullShare d) ∗ (∃ r, prngReg c r)) : sProp 𝕄) ⊢ Pipeline.ΦA spec1 c := by
  unfold Pipeline.ΦA others; rw [scopedRest1_eq]; simp only [scM0, scM1, scM2, owns_whole]
  iintro ⟨⟨A0, A1, A2, A3, A4, A5, A6, A7, A8, A9⟩, S0, S1, S2, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    iexact S2
  iexact Hg

/-- The invariant before position `n`: before the first point the scoped rest at anything; afterwards the carried
    buffers at what the point before left in them. -/
def PhiS (c : Dev nD) : (n : ℕ) → n ≤ cfg1.N → sProp 𝕄
  | 0, _ => Pipeline.ΦA spec1 c
  | n + 1, hn => iprop(others (F := F) c ∗ owns (c : Thread nD τ) scM0 fullShare (stAt V c n hn).1 ∗ owns (c : Thread nD τ) scM1 fullShare (stAt V c n hn).2.1
      ∗ owns (c : Thread nD τ) scM2 fullShare (stAt V c n hn).2.2.1 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM0 fullShare (stAt V c n hn).1 ∗ owns (c : Thread nD τ) scM1 fullShare (stAt V c n hn).2.1
      ∗ owns (c : Thread nD τ) scM2 fullShare (stAt V c n hn).2.2.1 ∗ (∃ r, prngReg c r)) := rfl

theorem PhiS_pos (c : Dev nD) (n : ℕ) (h : n ≤ cfg1.N) (hz : n ≠ 0) :
    PhiS V c n h = iprop(others (F := F) c ∗ owns (c : Thread nD τ) scM0 fullShare (stAt V c (n - 1) (by omega)).1 ∗ owns (c : Thread nD τ) scM1 fullShare (stAt V c (n - 1) (by omega)).2.1
      ∗ owns (c : Thread nD τ) scM2 fullShare (stAt V c (n - 1) (by omega)).2.2.1 ∗ (∃ r, prngReg c r)) := by
  cases n with
  | zero => exact absurd rfl hz
  | succ n => rfl

/-- At any position the invariant yields the carried buffers at SOME contents. -/
theorem PhiS_weaken (c : Dev nD) (n : ℕ) (h : n ≤ cfg1.N) : PhiS V c n h
    ⊢ (iprop(others (F := F) c ∗ (∃ d, owns (c : Thread nD τ) scM0 fullShare d) ∗ (∃ d, owns (c : Thread nD τ) scM1 fullShare d)
        ∗ (∃ d, owns (c : Thread nD τ) scM2 fullShare d) ∗ (∃ r, prngReg c r)) : sProp 𝕄) := by
  cases n with
  | zero => exact PhiA_split c
  | succ n =>
    rw [PhiS_succ]
    iintro ⟨Ho, S0, S1, S2, Hg⟩
    isplitl [Ho]; · iexact Ho
    isplitl [S0]; · iexists _; iexact S0
    isplitl [S1]; · iexists _; iexact S1
    isplitl [S2]; · iexists _; iexact S2
    iexact Hg

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stAt V c t.val t.isLt).2.2.2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (stAt V c t.val t.isLt).2.2.2 := by dsimp only [dat]

theorem before_0 (c : Dev nD) (t : Fin cfg1.N) (d) : (dat V c).before 0 t d = iblk V c 0 t :=
  before_in0 V (dat V c) (A_eq V c 0) (after_0 V c) t d
theorem before_1 (c : Dev nD) (t : Fin cfg1.N) (d) : (dat V c).before 1 t d = iblk V c 1 t :=
  before_in1 V (dat V c) (A_eq V c 1) (after_1 V c) t d
theorem before_2 (c : Dev nD) (t : Fin cfg1.N) (d) : (dat V c).before 2 t d = iblk V c 2 t :=
  before_in2 V (dat V c) (A_eq V c 2) (after_2 V c) t d
theorem before_3 (c : Dev nD) (t : Fin cfg1.N) (d) : (dat V c).before 3 t d = iblk V c 3 t :=
  before_in3 V (dat V c) (A_eq V c 3) (after_3 V c) t d

theorem leaves_0 (c : Dev nD) (t : Fin cfg1.N) : (dat V c).leavesExact 0 t = owns (c : Thread nD τ) (ms0 t) fullShare (iblk V c 0 t) := by
  unfold Dat.leavesExact; rw [live_in0 t, after_0]
theorem leaves_1 (c : Dev nD) (t : Fin cfg1.N) : (dat V c).leavesExact 1 t = owns (c : Thread nD τ) (ms1 t) fullShare (iblk V c 1 t) := by
  unfold Dat.leavesExact; rw [live_in1 t, after_1]
theorem leaves_2 (c : Dev nD) (t : Fin cfg1.N) : (dat V c).leavesExact 2 t = owns (c : Thread nD τ) (ms2 t) fullShare (iblk V c 2 t) := by
  unfold Dat.leavesExact; rw [live_in2 t, after_2]
theorem leaves_3 (c : Dev nD) (t : Fin cfg1.N) : (dat V c).leavesExact 3 t = owns (c : Thread nD τ) (ms3 t) fullShare (iblk V c 3 t) := by
  unfold Dat.leavesExact; rw [live_in3 t, after_3]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 8000000 in
/-- The body at any point: the inputs' buffers hold their blocks; the position says which case the point is in; the
    invariant hands over the carried buffers (at what the point before left, or at anything where the case resets
    them) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3]
  have hN : t.val < 64 := lt_of_lt_of_eq t.isLt (show cfg1.N = 64 from N_1)
  by_cases h0 : t.val % 4 = 0
  · have hc1 : condFirst (grid1.coords t) := (hcondFirst t).mpr h0
    have hc2 : ¬condLast (grid1.coords t) := fun h => by have := (hcondLast t).mp h; omega
    rw [Dat.leavesExact_idle (dat V c) 4 t (idle4_first t hc1 hc2) (noFlush4_first t hc1 hc2)]
    rw [stAt_first V c t h0 hc2]
    unfold soutFirst0 soutFirst1 soutFirst2; (try dsimp only)
    rw [PhiS_castSucc V c t]
    iintro ⟨HΦ, Ho, ⟨%d0, H0⟩, ⟨%d1, H1⟩, ⟨%d2, H2⟩, ⟨%d3, H3⟩, ⟨%d4, H4⟩⟩
    ihave HΦ' := (PhiS_weaken V c t.val _) $$ HΦ
    icases HΦ' with ⟨Hoth, HS0, HS1, HS2, Hg⟩
    iapply ((runFirst c (grid1.coords t) _ _ _ _ _ _ _ _ _ _ _ _ _ _ _ _ ((hcondFirst t).mpr h0) hc2 (iblk V c 0 t) (iblk V c 1 t) (iblk V c 2 t) (iblk V c 3 t)).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, ⟨%e0, HS0⟩, ⟨%e1, HS1⟩, ⟨%e2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (coverFirst0 c _ _ _ _ _ _ _ _ _ _ _ _ _ _ _ _ _ _ _ _ _ _ _)
      isplitl [HS1]
      · unfold owns; iexists _; isplitr
        swap; · iexact HS1
        ipureintro; exact View.read_writes_of_cover _ _ _ _ _ (coverFirst1 c _ _ _ _ _ _ _ _ _ _ _ _ _ _ _ _ _ _ _ _ _ _ _)
      isplitl [HS2]
      · unfold owns; iexists _; isplitr
        swap; · iexact HS2
        ipureintro; exact View.read_writes_of_cover _ _ _ _ _ (coverFirst2 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc1 : ¬condFirst (grid1.coords t) := fun h => h0 ((hcondFirst t).mp h)
    by_cases h3 : t.val % 4 = 3
    · have hc2 : condLast (grid1.coords t) := (hcondLast t).mpr h3
      rw [show (dat V c).leavesExact 4 t = owns (c : Thread nD τ) (ms4 t) fullShare ((dat V c).after 4 t) from by
        unfold Dat.leavesExact; rw [live4_last t hc1 hc2], after_4]
      rw [stAt_last V c t h0 h3]
      unfold soutLast0 soutLast1 soutLast2 soutLast4; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩, ⟨%d4, H4⟩⟩
      iapply ((runLast c (grid1.coords t) _ _ _ _ _ _ _ _ _ _ _ _ _ _ _ _ (fun h => h0 ((hcondFirst t).mp h)) ((hcondLast t).mpr h3) (iblk V c 0 t) (iblk V c 1 t) (iblk V c 2 t) (iblk V c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverLast0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverLast1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverLast2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLast4 c _ _ _ _ _ _ _ _ _ _ _ _ _ _ _ _ _ _ _ _ _ _ _ _ _ _)
    · have hc2 : ¬condLast (grid1.coords t) := fun h => h3 ((hcondLast t).mp h)
      rw [Dat.leavesExact_idle (dat V c) 4 t (idle4_mid t hc1 hc2) (noFlush4_mid t hc1 hc2)]
      rw [stAt_mid V c t h0 h3]
      unfold soutMid0 soutMid1 soutMid2; (try dsimp only)
      rw [PhiS_castSucc V c t, PhiS_pos V c _ _ hz]
      iintro ⟨⟨Hoth, HS0, HS1, HS2, Hg⟩, Ho, ⟨%d0, H0⟩, ⟨%d1, H1⟩, ⟨%d2, H2⟩, ⟨%d3, H3⟩, ⟨%d4, H4⟩⟩
      iapply ((runMid c (grid1.coords t) _ _ _ _ _ _ _ _ _ _ _ _ _ _ _ _ (fun h => h0 ((hcondFirst t).mp h)) (fun h => h3 ((hcondLast t).mp h)) (iblk V c 0 t) (iblk V c 1 t) (iblk V c 2 t) (iblk V c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [Hoth HS0 HS1 HS2 Hg]
      · isplitl [Hoth]; · iexact Hoth
        isplitl [HS0]
        · unfold owns; iexists _; isplitr
          swap; · iexact HS0
          ipureintro; exact View.read_writes_of_cover _ _ _ _ _ (coverMid0 c _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverMid1 c _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (coverMid2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation (c : Dev nD) : BodyObligation (dat (F := F) V c) (defs₀ (F := F)) Variants.none () Set.univ := fun t => by
  rw [bigSep_W1, bigSep_W1]
  exact sound_body V c t

/-- Before the first point the invariant is the scoped rest and the generator register. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the carried buffers' contents are forgotten. -/
theorem Phi_out (c : Dev nD) : (dat V c).Φ (Fin.last cfg1.N) ⊢ Pipeline.ΦA spec1 c := by
  rw [show (dat V c).Φ (Fin.last cfg1.N) = PhiS V c (Fin.last cfg1.N).val (Nat.le_of_lt_succ (Fin.last cfg1.N).isLt) from rfl]
  exact (PhiS_weaken V c _ _).trans (PhiA_join c)

end

end Cert.KernelIdeal.Attn

end
-- ==== Proof.IdealRun.lean ====
/-
  The whole program, from the launch to the return: the host concatenates the two weight matrices and the two biases,
  the projection call writes the queries, the keys and the narrowed tokens, the attention call reads those three and
  the tokens and writes the result. Between two items every unscoped buffer of a core holds known contents: the launch
  memory, then the concatenations, then each call's result arrays at what its write-backs leave and everything else as
  it was. Every execution ends, and the final memory holds those last contents at every unscoped buffer; in particular
  no item writes an argument.
-/
import proofs.«107902_j85942295593581_2_alg».proof.Proof.IdealProj
import proofs.«107902_j85942295593581_2_alg».proof.Proof.IdealAttn

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host's two concatenations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its arrays at what its write-backs leave, everything else as before. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the attention call. -/
def W3 (c : Dev nD) : Valuation τ sig (Elt F) :=
  Pipeline.withArrays spec1 c (W2 m ρ c) fun w => (Attn.dat (V2 m ρ) c).arrAt w cfg1.N
theorem W3_arr (c : Dev nD) (w : Fin cfg1.W) :
    W3 m ρ c (Proc.devRef .tc (Pipeline.arrRef spec1 w)) = (Attn.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Attn.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## No item writes an argument -/

/-- The concatenations write only their two result buffers. -/
theorem W1_of_arg (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.binary_writes, Finset.mem_singleton]
    exact ⟨StableHlo.devRef_ne_of_ne h0, StableHlo.devRef_ne_of_ne h1⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 3).trans (((Attn.dat (V2 m ρ) c).arrAt_in 3 rfl _).trans (Attn.A_eq (V2 m ρ) c 3))
    _ = W1 m ρ c (Proc.devRef .tc main_arg0) := (W2_arr m ρ c 0).trans (((Proj.dat (V1 m ρ) c).arrAt_in 0 rfl _).trans (Proj.A_eq (V1 m ρ) c 0))
    _ = W0 m ρ c (Proc.devRef .tc main_arg0) := W1_of_arg m ρ c main_arg0 (by decide) (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_arg m ρ c main_arg3 (by decide) (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_arg m ρ c main_arg4 (by decide) (by decide)
    _ = m ((c : Thread nD τ).loc main_arg4) := rfl

/-! ## The proof data family and the thread state -/

abbrev adm : (p : Fin 2) → (pcfgs (F := F) p).Adm := fun p => (cfgs p).toPCfg_adm
/-- Each call's proof data at the contents the call is entered from. -/
def pdats : (p : Fin 2) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Attn.Phi_in (V2 m ρ) c)
    unfold Pipeline.ΦA
    iintro ⟨Hp, -, Hr⟩
    isplitl [Hr]; · iexact Hr
    iexact Hp
  hout c := by
    refine (Attn.Phi_out (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every execution ends, and the final memory holds, at every unscoped buffer of every core, the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every execution ends and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Run

end
-- ==== Proof.IdealAttnPieces.lean ====
/-
  What each case of the attention body leaves in the buffers it stores to, as a function of what it read.

  The body has three cases. At a middle key block it reads the query block x0, the key block x1, the value block x2
  and the three carried buffers — running shift xs0, running sum of exponentials xs1, running weighted sum xs2 — and
  stores into each carried buffer one whole-buffer value: the new shift, the rescaled sum plus the block's
  exponentials, the rescaled weighted sum plus the block's exponentials against its values. At the last key block
  it does the same and then stores the result block: the weighted sum it has just stored, over the sum of
  exponentials it has just stored, plus the query tokens x3. At the first key block it first stores the reset values
  (a large negative shift, 0, 0) into the three carried buffers and then proceeds as a middle block, every later
  load of a carried buffer reading the reset value just stored; so the first case is the middle case run on the
  reset values.

  Every store covers its whole buffer and every load reads a whole buffer, so what a buffer holds at the end is the
  payload of the last store into it, and a load that follows a store reads that store's payload.
-/
import proofs.«107902_j85942295593581_2_alg».proof.Proof.IdealAttn
import Idealize.ShloMosaic.Lib.Pipeline.Value
import Idealize.ShloMosaic.Lib.Tactic

set_option maxRecDepth 16384

noncomputable section

namespace Cert.KernelIdeal.AttnPieces

open Cert.KernelIdeal Cert.KernelIdeal.Gen Cert.KernelIdeal.Attn
open Idealize.ShloMosaic Idealize.ShloMosaic.TcCoe Idealize.ShloMosaic.Tactic Idealize.SL.Sem

variable {F : FTy → Type} [FloatOps F]

/-- The zero offsets of a rank-2 rectangle, however spelt. -/
theorem hz2 : (![0, 0] : Fin 2 → Nat) = fun _ => 0 := funext fun a => by fin_cases a <;> rfl
/-- The zero offsets of a rank-3 rectangle, however spelt. -/
theorem hz3 : (![0, 0, 0] : Fin 3 → Nat) = fun _ => 0 := funext fun a => by fin_cases a <;> rfl

/-- A middle key block leaves, as running shift, the new shift of the block against what the block before left. -/
theorem mid0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutMid0 c i arg3 harg3 arg4 harg4 arg5 harg5 arg6 harg6 arg7 harg7 arg8 harg8 arg9 harg9 arg10 harg10 hc1 hc2 x0 x1 x2 x3 xs0 xs1 xs2 = k1_pay2 (k1_pay8 x0 x1 xs0) := by
  unfold soutMid0
  rw [View.read_writes_eq_canon _ _ _ (coverMid0 c i arg3 harg3 arg4 harg4 arg5 harg5 arg6 harg6 arg7 harg7 arg8 harg8 arg9 harg9 arg10 harg10 hc1 hc2 x0 x1 x2 x3 xs0 xs1 xs2)]
  unfold runMid
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- A middle key block leaves, as running sum of exponentials, the old one rescaled plus the block's. -/
theorem mid1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutMid1 c i arg3 harg3 arg4 harg4 arg5 harg5 arg6 harg6 arg7 harg7 arg8 harg8 arg9 harg9 arg10 harg10 hc1 hc2 x0 x1 x2 x3 xs0 xs1 xs2 = k1_pay11 x0 x1 xs0 xs0 xs1 := by
  unfold soutMid1
  rw [View.read_writes_eq_canon _ _ _ (coverMid1 c i arg3 harg3 arg4 harg4 arg5 harg5 arg6 harg6 arg7 harg7 arg8 harg8 arg9 harg9 arg10 harg10 hc1 hc2 x0 x1 x2 x3 xs0 xs1 xs2)]
  unfold runMid
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- A middle key block leaves, as running weighted sum, the old one rescaled plus the block's exponentials against its values. -/
theorem mid2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : ¬condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutMid2 c i arg3 harg3 arg4 harg4 arg5 harg5 arg6 harg6 arg7 harg7 arg8 harg8 arg9 harg9 arg10 harg10 hc1 hc2 x0 x1 x2 x3 xs0 xs1 xs2 = k1_pay1 (k1_pay9 x0 x1 xs0 xs0) (k1_pay12 x0 x1 xs0 x2) xs2 := by
  unfold soutMid2
  rw [View.read_writes_eq_canon _ _ _ (coverMid2 c i arg3 harg3 arg4 harg4 arg5 harg5 arg6 harg6 arg7 harg7 arg8 harg8 arg9 harg9 arg10 harg10 hc1 hc2 x0 x1 x2 x3 xs0 xs1 xs2)]
  unfold runMid
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The last key block updates the running shift as a middle block does. -/
theorem last0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutLast0 c i arg3 harg3 arg4 harg4 arg5 harg5 arg6 harg6 arg7 harg7 arg8 harg8 arg9 harg9 arg10 harg10 hc1 hc2 x0 x1 x2 x3 xs0 xs1 xs2 = k1_pay2 (k1_pay8 x0 x1 xs0) := by
  unfold soutLast0
  rw [View.read_writes_eq_canon _ _ _ (coverLast0 c i arg3 harg3 arg4 harg4 arg5 harg5 arg6 harg6 arg7 harg7 arg8 harg8 arg9 harg9 arg10 harg10 hc1 hc2 x0 x1 x2 x3 xs0 xs1 xs2)]
  unfold runLast
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The last key block updates the running sum of exponentials as a middle block does. -/
theorem last1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutLast1 c i arg3 harg3 arg4 harg4 arg5 harg5 arg6 harg6 arg7 harg7 arg8 harg8 arg9 harg9 arg10 harg10 hc1 hc2 x0 x1 x2 x3 xs0 xs1 xs2 = k1_pay11 x0 x1 xs0 xs0 xs1 := by
  unfold soutLast1
  rw [View.read_writes_eq_canon _ _ _ (coverLast1 c i arg3 harg3 arg4 harg4 arg5 harg5 arg6 harg6 arg7 harg7 arg8 harg8 arg9 harg9 arg10 harg10 hc1 hc2 x0 x1 x2 x3 xs0 xs1 xs2)]
  unfold runLast
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The last key block updates the running weighted sum as a middle block does. -/
theorem last2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutLast2 c i arg3 harg3 arg4 harg4 arg5 harg5 arg6 harg6 arg7 harg7 arg8 harg8 arg9 harg9 arg10 harg10 hc1 hc2 x0 x1 x2 x3 xs0 xs1 xs2 = k1_pay1 (k1_pay9 x0 x1 xs0 xs0) (k1_pay12 x0 x1 xs0 x2) xs2 := by
  unfold soutLast2
  rw [View.read_writes_eq_canon _ _ _ (coverLast2 c i arg3 harg3 arg4 harg4 arg5 harg5 arg6 harg6 arg7 harg7 arg8 harg8 arg9 harg9 arg10 harg10 hc1 hc2 x0 x1 x2 x3 xs0 xs1 xs2)]
  unfold runLast
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The last key block stores, as the result block, the updated weighted sum over the updated sum of exponentials, plus the query tokens: it reads back what it has just stored in the two carried buffers. -/
theorem last4 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : ¬condFirst i) (hc2 : condLast i)
    (x0 : Vec F S1x1024x128 .bf16) (x1 : Vec F S1x512x128 .bf16) (x2 : Vec F S1x512x1024 .bf16) (x3 : Vec F S1x1024x1024 .f32) (xs0 : Vec F S1024x1 .f32) (xs1 : Vec F S1024x1 .f32) (xs2 : Vec F S1024x1024 .f32) :
    soutLast4 c i arg3 harg3 arg4 harg4 arg5 harg5 arg6 harg6 arg7 harg7 arg8 harg8 arg9 harg9 arg10 harg10 hc1 hc2 x0 x1 x2 x3 xs0 xs1 xs2 = k1_pay3 (k1_pay1 (k1_pay9 x0 x1 xs0 xs0) (k1_pay12 x0 x1 xs0 x2) xs2) (k1_pay11 x0 x1 xs0 xs0 xs1) x3 := by
  unfold soutLast4
  rw [View.read_writes_eq_canon _ _ _ (coverLast4 c i arg3 harg3 arg4 harg4 arg5 harg5 arg6 harg6 arg7 harg7 arg8 harg8 arg9 harg9 arg10 harg10 hc1 hc2 x0 x1 x2 x3 xs0 xs1 xs2)]
  unfold runLast
  dsimp only
  sl_unfold_words
  rw [View.canon_cons_unit_zero (S := S1x1024x1024) hz3]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The first key block is a middle block run on the reset values: the running shift. -/
theorem first0 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) :
    soutFirst0 c i arg3 harg3 arg4 harg4 arg5 harg5 arg6 harg6 arg7 harg7 arg8 harg8 arg9 harg9 arg10 harg10 hc1 hc2 x0 x1 x2 x3 = k1_pay2 (k1_pay8 x0 x1 k1_pay4) := by
  unfold soutFirst0
  rw [View.read_writes_eq_canon _ _ _ (coverFirst0 c i arg3 harg3 arg4 harg4 arg5 harg5 arg6 harg6 arg7 harg7 arg8 harg8 arg9 harg9 arg10 harg10 hc1 hc2 x0 x1 x2 x3)]
  unfold runFirst
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The first key block is a middle block run on the reset values: the running sum of exponentials. -/
theorem first1 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) :
    soutFirst1 c i arg3 harg3 arg4 harg4 arg5 harg5 arg6 harg6 arg7 harg7 arg8 harg8 arg9 harg9 arg10 harg10 hc1 hc2 x0 x1 x2 x3 = k1_pay11 x0 x1 k1_pay4 k1_pay4 k1_pay5 := by
  unfold soutFirst1
  rw [View.read_writes_eq_canon _ _ _ (coverFirst1 c i arg3 harg3 arg4 harg4 arg5 harg5 arg6 harg6 arg7 harg7 arg8 harg8 arg9 harg9 arg10 harg10 hc1 hc2 x0 x1 x2 x3)]
  unfold runFirst
  dsimp only
  sl_unfold_words
  rw [View.canon_cons_unit_zero (S := S1024x1) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

/-- The first key block is a middle block run on the reset values: the running weighted sum. -/
theorem first2 (c : Dev nD) (i : grid1.Coords) (arg3 : Memref sig .tc .vmem S1x1024x128 .bf16) (harg3 : arg3.IsWhole) (arg4 : Memref sig .tc .vmem S1x512x128 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1024 .f32) (harg10 : arg10.IsWhole) (hc1 : condFirst i) (hc2 : ¬condLast i)
    (x0 : Vec F S1x1024x128 .bf16) (x1 : Vec F S1x512x128 .bf16) (x2 : Vec F S1x512x1024 .bf16) (x3 : Vec F S1x1024x1024 .f32) :
    soutFirst2 c i arg3 harg3 arg4 harg4 arg5 harg5 arg6 harg6 arg7 harg7 arg8 harg8 arg9 harg9 arg10 harg10 hc1 hc2 x0 x1 x2 x3 = k1_pay1 (k1_pay9 x0 x1 k1_pay4 k1_pay4) (k1_pay12 x0 x1 k1_pay4 x2) k1_pay6 := by
  unfold soutFirst2
  rw [View.read_writes_eq_canon _ _ _ (coverFirst2 c i arg3 harg3 arg4 harg4 arg5 harg5 arg6 harg6 arg7 harg7 arg8 harg8 arg9 harg9 arg10 harg10 hc1 hc2 x0 x1 x2 x3)]
  unfold runFirst
  dsimp only
  sl_unfold_words
  rw [View.canon_cons_unit_zero (S := S1024x1024) hz2]
  simp only [View.readCov_unit_zero (S := S1024x1) _ hz2, View.readCov_unit_zero (S := S1024x1024) _ hz2, View.readAt_eq_ld, harg3.read_unread, harg4.read_unread, harg5.read_unread, harg6.read_unread, harg8.read_unread, harg9.read_unread, harg10.read_unread, View.ld_unit_zero (S := S1x1024x128) hz3, View.ld_unit_zero (S := S1x512x128) hz3, View.ld_unit_zero (S := S1x512x1024) hz3, View.ld_unit_zero (S := S1x1024x1024) hz3, View.ld_unit_zero (S := S1024x1) hz2, View.ld_unit_zero (S := S1024x1024) hz2]

end Cert.KernelIdeal.AttnPieces

end
-- ==== Proof.LibSoftmaxShift.lean ====
/-
  A softmax on the extended reals does not see a common real shift of its scores.

  For real scores s_j and a real M, exp (s_j − M) / Σ_j' exp (s_j' − M) = exp s_j / Σ_j' exp s_j': the common
  factor exp (−M) cancels, the sums being positive. It is an identity of real numbers, carried into the extended
  reals through the coercion of a finite sum (a sum of coerced reals is the coerced sum). The shift a stable
  softmax subtracts is the row's maximum, the fold of max from −∞ over the row; over at least one real it is
  a real: below +∞ because every entry is, and at least the first entry, hence above −∞.
-/
import Idealize.ShloMosaic.PureOps.Ideal

noncomputable section

namespace Cert.LibSoftmaxShift

open Idealize.ShloMosaic
open scoped BigOperators

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Softmax does not see a common real shift of its scores. -/
theorem softmax_shift {ι : Type} [Fintype ι] [Nonempty ι] (s : ι → ℝ) (M : ℝ) (j : ι) :
    Ideal.div (Ideal.exp ((s j : EReal) - (M : EReal))) (0 + ∑ j' : ι, Ideal.exp ((s j' : EReal) - (M : EReal)))
      = Ideal.div (Ideal.exp (s j : EReal)) (∑ j' : ι, Ideal.exp (s j' : EReal)) := by
  have hpos : ∀ t : ι → ℝ, (0 : ℝ) < ∑ j' : ι, Real.exp (t j') := fun t =>
    Finset.sum_pos (fun _ _ => Real.exp_pos _) Finset.univ_nonempty
  simp only [← EReal.coe_sub, Ideal.exp_coe, coe_sum, zero_add]
  rw [Ideal.div_coe (hpos fun j' => s j' - M).ne', Ideal.div_coe (hpos s).ne', ← EReal.coe_mul, ← EReal.coe_mul]
  congr 1
  have hM : Real.exp M ≠ 0 := (Real.exp_pos M).ne'
  have h1 : ∑ j' : ι, Real.exp (s j' - M) = (∑ j' : ι, Real.exp (s j')) / Real.exp M := by
    rw [Finset.sum_div]; exact Finset.sum_congr rfl fun j' _ => Real.exp_sub _ _
  rw [h1, Real.exp_sub]
  have := (hpos s).ne'
  field_simp

/-- The maximum of finitely many reals (at least one), started from ⊥, is a real. -/
theorem fold_max_real {n : Nat} (hn : 0 < n) (f : Fin n → EReal) (hf : ∀ k, ∃ r : ℝ, f k = (r : EReal)) :
    ∃ r : ℝ, (Finset.univ : Finset (Fin n)).fold max ⊥ f = (r : EReal) := by
  have hlt : (Finset.univ : Finset (Fin n)).fold max ⊥ f < ⊤ :=
    (Finset.fold_max_lt _).2 ⟨bot_lt_top, fun k _ => by obtain ⟨r, hr⟩ := hf k; rw [hr]; exact EReal.coe_lt_top r⟩
  have hge : f ⟨0, hn⟩ ≤ (Finset.univ : Finset (Fin n)).fold max ⊥ f :=
    (Finset.le_fold_max _).2 (Or.inr ⟨⟨0, hn⟩, Finset.mem_univ _, le_rfl⟩)
  have hne : (Finset.univ : Finset (Fin n)).fold max ⊥ f ≠ ⊥ := by
    obtain ⟨r, hr⟩ := hf ⟨0, hn⟩
    rw [hr] at hge
    exact ne_of_gt (lt_of_lt_of_le (EReal.bot_lt_coe r) hge)
  exact ⟨_, (EReal.coe_toReal hlt.ne hne).symm⟩

end Cert.LibSoftmaxShift

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LibOnlineSoftmax.lean ====
/-
  The running softmax of one row, on the extended reals.

  A row of scores arrives in blocks. The running state is a triple (m, l, a): a shift m, the sum l of the
  exponentials of the scores seen so far taken relative to m, and the sum a of those exponentials weighted by
  the values that go with the scores. A new block (s, v) moves the shift to m' = max m (max of s), rescales l
  and a by exp (m − m') and adds the block's own exponentials relative to m'. The state starts at (−∞, 0, 0) and
  the row's result is a / l.

  When every score and value is a real number, the state after at least one block is
      (M, exp (−M) · E, exp (−M) · W)   for SOME real M,
  where E is the sum of exp s and W the sum of exp s · v over everything seen: the step keeps this form
  whatever M is, because exp (M − M') · exp (−M) = exp (−M') and exp (s − M') = exp (−M') · exp s. Hence
  a / l = W / E, the shift cancelling since E > 0. The one-pass softmax — every exponential taken relative to
  one common real shift, each weight divided by 0 + the sum of all of them — is W / E as well, so the two
  agree; and a sum over 4·n scores is the sum over 4 blocks of n.
-/
import Mathlib
import Idealize.ShloMosaic.PureOps.Ideal
import proofs.«107902_j85942295593581_2_alg».proof.Proof.LibSoftmaxShift
import proofs.«107902_j85942295593581_2_alg».proof.Proof.LibBlockSums

noncomputable section

namespace OnlineSoftmax

open Idealize.ShloMosaic
open scoped BigOperators

variable {n : ℕ}

/-- The new shift: the old one against the block's maximum (a fold of max from −∞). -/
def stepM (m : EReal) (s : Fin n → EReal) : EReal := max m ((Finset.univ : Finset (Fin n)).fold max ⊥ s)

/-- The new sum of exponentials: the old one rescaled, plus the block's. -/
def stepL (m l : EReal) (s : Fin n → EReal) : EReal :=
  Ideal.exp (m - stepM m s) * l + ∑ c : Fin n, Ideal.exp (s c - stepM m s)

/-- The new weighted sum: the old one rescaled, plus the block's exponentials times its values. -/
def stepA (m a : EReal) (s v : Fin n → EReal) : EReal :=
  Ideal.exp (m - stepM m s) * a + ∑ c : Fin n, Ideal.exp (s c - stepM m s) * v c

/-- One block absorbed into the state (m, l, a). -/
def step (st : EReal × EReal × EReal) (s v : Fin n → EReal) : EReal × EReal × EReal :=
  (stepM st.1 s, stepL st.1 st.2.1 s, stepA st.1 st.2.2 s v)

/-- The state before any block. -/
def init : EReal × EReal × EReal := (⊥, 0, 0)

/-- Four blocks absorbed in order. -/
def run4 (s v : Fin 4 → Fin n → EReal) : EReal × EReal × EReal :=
  step (step (step (step init (s 0) (v 0)) (s 1) (v 1)) (s 2) (v 2)) (s 3) (v 3)

/-- The row's result: the weighted sum over the sum. -/
def out (st : EReal × EReal × EReal) : EReal := Ideal.div st.2.2 st.2.1

/-- The state has seen real scores with exponential sum `E` and weighted sum `W`, relative to some real shift. -/
def Seen (st : EReal × EReal × EReal) (E W : ℝ) : Prop :=
  ∃ M : ℝ, st = ((M : EReal), ((Real.exp (-M) * E : ℝ) : EReal), ((Real.exp (-M) * W : ℝ) : EReal))

theorem sum_exp_rel (s : Fin n → ℝ) (M : ℝ) :
    ∑ c : Fin n, Ideal.exp (((s c : ℝ) : EReal) - (M : EReal)) = ((Real.exp (-M) * ∑ c : Fin n, Real.exp (s c) : ℝ) : EReal) := by
  simp only [← EReal.coe_sub, Ideal.exp_coe, Cert.LibSoftmaxShift.coe_sum]
  congr 1
  rw [Finset.mul_sum]
  exact Finset.sum_congr rfl fun c _ => by rw [sub_eq_add_neg, Real.exp_add, mul_comm]

theorem sum_exp_rel_mul (s v : Fin n → ℝ) (M : ℝ) :
    ∑ c : Fin n, Ideal.exp (((s c : ℝ) : EReal) - (M : EReal)) * ((v c : ℝ) : EReal)
      = ((Real.exp (-M) * ∑ c : Fin n, Real.exp (s c) * v c : ℝ) : EReal) := by
  simp only [← EReal.coe_sub, Ideal.exp_coe, ← EReal.coe_mul, Cert.LibSoftmaxShift.coe_sum]
  congr 1
  rw [Finset.mul_sum]
  exact Finset.sum_congr rfl fun c _ => by rw [sub_eq_add_neg, Real.exp_add]; ring

/-- The first block: from (−∞, 0, 0) the old sums contribute nothing. -/
theorem seen_init (hn : 0 < n) (s v : Fin n → ℝ) :
    Seen (step init (fun c => ((s c : ℝ) : EReal)) (fun c => ((v c : ℝ) : EReal)))
      (∑ c : Fin n, Real.exp (s c)) (∑ c : Fin n, Real.exp (s c) * v c) := by
  obtain ⟨r, hr⟩ := Cert.LibSoftmaxShift.fold_max_real hn (fun c => ((s c : ℝ) : EReal)) (fun c => ⟨s c, rfl⟩)
  have hM : stepM (⊥ : EReal) (fun c => ((s c : ℝ) : EReal)) = (r : EReal) := by
    unfold stepM; rw [hr]; exact max_eq_right bot_le
  refine ⟨r, ?_⟩
  unfold step init
  dsimp only
  unfold stepL stepA
  rw [hM, sum_exp_rel, sum_exp_rel_mul, EReal.bot_sub, Ideal.exp_bot, mul_zero, zero_add, zero_add]

/-- A further block keeps the form, whatever the shifts are. -/
theorem seen_step (hn : 0 < n) (st : EReal × EReal × EReal) (E W : ℝ) (h : Seen st E W) (s v : Fin n → ℝ) :
    Seen (step st (fun c => ((s c : ℝ) : EReal)) (fun c => ((v c : ℝ) : EReal)))
      (E + ∑ c : Fin n, Real.exp (s c)) (W + ∑ c : Fin n, Real.exp (s c) * v c) := by
  obtain ⟨M, rfl⟩ := h
  obtain ⟨r, hr⟩ := Cert.LibSoftmaxShift.fold_max_real hn (fun c => ((s c : ℝ) : EReal)) (fun c => ⟨s c, rfl⟩)
  have hM : stepM (M : EReal) (fun c => ((s c : ℝ) : EReal)) = ((max M r : ℝ) : EReal) := by
    unfold stepM; rw [hr]; exact (EReal.coe_strictMono.monotone.map_max).symm
  refine ⟨max M r, ?_⟩
  unfold step
  dsimp only
  unfold stepL stepA
  rw [hM, sum_exp_rel, sum_exp_rel_mul, ← EReal.coe_sub, Ideal.exp_coe, ← EReal.coe_mul, ← EReal.coe_mul,
    ← EReal.coe_add, ← EReal.coe_add]
  have e : Real.exp (M - max M r) * Real.exp (-M) = Real.exp (-(max M r)) := by
    rw [← Real.exp_add]; congr 1; ring
  refine Prod.ext rfl (Prod.ext ?_ ?_)
  · show ((_ : ℝ) : EReal) = ((_ : ℝ) : EReal)
    congr 1
    rw [← mul_assoc, e]; ring
  · show ((_ : ℝ) : EReal) = ((_ : ℝ) : EReal)
    congr 1
    rw [← mul_assoc, e]; ring

/-- The result of a state that has seen (E, W), E positive, is W / E: the shift cancels. -/
theorem out_of_seen (st : EReal × EReal × EReal) (E W : ℝ) (h : Seen st E W) (hE : 0 < E) :
    out st = ((W / E : ℝ) : EReal) := by
  obtain ⟨M, rfl⟩ := h
  unfold out
  dsimp only
  have hx : Real.exp (-M) * E ≠ 0 := mul_ne_zero (Real.exp_pos _).ne' hE.ne'
  rw [Ideal.div_coe hx, ← EReal.coe_mul]
  congr 1
  have := (Real.exp_pos (-M)).ne'
  field_simp

/-- Four real blocks: the result is the exponential-weighted mean of the values over all four. -/
theorem out_run4 (hn : 0 < n) (s v : Fin 4 → Fin n → ℝ) :
    out (run4 (fun j c => ((s j c : ℝ) : EReal)) (fun j c => ((v j c : ℝ) : EReal)))
      = (((∑ j : Fin 4, ∑ c : Fin n, Real.exp (s j c) * v j c) / (∑ j : Fin 4, ∑ c : Fin n, Real.exp (s j c)) : ℝ) : EReal) := by
  have h4 := seen_step hn _ _ _ (seen_step hn _ _ _ (seen_step hn _ _ _ (seen_init hn (s 0) (v 0)) (s 1) (v 1)) (s 2) (v 2)) (s 3) (v 3)
  have hpos : ∀ j : Fin 4, 0 < ∑ c : Fin n, Real.exp (s j c) := fun j =>
    Finset.sum_pos (fun _ _ => Real.exp_pos _) ⟨⟨0, hn⟩, Finset.mem_univ _⟩
  rw [Fin.sum_univ_four, Fin.sum_univ_four]
  exact out_of_seen _ _ _ h4 (by have := hpos 0; have := hpos 1; have := hpos 2; have := hpos 3; positivity)

/-- The one-pass softmax-weighted sum over real scores, every exponential relative to one real shift `M` and each
    weight divided by `0 +` the sum of all of them, is the same exponential-weighted mean. -/
theorem softmax_sum {ι : Type} [Fintype ι] [Nonempty ι] (s v : ι → ℝ) (M : ℝ) :
    ∑ k : ι, Ideal.div (Ideal.exp (((s k : ℝ) : EReal) - (M : EReal))) (0 + ∑ k' : ι, Ideal.exp (((s k' : ℝ) : EReal) - (M : EReal)))
        * ((v k : ℝ) : EReal)
      = (((∑ k : ι, Real.exp (s k) * v k) / (∑ k : ι, Real.exp (s k)) : ℝ) : EReal) := by
  have hpos : (0 : ℝ) < ∑ k : ι, Real.exp (s k) := Finset.sum_pos (fun _ _ => Real.exp_pos _) Finset.univ_nonempty
  simp only [Cert.LibSoftmaxShift.softmax_shift, Ideal.exp_coe, Cert.LibSoftmaxShift.coe_sum, Ideal.div_coe hpos.ne',
    ← EReal.coe_mul]
  congr 1
  rw [Finset.sum_div]
  exact Finset.sum_congr rfl fun k _ => by field_simp

end OnlineSoftmax

end
-- ==== Proof.Spec.lean ====
/-
  What the two programs compute, row by row, as functions of the five argument arrays read at plain coordinates.

  Both programs project every token x[b, n, ·] to a query f[b, n, ·] = x[b, n, ·] · Wf + bf and a key
  g[b, n, ·] = x[b, n, ·] · Wg + bg, score every pair of tokens of a batch entry by s[b, n, m] = f[b, n, ·] · g[b, m, ·],
  and return, for token n, the softmax-weighted mean over m of the tokens x[b, m, ·] plus x[b, n, ·] itself.

  The reference takes the softmax in one pass: each exponential relative to the row's maximum, each weight divided
  by 0 + the sum of all of them. The kernel walks the 2048 keys in four blocks of 512 and keeps a running state
  (shift, sum of exponentials, weighted sum), started at (a large negative real, 0, 0), and divides at the end.
-/
import Idealize.ShloMosaic.PureOps.Ideal
import proofs.«107902_j85942295593581_2_alg».proof.Proof.LibOnlineSoftmax

noncomputable section

namespace AttnSpec

open Idealize.ShloMosaic
open scoped BigOperators

/-- A token projected: x[b, n, ·] · W[·, a] + β[a]. -/
def proj (X : Fin 8 → Fin 2048 → Fin 1024 → EReal) (W : Fin 1024 → Fin 128 → EReal) (β : Fin 128 → EReal)
    (b : Fin 8) (n : Fin 2048) (a : Fin 128) : EReal :=
  (∑ d : Fin 1024, X b n d * W d a) + β a

/-- The score of query token n against key token m of batch entry b. -/
def score (X : Fin 8 → Fin 2048 → Fin 1024 → EReal) (Wf : Fin 1024 → Fin 128 → EReal) (βf : Fin 128 → EReal)
    (Wg : Fin 1024 → Fin 128 → EReal) (βg : Fin 128 → EReal) (b : Fin 8) (n m : Fin 2048) : EReal :=
  ∑ a : Fin 128, proj X Wf βf b n a * proj X Wg βg b m a

/-- Key k of block j: token 512·j + k. -/
def key (j : Fin 4) (k : Fin 512) : Fin 2048 := ⟨j.val * 512 + k.val, by omega⟩

/-- The large negative real the running shift starts from. -/
def negBig : EReal := Ideal.ofBits .f32 0xFF333332#32

/-- Four blocks absorbed in order into a running state. -/
def runFrom (st : EReal × EReal × EReal) (s v : Fin 4 → Fin 512 → EReal) : EReal × EReal × EReal :=
  OnlineSoftmax.step (OnlineSoftmax.step (OnlineSoftmax.step (OnlineSoftmax.step st (s 0) (v 0)) (s 1) (v 1)) (s 2) (v 2)) (s 3) (v 3)

/-- The kernel's entry (b, n, d): the running state over the four key blocks, divided out, plus the token itself. -/
def kernelOut (X : Fin 8 → Fin 2048 → Fin 1024 → EReal) (Wf : Fin 1024 → Fin 128 → EReal) (βf : Fin 128 → EReal)
    (Wg : Fin 1024 → Fin 128 → EReal) (βg : Fin 128 → EReal) (b : Fin 8) (n : Fin 2048) (d : Fin 1024) : EReal :=
  OnlineSoftmax.out (runFrom (negBig, 0, 0) (fun j k => score X Wf βf Wg βg b n (key j k)) (fun j k => X b (key j k) d))
    + X b n d

/-- The row's maximum as the reference takes it: −∞ against the fold of max from −∞. -/
def rowMax (X : Fin 8 → Fin 2048 → Fin 1024 → EReal) (Wf : Fin 1024 → Fin 128 → EReal) (βf : Fin 128 → EReal)
    (Wg : Fin 1024 → Fin 128 → EReal) (βg : Fin 128 → EReal) (b : Fin 8) (n : Fin 2048) : EReal :=
  max ⊥ ((Finset.univ : Finset (Fin 2048)).fold max ⊥ (fun m => score X Wf βf Wg βg b n m))

/-- The reference's entry (b, n, d): the one-pass softmax weights against the tokens, plus the token itself. -/
def refOut (X : Fin 8 → Fin 2048 → Fin 1024 → EReal) (Wf : Fin 1024 → Fin 128 → EReal) (βf : Fin 128 → EReal)
    (Wg : Fin 1024 → Fin 128 → EReal) (βg : Fin 128 → EReal) (b : Fin 8) (n : Fin 2048) (d : Fin 1024) : EReal :=
  (∑ m : Fin 2048,
      Ideal.div (Ideal.exp (score X Wf βf Wg βg b n m - rowMax X Wf βf Wg βg b n))
        (0 + ∑ m' : Fin 2048, Ideal.exp (score X Wf βf Wg βg b n m' - rowMax X Wf βf Wg βg b n)) * X b m d)
    + X b n d

end AttnSpec

end
-- ==== Proof.PayloadsProj.lean ====
/-
  The projection kernel's three stored values, read at one entry, on the extended reals.

  One grid step of the projection takes a block of 512 tokens x[0, r, ·] (1024 features each), the two weight
  matrices stacked side by side into one [1024, 256] matrix W, and the two biases stacked into one vector β of
  length 256. It forms x · W + β, a [512, 256] block, and stores its left half (columns 0..127: the queries) and
  its right half (columns 128..255: the keys), and it stores the tokens themselves in the narrower format.

  On the extended reals a change of float format is the identity, and a matrix product accumulated into a zero
  block is the plain finite sum over the contracted axis. So entry (r, a) of the left half is
  ∑ e, x[0, r, e] · W[e, a] + β[a], entry (r, a) of the right half is the same at column 128 + a, and the stored
  tokens are the tokens. What is left is bookkeeping: a shape cast that adds or drops a leading unit axis keeps
  the row-major position, a one-row block broadcast over many rows reads its one row, and a slice along the
  columns from offset o reads column o + a.

  This file also proves the two column forms used by the attention kernel: a vector cast to a one-column matrix,
  and a one-column matrix broadcast across columns, each read at an entry.
-/
import proofs.«107902_j85942295593581_2_alg».proof.Proof.Gen.KernelIdeal.Skeleton
import proofs.«107902_j85942295593581_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace AttnPayloads

open Cert.KernelIdeal Cert.KernelIdeal.Gen Idealize.ShloMosaic Idealize.ShloMosaic.ValueIdx
open scoped BigOperators

/-! ## Two layout operations on a column, read at an index -/

section Column
variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The matrix product of the projection, read at an entry -/

/-! ### `dotProj` -/

theorem dotProj_lhs_non (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem dotProj_lhs_contr (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem dotProj_rhs_non (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl
theorem dotProj_rhs_contr (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q

/-- Into the zero accumulator the product at `(r, c)` is the plain finite sum over the one contracted axis. -/
theorem dotProj_apply {φ₁ φ₂ : FTy} (L : FVec Ideal S512x1024 φ₁) (R : FVec Ideal S1024x256 φ₂) (r : Fin 512) (c : Fin 256) :
    matmul (F := Ideal) dot_S512x1024_S1024x256_S512x256_1_0_0_1_n_n none L R (constant S512x256 .f32 0x00000000#32) (ix2 r c)
      = ∑ k : Fin 1024, L (ix2 r k) * R (ix2 k c) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r c) ((contrEquiv1 dot_S512x1024_S1024x256_S512x256_1_0_0_1_n_n 1024 rfl rfl).symm k) = ix2 r k := funext fun a => Fin.ext (by
    match a with
    | ⟨0, _⟩ => exact dotProj_lhs_non _ _
    | ⟨1, _⟩ => exact (dotProj_lhs_contr _ _).trans hk)
  have er : dot_S512x1024_S1024x256_S512x256_1_0_0_1_n_n.rhsIdx (ix2 r c) ((contrEquiv1 dot_S512x1024_S1024x256_S512x256_1_0_0_1_n_n 1024 rfl rfl).symm k) = ix2 k c := funext fun a => Fin.ext (by
    match a with
    | ⟨1, _⟩ => exact dotProj_rhs_non _ _
    | ⟨0, _⟩ => exact (dotProj_rhs_contr _ _).trans hk)
  rw [el, er]

/-! ## The projection kernel's payloads -/

/-- The projected block before it is cut in two: row `r` of the tokens against column `c` of the stacked weights, plus the bias. -/
theorem k0_pay2_apply (v0 : Vec Ideal S1x512x1024 .f32) (v3 : Vec Ideal S1024x256 .f32) (v7 : Vec Ideal S256 .f32)
    (r : Fin 512) (c : Fin 256) :
    k0_pay2 (F := Ideal) v0 v3 v7 (ix2 r c) = (∑ e : Fin 1024, v0 (ix3 0 r e) * v3 (ix2 e c)) + v7 (ix1 c) := by
  unfold k0_pay2 k0_pay1
  rw [addf_apply, dotProj_apply, broadcastTo_1b_ab_apply, shapeCast_a_1a_apply, shapeCast_self, shapeCast_self]
  refine congrArg (· + v7 (ix1 c)) (Finset.sum_congr rfl fun e _ => ?_)
  rw [truncf_apply, truncf_apply, shapeCast_1ab_ab_apply]

/-- The left half (the queries) at `(r, a)`: column `a` of the stacked weights and bias. -/
theorem k0_pay3_apply (v0 : Vec Ideal S1x512x1024 .f32) (v3 : Vec Ideal S1024x256 .f32) (v7 : Vec Ideal S256 .f32)
    (r : Fin 512) (a : Fin 128) :
    k0_pay3 (F := Ideal) v0 v3 v7 (ix3 (0 : Fin 1) r a)
      = (∑ e : Fin 1024, v0 (ix3 0 r e) * v3 (ix2 e ⟨a.val, by omega⟩)) + v7 (ix1 ⟨a.val, by omega⟩) := by
  unfold k0_pay3
  rw [shapeCast_ab_1ab_apply, truncf_apply,
    slice2_axis1_apply 0 _ slices_S512x256_o0_0_S512x128 r a ⟨a.val, by omega⟩ (Nat.zero_add _).symm, k0_pay2_apply]

/-- The right half (the keys) at `(r, a)`: column `128 + a` of the stacked weights and bias. -/
theorem k0_pay4_apply (v0 : Vec Ideal S1x512x1024 .f32) (v3 : Vec Ideal S1024x256 .f32) (v7 : Vec Ideal S256 .f32)
    (r : Fin 512) (a : Fin 128) :
    k0_pay4 (F := Ideal) v0 v3 v7 (ix3 (0 : Fin 1) r a)
      = (∑ e : Fin 1024, v0 (ix3 0 r e) * v3 (ix2 e ⟨128 + a.val, by omega⟩)) + v7 (ix1 ⟨128 + a.val, by omega⟩) := by
  unfold k0_pay4
  rw [shapeCast_ab_1ab_apply, truncf_apply,
    slice2_axis1_apply 128 _ slices_S512x256_o0_128_S512x128 r a ⟨128 + a.val, by omega⟩ rfl, k0_pay2_apply]

/-- The tokens stored in the narrower format are the tokens. -/
theorem k0_pay5_apply (v0 : Vec Ideal S1x512x1024 .f32) (r : Fin 512) (d : Fin 1024) :
    k0_pay5 (F := Ideal) v0 (ix3 (0 : Fin 1) r d) = v0 (ix3 0 r d) := by
  unfold k0_pay5 k0_pay1
  rw [shapeCast_ab_1ab_apply, truncf_apply, shapeCast_1ab_ab_apply]

end AttnPayloads

end
-- ==== Proof.PayloadsAttn.lean ====
/-
  The attention kernel's stored values, read at one entry, on the extended reals.

  One grid step of the attention kernel holds a block of 1024 query rows f[0, r, ·], a block of 512 key rows
  g[0, k, ·] (128 features each), the 512 value rows x[0, k, ·] that go with the keys (1024 features each), and the
  running state of every query row: a shift m[r], a sum of exponentials l[r] and a weighted sum a[r, ·].

  The block's score of row r against key k is s[k] = ∑ a, f[0, r, a] · g[0, k, a]: the matrix product contracts
  both operands over their second axis. The step then takes
      m' = max m[r] (the maximum of s over the 512 keys, folded from −∞),
      l' = exp (m[r] − m') · l[r] + ∑ k, exp (s[k] − m'),
      a' = exp (m[r] − m') · a[r, d] + ∑ k, exp (s[k] − m') · x[0, k, d],
  which are the three components of one step of the running softmax. At the first step of a row the state is set
  to (a large negative real, 0, 0); at the last the result is a'[r, d] / l'[r] plus the token itself.

  On the extended reals a change of float format is the identity, a matrix product accumulated into a zero block
  is the plain finite sum over the contracted axis, a sum along the lanes from the word of 0 is the sum over the
  row, and a maximum along the lanes from the word of −∞ is the fold of max from −∞ over the row. The rest is
  bookkeeping of shape casts and broadcasts: a row vector cast to a one-column matrix and a one-column matrix
  broadcast across the columns both read the entry of their row.
-/
import proofs.«107902_j85942295593581_2_alg».proof.Proof.Gen.KernelIdeal.Skeleton
import proofs.«107902_j85942295593581_2_alg».proof.Proof.Spec
import proofs.«107902_j85942295593581_2_alg».proof.Proof.PayloadsProj
import Idealize.ShloMosaic.Lib.ValueIdx
import Idealize.ShloMosaic.Lib.ValueLayout
import Idealize.ShloMosaic.Lib.Pipeline.Value
import Idealize.ShloMosaic.PureOps.Ideal.Laws

noncomputable section

namespace AttnPayloads

open Cert.KernelIdeal Cert.KernelIdeal.Gen Idealize.ShloMosaic Idealize.ShloMosaic.ValueIdx
open scoped BigOperators

/-- An exponential at an index is the exponential of the element. -/
theorem exp_apply {s : Shape} {φ : FTy} (a : FVec Ideal s φ) (i : s.Idx) : exp a i = Ideal.exp (a i) := rfl

/-! ## The two matrix products of the attention step, read at an entry -/

/-! ### `dotScore` -/

theorem dotScore_lhs_non (i : S1024x512.Idx) (q : dot_S1024x128_S512x128_S1024x512_1_1_0_0_n_n.contr.Idx) :
    (dot_S1024x128_S512x128_S1024x512_1_1_0_0_n_n.lhsIdx i q 0).val = (i 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem dotScore_lhs_contr (i : S1024x512.Idx) (q : dot_S1024x128_S512x128_S1024x512_1_1_0_0_n_n.contr.Idx) :
    (dot_S1024x128_S512x128_S1024x512_1_1_0_0_n_n.lhsIdx i q 1).val = (q ⟨0, by decide⟩).val :=
  dot_S1024x128_S512x128_S1024x512_1_1_0_0_n_n.lhsIdx_val_of_single rfl i q
theorem dotScore_rhs_non (i : S1024x512.Idx) (q : dot_S1024x128_S512x128_S1024x512_1_1_0_0_n_n.contr.Idx) :
    (dot_S1024x128_S512x128_S1024x512_1_1_0_0_n_n.rhsIdx i q 0).val = (i 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
theorem dotScore_rhs_contr (i : S1024x512.Idx) (q : dot_S1024x128_S512x128_S1024x512_1_1_0_0_n_n.contr.Idx) :
    (dot_S1024x128_S512x128_S1024x512_1_1_0_0_n_n.rhsIdx i q 1).val = (q ⟨0, by decide⟩).val :=
  dot_S1024x128_S512x128_S1024x512_1_1_0_0_n_n.rhsIdx_val_of_single rfl i q

/-- Into the zero accumulator the product at `(r, c)` is the plain finite sum over the one contracted axis. -/
theorem dotScore_apply {φ₁ φ₂ : FTy} (L : FVec Ideal S1024x128 φ₁) (R : FVec Ideal S512x128 φ₂) (r : Fin 1024) (c : Fin 512) :
    matmul (F := Ideal) dot_S1024x128_S512x128_S1024x512_1_1_0_0_n_n none L R (constant S1024x512 .f32 0x00000000#32) (ix2 r c)
      = ∑ k : Fin 128, L (ix2 r k) * R (ix2 c k) := by
  simp only [matmul]
  rw [Ideal.matmul_constant_zero_apply, ← Equiv.sum_comp (contrEquiv1 dot_S1024x128_S512x128_S1024x512_1_1_0_0_n_n 128 rfl rfl).symm]
  refine Finset.sum_congr rfl fun k _ => ?_
  have hk := contrEquiv1_symm_val dot_S1024x128_S512x128_S1024x512_1_1_0_0_n_n 128 rfl rfl k
  have el : dot_S1024x128_S512x128_S1024x512_1_1_0_0_n_n.lhsIdx (ix2 r c) ((contrEquiv1 dot_S1024x128_S512x128_S1024x512_1_1_0_0_n_n 128 rfl rfl).symm k) = ix2 r k := funext fun a => Fin.ext (by
    match a with
    | ⟨0, _⟩ => exact dotScore_lhs_non _ _
    | ⟨1, _⟩ => exact (dotScore_lhs_contr _ _).trans hk)
  have er : dot_S1024x128_S512x128_S1024x512_1_1_0_0_n_n.rhsIdx (ix2 r c) ((contrEquiv1 dot_S1024x128_S512x128_S1024x512_1_1_0_0_n_n 128 rfl rfl).symm k) = ix2 c k := funext fun a => Fin.ext (by
    match a with
    | ⟨0, _⟩ => exact dotScore_rhs_non _ _
    | ⟨1, _⟩ => exact (dotScore_rhs_contr _ _).trans hk)
  rw [el, er]

/-! ### `dotValue` -/

theorem dotValue_lhs_non (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem dotValue_lhs_contr (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem dotValue_rhs_non (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl
theorem dotValue_rhs_contr (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q

/-- Into the zero accumulator the product at `(r, c)` is the plain finite sum over the one contracted axis. -/
theorem dotValue_apply {φ₁ φ₂ : FTy} (L : FVec Ideal S1024x512 φ₁) (R : FVec Ideal S512x1024 φ₂) (r : Fin 1024) (c : Fin 1024) :
    matmul (F := Ideal) dot_S1024x512_S512x1024_S1024x1024_1_0_0_1_n_n none L R (constant S1024x1024 .f32 0x00000000#32) (ix2 r c)
      = ∑ k : Fin 512, L (ix2 r k) * R (ix2 k c) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r c) ((contrEquiv1 dot_S1024x512_S512x1024_S1024x1024_1_0_0_1_n_n 512 rfl rfl).symm k) = ix2 r k := funext fun a => Fin.ext (by
    match a with
    | ⟨0, _⟩ => exact dotValue_lhs_non _ _
    | ⟨1, _⟩ => exact (dotValue_lhs_contr _ _).trans hk)
  have er : dot_S1024x512_S512x1024_S1024x1024_1_0_0_1_n_n.rhsIdx (ix2 r c) ((contrEquiv1 dot_S1024x512_S512x1024_S1024x1024_1_0_0_1_n_n 512 rfl rfl).symm k) = ix2 k c := funext fun a => Fin.ext (by
    match a with
    | ⟨1, _⟩ => exact dotValue_rhs_non _ _
    | ⟨0, _⟩ => exact (dotValue_rhs_contr _ _).trans hk)
  rw [el, er]

/-! ## The two lane reductions of a [1024, 512] block, read at a row -/

/-- The index the reduction inserts the lane coordinate at is `(r, k)`. -/
theorem lift_row (r : Fin 1024) (k : Fin 512) :
    reduces_S1024x512_S1024.lift (ix1 r) k = ix2 r k := by
  funext a
  match a with
  | ⟨0, _⟩ => exact Fin.ext rfl
  | ⟨1, _⟩ => exact Fin.ext rfl

/-- The lane sum with accumulator word 0: the sum over the row. -/
theorem laneSum_apply (x : FVec Ideal S1024x512 .f32) (r : Fin 1024) :
    multiReduction (F := Ideal) .add [1] S1024 x 0x00000000#32 reduces_S1024x512_S1024 (.inl rfl) rfl (ix1 r)
      = ∑ k : Fin 512, x (ix2 r k) := by
  refine (Ideal.multiReduction_add_single x _ reduces_S1024x512_S1024 _ _ (ix1 r)).trans ?_
  exact Finset.sum_congr rfl fun k _ => congrArg x (lift_row r k)

/-- The word 0xFF800000 denotes −∞. -/
theorem ofBits_negInf : Ideal.ofBits .f32 0xFF800000#32 = (⊥ : EReal) := by
  simp [Ideal.ofBits, Ideal.ieee]

/-- The lane maximum with accumulator word 0xFF800000: the fold of max from −∞ over the row. -/
theorem laneMax_apply (x : FVec Ideal S1024x512 .f32) (r : Fin 1024) :
    multiReduction (F := Ideal) .maximumf [1] S1024 x 0xFF800000#32 reduces_S1024x512_S1024 (.inl rfl) rfl (ix1 r)
      = (Finset.univ : Finset (Fin 512)).fold max (⊥ : EReal) (fun k => x (ix2 r k)) := by
  refine (Ideal.multiReduction_maximumf_single x _ reduces_S1024x512_S1024 _ _ (ix1 r)).trans ?_
  refine (congrArg (fun b : EReal => (Finset.univ : Finset (Fin 512)).fold max b (x ∘ reduces_S1024x512_S1024.lift (ix1 r))) ofBits_negInf).trans ?_
  exact Finset.fold_congr fun k _ => congrArg x (lift_row r k)

/-! ## The attention kernel's payloads -/

section Attn
variable (v3 : Vec Ideal S1x1024x128 .bf16) (v5 : Vec Ideal S1x512x128 .bf16)

/-- The block's score of query row `r` against key `k`. -/
theorem k1_pay7_apply (r : Fin 1024) (k : Fin 512) :
    k1_pay7 (F := Ideal) v3 v5 (ix2 r k) = ∑ a : Fin 128, v3 (ix3 0 r a) * v5 (ix3 0 k a) := by
  unfold k1_pay7
  rw [dotScore_apply]
  exact Finset.sum_congr rfl fun a _ => by rw [shapeCast_1ab_ab_apply, shapeCast_1ab_ab_apply]

/-- The new shift of row `r`: the old one against the maximum of the block's scores. -/
theorem k1_pay8_apply (mp : Vec Ideal S1024x1 .f32) (r : Fin 1024) :
    k1_pay8 (F := Ideal) v3 v5 mp (ix2 r (0 : Fin 1))
      = OnlineSoftmax.stepM (mp (ix2 r 0)) (fun k : Fin 512 => ∑ a : Fin 128, v3 (ix3 0 r a) * v5 (ix3 0 k a)) := by
  unfold k1_pay8 OnlineSoftmax.stepM
  rw [maximumf_apply, shapeCast_a_a1_apply, laneMax_apply]
  simp only [k1_pay7_apply]

/-- The stored shift is the new shift. -/
theorem k1_pay2_apply (mp : Vec Ideal S1024x1 .f32) (r : Fin 1024) :
    k1_pay2 (F := Ideal) (k1_pay8 v3 v5 mp) (ix2 r (0 : Fin 1))
      = OnlineSoftmax.stepM (mp (ix2 r 0)) (fun k : Fin 512 => ∑ a : Fin 128, v3 (ix3 0 r a) * v5 (ix3 0 k a)) := by
  unfold k1_pay2
  rw [shapeCast_self, k1_pay8_apply]

/-- The factor the old sums are rescaled by. -/
theorem k1_pay9_apply (m8 m12 : Vec Ideal S1024x1 .f32) (r : Fin 1024) :
    k1_pay9 (F := Ideal) v3 v5 m8 m12 (ix2 r (0 : Fin 1))
      = Ideal.exp (m12 (ix2 r 0) - k1_pay8 (F := Ideal) v3 v5 m8 (ix2 r 0)) := rfl

/-- The block's exponentials relative to the new shift. -/
theorem k1_pay10_apply (mp : Vec Ideal S1024x1 .f32) (r : Fin 1024) (k : Fin 512) :
    k1_pay10 (F := Ideal) v3 v5 mp (ix2 r k)
      = Ideal.exp (k1_pay7 (F := Ideal) v3 v5 (ix2 r k) - k1_pay8 (F := Ideal) v3 v5 mp (ix2 r 0)) := by
  unfold k1_pay10
  rw [exp_apply, subf_apply, broadcastTo_a1_ab_apply]

/-- The stored sum of exponentials: the old one rescaled, plus the block's. -/
theorem k1_pay11_apply (mp lp : Vec Ideal S1024x1 .f32) (r : Fin 1024) :
    k1_pay11 (F := Ideal) v3 v5 mp mp lp (ix2 r (0 : Fin 1))
      = OnlineSoftmax.stepL (mp (ix2 r 0)) (lp (ix2 r 0)) (fun k : Fin 512 => ∑ a : Fin 128, v3 (ix3 0 r a) * v5 (ix3 0 k a)) := by
  unfold k1_pay11 OnlineSoftmax.stepL
  rw [shapeCast_self, addf_apply, mulf_apply, shapeCast_a_a1_apply, laneSum_apply, k1_pay9_apply]
  simp only [k1_pay10_apply, k1_pay7_apply, k1_pay8_apply]

/-- The block's exponentials against the block's values. -/
theorem k1_pay12_apply (mp : Vec Ideal S1024x1 .f32) (v26 : Vec Ideal S1x512x1024 .bf16) (r d : Fin 1024) :
    k1_pay12 (F := Ideal) v3 v5 mp v26 (ix2 r d)
      = ∑ k : Fin 512, k1_pay10 (F := Ideal) v3 v5 mp (ix2 r k) * v26 (ix3 0 k d) := by
  unfold k1_pay12
  rw [dotValue_apply]
  exact Finset.sum_congr rfl fun k _ => by rw [truncf_apply, shapeCast_1ab_ab_apply]

/-- The stored weighted sum: the old one rescaled, plus the block's exponentials against the block's values. -/
theorem k1_pay1_apply (mp : Vec Ideal S1024x1 .f32) (v26 : Vec Ideal S1x512x1024 .bf16) (ap : Vec Ideal S1024x1024 .f32)
    (r d : Fin 1024) :
    k1_pay1 (F := Ideal) (k1_pay9 v3 v5 mp mp) (k1_pay12 v3 v5 mp v26) ap (ix2 r d)
      = OnlineSoftmax.stepA (mp (ix2 r 0)) (ap (ix2 r d)) (fun k : Fin 512 => ∑ a : Fin 128, v3 (ix3 0 r a) * v5 (ix3 0 k a))
          (fun k => v26 (ix3 0 k d)) := by
  unfold k1_pay1 OnlineSoftmax.stepA
  rw [shapeCast_self, addf_apply, mulf_apply, broadcastTo_a1_ab_apply, k1_pay9_apply, k1_pay12_apply]
  simp only [k1_pay10_apply, k1_pay7_apply, k1_pay8_apply]

end Attn

/-! ## The last step's division, and the first step's initial state -/

/-- The result at `(r, d)`: the weighted sum over the sum of exponentials, plus the token. -/
theorem k1_pay3_apply (v43 : Vec Ideal S1024x1024 .f32) (v44 : Vec Ideal S1024x1 .f32) (v47 : Vec Ideal S1x1024x1024 .f32)
    (r d : Fin 1024) :
    k1_pay3 (F := Ideal) v43 v44 v47 (ix3 (0 : Fin 1) r d) = Ideal.div (v43 (ix2 r d)) (v44 (ix2 r 0)) + v47 (ix3 0 r d) := by
  unfold k1_pay3
  rw [shapeCast_ab_1ab_apply, addf_apply, divf_apply, broadcastTo_a1_ab_apply, shapeCast_1ab_ab_apply]

/-- The initial shift is the large negative real, -/
theorem k1_pay4_apply (r : Fin 1024) : k1_pay4 (F := Ideal) (ix2 r (0 : Fin 1)) = AttnSpec.negBig := by
  unfold k1_pay4
  rw [shapeCast_self]
  rfl

/-- the initial sum of exponentials is 0, -/
theorem k1_pay5_apply (r : Fin 1024) : k1_pay5 (F := Ideal) (ix2 r (0 : Fin 1)) = 0 := by
  unfold k1_pay5
  rw [shapeCast_self]
  exact Ideal.ofBits_zero_f32

/-- and the initial weighted sum is 0. -/
theorem k1_pay6_apply (r d : Fin 1024) : k1_pay6 (F := Ideal) (ix2 r d) = 0 := by
  unfold k1_pay6
  rw [shapeCast_self]
  exact Ideal.ofBits_zero_f32

end AttnPayloads

end
-- ==== Proof.IdealAttnState.lean ====
/-
  The attention call at the exact values, one row at a time. Fix a query row r of a point's query block and a feature
  column d. The point's key block scores the row: s_k = Σ_a f[r, a] · g[k, a], and offers the values v_k = x[k, d].
  What the three carried buffers hold for (r, d) after the point is one step of the running softmax — shift, sum of
  exponentials, weighted sum — from what they held before: from the reset values (the large negative real, 0, 0) at a
  first key block, from the point before otherwise. At a last key block the result block's entry is the weighted sum
  over the sum of exponentials, plus the query token's own entry.
-/
import proofs.«107902_j85942295593581_2_alg».proof.Proof.IdealAttn
import proofs.«107902_j85942295593581_2_alg».proof.Proof.IdealAttnPieces
import proofs.«107902_j85942295593581_2_alg».proof.Proof.PayloadsAttn

set_option maxRecDepth 16384

noncomputable section

namespace Cert.KernelIdeal.AttnState

open Idealize.ShloMosaic Idealize.ShloMosaic.TcCoe Idealize.ShloMosaic.ValueIdx
open Idealize.SL.Sem
open Cert.KernelIdeal Cert.KernelIdeal.Gen Cert.KernelIdeal.Attn
open scoped BigOperators

variable (V : (c : Dev nD) → (b : Ref sig .tc) → Buf (Elt Ideal) ((c : Thread nD τ).loc b))

/-- One step of the running softmax, read off the body's payloads at row r and column d. -/
theorem step_eq (x0 : Vec Ideal S1x1024x128 .bf16) (x1 : Vec Ideal S1x512x128 .bf16) (x2 : Vec Ideal S1x512x1024 .bf16)
    (mp lp : Vec Ideal S1024x1 .f32) (ap : Vec Ideal S1024x1024 .f32) (r d : Fin 1024) :
    (k1_pay2 (F := Ideal) (k1_pay8 x0 x1 mp) (ix2 r (0 : Fin 1)), k1_pay11 (F := Ideal) x0 x1 mp mp lp (ix2 r (0 : Fin 1)),
        k1_pay1 (F := Ideal) (k1_pay9 x0 x1 mp mp) (k1_pay12 x0 x1 mp x2) ap (ix2 r d))
      = OnlineSoftmax.step (mp (ix2 r 0), lp (ix2 r 0), ap (ix2 r d))
          (fun k : Fin 512 => ∑ a : Fin 128, x0 (ix3 0 r a) * x1 (ix3 0 k a)) (fun k => x2 (ix3 0 k d)) := by
  rw [AttnPayloads.k1_pay2_apply, AttnPayloads.k1_pay11_apply, AttnPayloads.k1_pay1_apply]
  rfl

/-- The point's four input blocks, at their vector types. -/
abbrev bF (c : Dev nD) (t : Fin cfg1.N) : Vec Ideal S1x1024x128 .bf16 := iblk V c 0 t
abbrev bG (c : Dev nD) (t : Fin cfg1.N) : Vec Ideal S1x512x128 .bf16 := iblk V c 1 t
abbrev bV (c : Dev nD) (t : Fin cfg1.N) : Vec Ideal S1x512x1024 .bf16 := iblk V c 2 t
abbrev bQ (c : Dev nD) (t : Fin cfg1.N) : Vec Ideal S1x1024x1024 .f32 := iblk V c 3 t

/-- The point's scores of row r against its key block, and the values its key block offers column d. -/
def sc (c : Dev nD) (t : Fin cfg1.N) (r : Fin 1024) : Fin 512 → EReal :=
  fun k => ∑ a : Fin 128, bF V c t (ix3 0 r a) * bG V c t (ix3 0 k a)
def vl (c : Dev nD) (t : Fin cfg1.N) (d : Fin 1024) : Fin 512 → EReal :=
  fun k => bV V c t (ix3 0 k d)

/-- The carried buffers after position n, read at row r and column d. -/
def rowState (c : Dev nD) (n : ℕ) (hn : n < cfg1.N) (r d : Fin 1024) : EReal × EReal × EReal :=
  ((stAt V c n hn).1 (ix2 r (0 : Fin 1)), (stAt V c n hn).2.1 (ix2 r (0 : Fin 1)), (stAt V c n hn).2.2.1 (ix2 r d))

/-- What a first key block leaves in the carried buffers: the update run on the reset values. -/
theorem st_first (c : Dev nD) (t : Fin cfg1.N) (h0 : t.val % 4 = 0) :
    (stAt V c t.val t.isLt).1 = k1_pay2 (F := Ideal) (k1_pay8 (bF V c t) (bG V c t) (k1_pay4 (F := Ideal)))
    ∧ (stAt V c t.val t.isLt).2.1 = k1_pay11 (F := Ideal) (bF V c t) (bG V c t) (k1_pay4 (F := Ideal)) (k1_pay4 (F := Ideal)) (k1_pay5 (F := Ideal))
    ∧ (stAt V c t.val t.isLt).2.2.1 = k1_pay1 (F := Ideal) (k1_pay9 (bF V c t) (bG V c t) (k1_pay4 (F := Ideal)) (k1_pay4 (F := Ideal))) (k1_pay12 (bF V c t) (bG V c t) (k1_pay4 (F := Ideal)) (bV V c t)) (k1_pay6 (F := Ideal)) := by
  have hc2 : ¬condLast (grid1.coords t) := fun h => by have := (hcondLast t).mp h; omega
  rw [stAt_first V c t h0 hc2]
  dsimp only
  exact ⟨AttnPieces.first0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (bF V c t) (bG V c t) (bV V c t) (bQ V c t), AttnPieces.first1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (bF V c t) (bG V c t) (bV V c t) (bQ V c t), AttnPieces.first2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) ((hcondFirst t).mpr h0) hc2 (bF V c t) (bG V c t) (bV V c t) (bQ V c t)⟩

/-- What a later key block leaves: the update run on what the point before left (`p`). -/
theorem st_next (c : Dev nD) (t : Fin cfg1.N) (h0 : ¬t.val % 4 = 0)
    (p : Vec Ideal S1024x1 .f32 × Vec Ideal S1024x1 .f32 × Vec Ideal S1024x1024 .f32 × Vec Ideal S1x1024x1024 .f32)
    (hp : (stAt V c (t.val - 1) (Nat.lt_of_le_of_lt (Nat.sub_le _ _) t.isLt)) = p) :
    (stAt V c t.val t.isLt).1 = k1_pay2 (F := Ideal) (k1_pay8 (bF V c t) (bG V c t) p.1)
    ∧ (stAt V c t.val t.isLt).2.1 = k1_pay11 (F := Ideal) (bF V c t) (bG V c t) p.1 p.1 p.2.1
    ∧ (stAt V c t.val t.isLt).2.2.1 = k1_pay1 (F := Ideal) (k1_pay9 (bF V c t) (bG V c t) p.1 p.1) (k1_pay12 (bF V c t) (bG V c t) p.1 (bV V c t)) p.2.2.1 := by
  by_cases h3 : t.val % 4 = 3
  · have e := stAt_last V c t h0 h3
    rw [hp] at e
    rw [e]
    dsimp only
    exact ⟨AttnPieces.last0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (bF V c t) (bG V c t) (bV V c t) (bQ V c t) p.1 p.2.1 p.2.2.1, AttnPieces.last1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (bF V c t) (bG V c t) (bV V c t) (bQ V c t) p.1 p.2.1 p.2.2.1, AttnPieces.last2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (bF V c t) (bG V c t) (bV V c t) (bQ V c t) p.1 p.2.1 p.2.2.1⟩
  · have e := stAt_mid V c t h0 h3
    rw [hp] at e
    rw [e]
    dsimp only
    exact ⟨AttnPieces.mid0 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (bF V c t) (bG V c t) (bV V c t) (bQ V c t) p.1 p.2.1 p.2.2.1, AttnPieces.mid1 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (bF V c t) (bG V c t) (bV V c t) (bQ V c t) p.1 p.2.1 p.2.2.1, AttnPieces.mid2 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) (fun h => h3 ((hcondLast t).mp h)) (bF V c t) (bG V c t) (bV V c t) (bQ V c t) p.1 p.2.1 p.2.2.1⟩

/-- The result block a last key block stores, from what the point before left (`p`). -/
theorem st_out (c : Dev nD) (t : Fin cfg1.N) (h3 : t.val % 4 = 3)
    (p : Vec Ideal S1024x1 .f32 × Vec Ideal S1024x1 .f32 × Vec Ideal S1024x1024 .f32 × Vec Ideal S1x1024x1024 .f32)
    (hp : (stAt V c (t.val - 1) (Nat.lt_of_le_of_lt (Nat.sub_le _ _) t.isLt)) = p) :
    (stAt V c t.val t.isLt).2.2.2 = k1_pay3 (F := Ideal) (k1_pay1 (F := Ideal) (k1_pay9 (bF V c t) (bG V c t) p.1 p.1) (k1_pay12 (bF V c t) (bG V c t) p.1 (bV V c t)) p.2.2.1)
      (k1_pay11 (F := Ideal) (bF V c t) (bG V c t) p.1 p.1 p.2.1) (bQ V c t) := by
  have h0 : ¬t.val % 4 = 0 := by omega
  have e := stAt_last V c t h0 h3
  rw [hp] at e
  rw [e]
  dsimp only
  exact AttnPieces.last4 c (grid1.coords t) (ms0 t) (hs0 t) (ms1 t) (hs1 t) (ms2 t) (hs2 t) (ms3 t) (hs3 t) (ms4 t) (hs4 t) scM0 (Memref.isWhole_whole _) scM1 (Memref.isWhole_whole _) scM2 (Memref.isWhole_whole _) (fun h => h0 ((hcondFirst t).mp h)) ((hcondLast t).mpr h3) (bF V c t) (bG V c t) (bV V c t) (bQ V c t) p.1 p.2.1 p.2.2.1

/-- First key block: one step from the reset values. -/
theorem state_first (c : Dev nD) (t : Fin cfg1.N) (h0 : t.val % 4 = 0) (r d : Fin 1024) :
    rowState V c t.val t.isLt r d = OnlineSoftmax.step (AttnSpec.negBig, 0, 0) (sc V c t r) (vl V c t d) := by
  obtain ⟨e0, e1, e2⟩ := st_first V c t h0
  unfold rowState
  rw [e0, e1, e2]
  refine (step_eq (bF V c t) (bG V c t) (bV V c t) (k1_pay4 (F := Ideal)) (k1_pay5 (F := Ideal)) (k1_pay6 (F := Ideal)) r d).trans ?_
  rw [AttnPayloads.k1_pay4_apply, AttnPayloads.k1_pay5_apply, AttnPayloads.k1_pay6_apply]
  rfl

/-- A later key block: one step from the point before. -/
theorem state_next (c : Dev nD) (t : Fin cfg1.N) (h0 : ¬t.val % 4 = 0) (r d : Fin 1024) :
    rowState V c t.val t.isLt r d
      = OnlineSoftmax.step (rowState V c (t.val - 1) (Nat.lt_of_le_of_lt (Nat.sub_le _ _) t.isLt) r d) (sc V c t r) (vl V c t d) := by
  obtain ⟨e0, e1, e2⟩ := st_next V c t h0 _ rfl
  unfold rowState
  rw [e0, e1, e2]
  exact step_eq (bF V c t) (bG V c t) (bV V c t) _ _ _ r d

/-- Last key block: the result block's entry. -/
theorem out_last (c : Dev nD) (t : Fin cfg1.N) (h3 : t.val % 4 = 3) (r d : Fin 1024) :
    (stAt V c t.val t.isLt).2.2.2 (ix3 (0 : Fin 1) r d)
      = OnlineSoftmax.out (rowState V c t.val t.isLt r d) + bQ V c t (ix3 0 r d) := by
  have h0 : ¬t.val % 4 = 0 := by omega
  obtain ⟨-, e1, e2⟩ := st_next V c t h0 _ rfl
  rw [st_out V c t h3 _ rfl]
  unfold rowState OnlineSoftmax.out
  rw [e1, e2]
  exact AttnPayloads.k1_pay3_apply _ _ _ r d

end Cert.KernelIdeal.AttnState

end
-- ==== Proof.IdealAttnBlocks.lean ====
/-
  The attention call's blocks, read at an index, and its result array from the points at a last key block.

  The call runs over 64 grid points; point t stands for batch entry t / 8, query block (t / 4) % 2 and key block
  t % 4. A window's block at a point sits in its array, on each axis, at the block index times the block's size
  plus the coordinate inside the block. So the query-side blocks (1024 rows) of point t hold rows
  1024 · ((t / 4) % 2) + r of batch entry t / 8, the key-side blocks (512 rows) hold rows 512 · (t % 4) + k, and
  the last axis is whole. The result window's block is a query-side block; it is written back exactly at the
  points with t % 4 = 3, and row n of batch entry b lies in the block of the point 8 · b + 4 · (n / 1024) + 3, so
  those blocks cover the result array: it ends holding any array that agrees with every written-back block.
-/
import proofs.«107902_j85942295593581_2_alg».proof.Proof.IdealAttn
import Idealize.ShloMosaic.Lib.Pipeline.Value
import Idealize.ShloMosaic.Lib.ValueIdx

noncomputable section

namespace Cert.KernelIdeal.AttnBlocks

open Idealize.ShloMosaic Idealize.ShloMosaic.ValueIdx Idealize.ShloMosaic.TcCoe
open Idealize.ShloMosaic.Pipeline (Dat Cfg Window)
open Cert.KernelIdeal Cert.KernelIdeal.Gen Cert.KernelIdeal.Attn

variable {F : FTy → Type} [FloatOps F]

/-! ## The block indices of the five windows at point t -/

theorem idx0 : ∀ t : Fin cfg1.N, win1_0.index t (0 : Fin 3) = t.val / 8 ∧ win1_0.index t (1 : Fin 3) = (t.val / 4) % 2
    ∧ win1_0.index t (2 : Fin 3) = 0 :=
  (by decide +kernel : ∀ t : Fin grid1.N, _)
theorem idx1 : ∀ t : Fin cfg1.N, win1_1.index t (0 : Fin 3) = t.val / 8 ∧ win1_1.index t (1 : Fin 3) = t.val % 4
    ∧ win1_1.index t (2 : Fin 3) = 0 :=
  (by decide +kernel : ∀ t : Fin grid1.N, _)
theorem idx2 : ∀ t : Fin cfg1.N, win1_2.index t (0 : Fin 3) = t.val / 8 ∧ win1_2.index t (1 : Fin 3) = t.val % 4
    ∧ win1_2.index t (2 : Fin 3) = 0 :=
  (by decide +kernel : ∀ t : Fin grid1.N, _)
theorem idx3 : ∀ t : Fin cfg1.N, win1_3.index t (0 : Fin 3) = t.val / 8 ∧ win1_3.index t (1 : Fin 3) = (t.val / 4) % 2
    ∧ win1_3.index t (2 : Fin 3) = 0 :=
  (by decide +kernel : ∀ t : Fin grid1.N, _)
theorem idx4 : ∀ t : Fin cfg1.N, win1_4.index t (0 : Fin 3) = t.val / 8 ∧ win1_4.index t (1 : Fin 3) = (t.val / 4) % 2
    ∧ win1_4.index t (2 : Fin 3) = 0 :=
  (by decide +kernel : ∀ t : Fin grid1.N, _)

section
variable (V : (c : Dev nD) → (b : Ref sig .tc) → Buf (Elt F) ((c : Thread nD τ).loc b))

/-! ## The input blocks at an index -/

/-- The query projections' block: rows 1024 · ((t / 4) % 2) + r of batch entry t / 8. -/
theorem blk0 (c : Dev nD) (t : Fin cfg1.N) (r : Fin 1024) (a : Fin 128) :
    iblk V c 0 t (ix3 (0 : Fin 1) r a) = V c main_v2_0 (ix3 (⟨t.val / 8, by have hN : t.val < 64 := lt_of_lt_of_eq t.isLt (show cfg1.N = 64 from N_1); omega⟩ : Fin 8) (⟨1024 * ((t.val / 4) % 2) + r.val, by have := r.isLt; omega⟩ : Fin 2048) a) := by
  unfold iblk
  rw [View.read_apply]
  show V c main_v2_0 (((cfg1.win 0).blk t).view.emb (ix3 (0 : Fin 1) r a)) = _
  refine congrArg (V c main_v2_0) (funext fun ax => Fin.ext ?_)
  obtain ⟨e0, e1, e2⟩ := idx0 t
  match ax with
  | ⟨0, _⟩ => show win1_0.index t (0 : Fin 3) * 1 + 1 * 0 = t.val / 8; omega
  | ⟨1, _⟩ => show win1_0.index t (1 : Fin 3) * 1024 + 1 * r.val = 1024 * ((t.val / 4) % 2) + r.val; omega
  | ⟨2, _⟩ => show win1_0.index t (2 : Fin 3) * 128 + 1 * a.val = a.val; omega

/-- The key projections' block: rows 512 · (t % 4) + k of batch entry t / 8. -/
theorem blk1 (c : Dev nD) (t : Fin cfg1.N) (k : Fin 512) (a : Fin 128) :
    iblk V c 1 t (ix3 (0 : Fin 1) k a) = V c main_v2_1 (ix3 (⟨t.val / 8, by have hN : t.val < 64 := lt_of_lt_of_eq t.isLt (show cfg1.N = 64 from N_1); omega⟩ : Fin 8) (⟨512 * (t.val % 4) + k.val, by have := k.isLt; omega⟩ : Fin 2048) a) := by
  unfold iblk
  rw [View.read_apply]
  show V c main_v2_1 (((cfg1.win 1).blk t).view.emb (ix3 (0 : Fin 1) k a)) = _
  refine congrArg (V c main_v2_1) (funext fun ax => Fin.ext ?_)
  obtain ⟨e0, e1, e2⟩ := idx1 t
  match ax with
  | ⟨0, _⟩ => show win1_1.index t (0 : Fin 3) * 1 + 1 * 0 = t.val / 8; omega
  | ⟨1, _⟩ => show win1_1.index t (1 : Fin 3) * 512 + 1 * k.val = 512 * (t.val % 4) + k.val; omega
  | ⟨2, _⟩ => show win1_1.index t (2 : Fin 3) * 128 + 1 * a.val = a.val; omega

/-- The value tokens' block: rows 512 · (t % 4) + k of batch entry t / 8. -/
theorem blk2 (c : Dev nD) (t : Fin cfg1.N) (k : Fin 512) (d : Fin 1024) :
    iblk V c 2 t (ix3 (0 : Fin 1) k d) = V c main_v2_2 (ix3 (⟨t.val / 8, by have hN : t.val < 64 := lt_of_lt_of_eq t.isLt (show cfg1.N = 64 from N_1); omega⟩ : Fin 8) (⟨512 * (t.val % 4) + k.val, by have := k.isLt; omega⟩ : Fin 2048) d) := by
  unfold iblk
  rw [View.read_apply]
  show V c main_v2_2 (((cfg1.win 2).blk t).view.emb (ix3 (0 : Fin 1) k d)) = _
  refine congrArg (V c main_v2_2) (funext fun a => Fin.ext ?_)
  obtain ⟨e0, e1, e2⟩ := idx2 t
  match a with
  | ⟨0, _⟩ => show win1_2.index t (0 : Fin 3) * 1 + 1 * 0 = t.val / 8; omega
  | ⟨1, _⟩ => show win1_2.index t (1 : Fin 3) * 512 + 1 * k.val = 512 * (t.val % 4) + k.val; omega
  | ⟨2, _⟩ => show win1_2.index t (2 : Fin 3) * 1024 + 1 * d.val = d.val; omega

/-- The residual tokens' block: rows 1024 · ((t / 4) % 2) + r of batch entry t / 8. -/
theorem blk3 (c : Dev nD) (t : Fin cfg1.N) (r d : Fin 1024) :
    iblk V c 3 t (ix3 (0 : Fin 1) r d) = V c main_arg0 (ix3 (⟨t.val / 8, by have hN : t.val < 64 := lt_of_lt_of_eq t.isLt (show cfg1.N = 64 from N_1); omega⟩ : Fin 8) (⟨1024 * ((t.val / 4) % 2) + r.val, by have := r.isLt; omega⟩ : Fin 2048) d) := by
  unfold iblk
  rw [View.read_apply]
  show V c main_arg0 (((cfg1.win 3).blk t).view.emb (ix3 (0 : Fin 1) r d)) = _
  refine congrArg (V c main_arg0) (funext fun a => Fin.ext ?_)
  obtain ⟨e0, e1, e2⟩ := idx3 t
  match a with
  | ⟨0, _⟩ => show win1_3.index t (0 : Fin 3) * 1 + 1 * 0 = t.val / 8; omega
  | ⟨1, _⟩ => show win1_3.index t (1 : Fin 3) * 1024 + 1 * r.val = 1024 * ((t.val / 4) % 2) + r.val; omega
  | ⟨2, _⟩ => show win1_3.index t (2 : Fin 3) * 1024 + 1 * d.val = d.val; omega

/-! ## The result array -/

/-- Where an element of the result window's block at point t sits in the result array. -/
theorem emb4 (t : Fin cfg1.N) (r d : Fin 1024) :
    ((cfg1.win 4).blk t).view.emb (ix3 (0 : Fin 1) r d) = ix3 (⟨t.val / 8, by have hN : t.val < 64 := lt_of_lt_of_eq t.isLt (show cfg1.N = 64 from N_1); omega⟩ : Fin 8) (⟨1024 * ((t.val / 4) % 2) + r.val, by have := r.isLt; omega⟩ : Fin 2048) d := by
  refine funext fun a => Fin.ext ?_
  obtain ⟨e0, e1, e2⟩ := idx4 t
  match a with
  | ⟨0, _⟩ => show win1_4.index t (0 : Fin 3) * 1 + 1 * 0 = t.val / 8; omega
  | ⟨1, _⟩ => show win1_4.index t (1 : Fin 3) * 1024 + 1 * r.val = 1024 * ((t.val / 4) % 2) + r.val; omega
  | ⟨2, _⟩ => show win1_4.index t (2 : Fin 3) * 1024 + 1 * d.val = d.val; omega

/-- An index of the result array is in point t's block iff each coordinate is in the block's range on its axis. -/
theorem mem_blk4 (t : Fin cfg1.N) (i : S8x2048x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v3).slice (win1_4.rect t)).set ↔ _
  rw [View.set_slice_whole, Rect.mem_set_unit]
  exact Iff.rfl

/-- Every index of the result array lies in the block of a point at a last key block. -/
theorem cover4 (i : S8x2048x1024.Idx) :
    ∃ t : Fin cfg1.N, (cfg1.win 4).flush t = true ∧ i ∈ ((cfg1.win 4).blk t).view.set := by
  have h0 : (i 0).val < 8 := (i 0).isLt
  have h1 : (i 1).val < 2048 := (i 1).isLt
  have h2 : (i 2).val < 1024 := (i 2).isLt
  have hlt : 8 * (i 0).val + 4 * ((i 1).val / 1024) + 3 < cfg1.N :=
    lt_of_lt_of_eq (by omega : 8 * (i 0).val + 4 * ((i 1).val / 1024) + 3 < 64) (show cfg1.N = 64 from N_1).symm
  refine ⟨⟨8 * (i 0).val + 4 * ((i 1).val / 1024) + 3, hlt⟩, (flush1_4 _).mpr (by show (8 * (i 0).val + 4 * ((i 1).val / 1024) + 3) % 4 = 3; omega), ?_⟩
  rw [mem_blk4]
  obtain ⟨e0, e1, e2⟩ := idx4 ⟨8 * (i 0).val + 4 * ((i 1).val / 1024) + 3, hlt⟩
  have e0' : win1_4.index ⟨8 * (i 0).val + 4 * ((i 1).val / 1024) + 3, hlt⟩ (0 : Fin 3) = (8 * (i 0).val + 4 * ((i 1).val / 1024) + 3) / 8 := e0
  have e1' : win1_4.index ⟨8 * (i 0).val + 4 * ((i 1).val / 1024) + 3, hlt⟩ (1 : Fin 3) = ((8 * (i 0).val + 4 * ((i 1).val / 1024) + 3) / 4) % 2 := e1
  intro a
  match a with
  | ⟨0, _⟩ =>
    show win1_4.index ⟨8 * (i 0).val + 4 * ((i 1).val / 1024) + 3, hlt⟩ (0 : Fin 3) * 1 ≤ (i 0).val
      ∧ (i 0).val < win1_4.index ⟨8 * (i 0).val + 4 * ((i 1).val / 1024) + 3, hlt⟩ (0 : Fin 3) * 1 + 1
    omega
  | ⟨1, _⟩ =>
    show win1_4.index ⟨8 * (i 0).val + 4 * ((i 1).val / 1024) + 3, hlt⟩ (1 : Fin 3) * 1024 ≤ (i 1).val
      ∧ (i 1).val < win1_4.index ⟨8 * (i 0).val + 4 * ((i 1).val / 1024) + 3, hlt⟩ (1 : Fin 3) * 1024 + 1024
    omega
  | ⟨2, _⟩ =>
    show win1_4.index ⟨8 * (i 0).val + 4 * ((i 1).val / 1024) + 3, hlt⟩ (2 : Fin 3) * 1024 ≤ (i 2).val
      ∧ (i 2).val < win1_4.index ⟨8 * (i 0).val + 4 * ((i 1).val / 1024) + 3, hlt⟩ (2 : Fin 3) * 1024 + 1024
    omega

/-- The result array after the call: any array that agrees, at every point at a last key block, with what that point
    leaves in the result window's block. -/
theorem arr4 (c : Dev nD) (G : S8x2048x1024.Idx → Elt F .f32)
    (hG : ∀ t : Fin cfg1.N, t.val % 4 = 3 → ∀ r d : Fin 1024,
      (stAt V c t.val t.isLt).2.2.2 (ix3 (0 : Fin 1) r d) = G (ix3 (⟨t.val / 8, by have hN : t.val < 64 := lt_of_lt_of_eq t.isLt (show cfg1.N = 64 from N_1); omega⟩ : Fin 8) (⟨1024 * ((t.val / 4) % 2) + r.val, by have := r.isLt; omega⟩ : Fin 2048) d)) :
    (dat V c).arrAt 4 cfg1.N = G := by
  refine (dat V c).arrAt_eq_of_cover 4 G (fun t hf => ?_) cover4
  have h3 : t.val % 4 = 3 := (flush1_4 t).mp hf
  show (cfg1.win 4).cut (grid1.coords t) ((dat V c).after 4 t) = _
  rw [after_4]
  have key : ∀ r d : Fin 1024, (cfg1.win 4).cut (grid1.coords t) (stAt V c t.val t.isLt).2.2.2 (ix3 (0 : Fin 1) r d)
      = ((cfg1.win 4).blk t).view.read (Elt F) G (ix3 (0 : Fin 1) r d) := by
    intro r d
    show (stAt V c t.val t.isLt).2.2.2 (ix3 (0 : Fin 1) r d) = G (((cfg1.win 4).blk t).view.emb (ix3 (0 : Fin 1) r d))
    rw [emb4]
    exact hG t h3 r d
  funext y
  have hy := eq_ix3 (n0 := 1) (n1 := 1024) (n2 := 1024) y
  have hlt : (y 0).val < 1 := (y 0).isLt
  have hy0 : y 0 = (0 : Fin 1) := Fin.ext (by show (y 0).val = 0; omega)
  rw [hy0] at hy
  rw [hy]
  exact key (y 1) (y 2)

end

end Cert.KernelIdeal.AttnBlocks

end
-- ==== Proof.IdealProjValue.lean ====
/-
  The projection call's three result arrays, each as one function of the call's three input arrays.

  The call walks 8 × 4 points; point t handles batch entry t / 4 and the block of 512 tokens number t % 4. At a
  point the body writes, for every token r of the block and every column a < 128,
      query[r, a] = ∑ e, x[r, e] · W[e, a] + β[a],      key[r, a] = ∑ e, x[r, e] · W[e, 128 + a] + β[128 + a],
  and the tokens themselves. The blocks of the 32 points tile each result array (token n of batch entry b lies in
  the block of point 4·b + n / 512), and what a point writes is exactly its block of one whole-array function. So
  after the call the queries' array is (b, n, a) ↦ ∑ e, x[b, n, e] · W[e, a] + β[a], the keys' array the same at
  column 128 + a, and the stored tokens' array is x.
-/
import proofs.«107902_j85942295593581_2_alg».proof.Proof.IdealProj
import proofs.«107902_j85942295593581_2_alg».proof.Proof.PayloadsAttn
import Idealize.ShloMosaic.Lib.Pipeline.Value
import Idealize.ShloMosaic.Lib.ValueIdx

set_option maxRecDepth 16384

noncomputable section

namespace Cert.KernelIdeal.ProjValue

open Cert.KernelIdeal Cert.KernelIdeal.Gen Cert.KernelIdeal.Proj
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## Zero offsets, however spelt -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Where each window's block sits at a grid point

Point t of the 8 × 4 grid is batch entry t / 4 and token block t % 4. The token block and the three result blocks
sit at block index (t / 4, t % 4, 0); the stacked weights and the stacked bias are one block, at index 0. -/

theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 2) = 0 ∧ win0_1.index t (1 : Fin 2) = 0)
    ∧ win0_2.index t (0 : Fin 1) = 0
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

/-! ## The call's three input arrays, as plain functions into the extended reals -/

/-- The tokens x[b, n, e]. -/
abbrev argX (c : Dev nD) : S8x2048x1024.Idx → EReal := V c main_arg0
/-- The stacked weights W[e, col]. -/
abbrev argW (c : Dev nD) : S1024x256.Idx → EReal := V c main_v0
/-- The stacked bias β[col]. -/
abbrev argB (c : Dev nD) : S256.Idx → EReal := V c main_v1

/-! ## The input blocks read off their arrays -/

/-- Entry (0, r, e) of the token block at point t is token 512·(t % 4) + r of batch entry t / 4, feature e. -/
theorem iblk0_apply (c : Dev nD) (t : Fin cfg0.N) (x : S1x512x1024.Idx) (k : S8x2048x1024.Idx)
    (h0 : (k 0).val = t.val / 4) (h1 : (k 1).val = 512 * (t.val % 4) + (x 1).val) (h2 : (k 2).val = (x 2).val) :
    (iblk V c 0 t : Vec Ideal S1x512x1024 .f32) x = argX V c k := by
  obtain ⟨⟨a0, a1, a2⟩, -⟩ := idx_facts t
  unfold iblk
  rw [View.read_apply]
  show argX V c (((cfg0.win 0).blk t).view.emb x) = argX V c k
  congr 1
  funext a
  apply Fin.ext
  match a with
  | ⟨0, _⟩ =>
    show win0_0.index t (0 : Fin 3) * 1 + 1 * (x 0).val = (k 0).val
    have hx : (x 0).val < 1 := (x 0).isLt
    rw [a0, h0]; omega
  | ⟨1, _⟩ =>
    show win0_0.index t (1 : Fin 3) * 512 + 1 * (x 1).val = (k 1).val
    rw [a1, h1]; omega
  | ⟨2, _⟩ =>
    show win0_0.index t (2 : Fin 3) * 1024 + 1 * (x 2).val = (k 2).val
    rw [a2, h2]; omega

/-- The weights' block is the whole stacked matrix. -/
theorem iblk1_eq (c : Dev nD) (t : Fin cfg0.N) :
    (iblk V c 1 t : Vec Ideal S1024x256 .f32) = argW V c := by
  obtain ⟨-, ⟨a0, a1⟩, -⟩ := idx_facts t
  funext x
  unfold iblk
  rw [View.read_apply]
  show argW V c (((cfg0.win 1).blk t).view.emb x) = argW V c x
  congr 1
  funext a
  apply Fin.ext
  match a with
  | ⟨0, _⟩ =>
    show win0_1.index t (0 : Fin 2) * 1024 + 1 * (x 0).val = (x 0).val
    rw [a0]; omega
  | ⟨1, _⟩ =>
    show win0_1.index t (1 : Fin 2) * 256 + 1 * (x 1).val = (x 1).val
    rw [a1]; omega

/-- The bias's block is the whole stacked vector. -/
theorem iblk2_eq (c : Dev nD) (t : Fin cfg0.N) :
    (iblk V c 2 t : Vec Ideal S256 .f32) = argB V c := by
  obtain ⟨-, -, a0, -⟩ := idx_facts t
  funext x
  unfold iblk
  rw [View.read_apply]
  show argB V c (((cfg0.win 2).blk t).view.emb x) = argB V c x
  congr 1
  funext a
  apply Fin.ext
  match a with
  | ⟨0, _⟩ =>
    show win0_2.index t (0 : Fin 1) * 256 + 1 * (x 0).val = (x 0).val
    rw [a0]; omega

/-! ## What the body leaves in each result's buffer, entry by entry, for any three input blocks -/

theorem outF_apply (x0 : Vec Ideal S1x512x1024 .f32) (x1 : Vec Ideal S1024x256 .f32) (x2 : Vec Ideal S256 .f32)
    (r : Fin 512) (a : Fin 128) :
    outF x0 x1 x2 (ix3 (0 : Fin 1) r a)
      = (∑ e : Fin 1024, x0 (ix3 0 r e) * x1 (ix2 e ⟨a.val, by omega⟩)) + x2 (ix1 ⟨a.val, by omega⟩) := by
  unfold outF
  rw [View.canon_unit_zero hz3]
  simp only [View.ld_unit_zero (S := S1x512x1024) hz3, View.ld_unit_zero (S := S1024x256) hz2, View.ld_unit_zero (S := S256) hz1]
  exact AttnPayloads.k0_pay3_apply x0 x1 x2 r a

theorem outG_apply (x0 : Vec Ideal S1x512x1024 .f32) (x1 : Vec Ideal S1024x256 .f32) (x2 : Vec Ideal S256 .f32)
    (r : Fin 512) (a : Fin 128) :
    outG x0 x1 x2 (ix3 (0 : Fin 1) r a)
      = (∑ e : Fin 1024, x0 (ix3 0 r e) * x1 (ix2 e ⟨128 + a.val, by omega⟩)) + x2 (ix1 ⟨128 + a.val, by omega⟩) := by
  unfold outG
  rw [View.canon_unit_zero hz3]
  simp only [View.ld_unit_zero (S := S1x512x1024) hz3, View.ld_unit_zero (S := S1024x256) hz2, View.ld_unit_zero (S := S256) hz1]
  exact AttnPayloads.k0_pay4_apply x0 x1 x2 r a

theorem outX_apply (x0 : Vec Ideal S1x512x1024 .f32) (y : S1x512x1024.Idx) : outX x0 y = x0 y := by
  obtain ⟨u, r, d, rfl⟩ : ∃ (u : Fin 1) (r : Fin 512) (d : Fin 1024), y = ix3 u r d := ⟨_, _, _, eq_ix3 y⟩
  obtain rfl : u = 0 := Subsingleton.elim _ _
  unfold outX
  rw [View.canon_unit_zero hz3, View.ld_unit_zero (S := S1x512x1024) hz3]
  exact AttnPayloads.k0_pay5_apply x0 r d

/-! ## The three result arrays as functions of the call's input arrays -/

/-- Queries: token (b, n) against column a of the stacked weights, plus entry a of the stacked bias. -/
def GF (c : Dev nD) (j : S8x2048x128.Idx) : EReal :=
  (∑ e : Fin 1024, argX V c (ix3 (j 0) (j 1) e)
      * argW V c (ix2 e ⟨(j 2).val, by have h : (j 2).val < 128 := (j 2).isLt; omega⟩))
    + argB V c (ix1 ⟨(j 2).val, by have h : (j 2).val < 128 := (j 2).isLt; omega⟩)

/-- Keys: the same at column 128 + a. -/
def GG (c : Dev nD) (j : S8x2048x128.Idx) : EReal :=
  (∑ e : Fin 1024, argX V c (ix3 (j 0) (j 1) e)
      * argW V c (ix2 e ⟨128 + (j 2).val, by have h : (j 2).val < 128 := (j 2).isLt; omega⟩))
    + argB V c (ix1 ⟨128 + (j 2).val, by have h : (j 2).val < 128 := (j 2).isLt; omega⟩)

/-- The tokens themselves. -/
def GX (c : Dev nD) (j : S8x2048x1024.Idx) : EReal := argX V c j

/-! ## What a point writes back is its block of the function -/

/-- Entry y of the queries' buffer after the body at point t is the function at the array index y sits at. -/
theorem pointF (c : Dev nD) (t : Fin cfg0.N) (y : S1x512x128.Idx) (k : S8x2048x128.Idx)
    (h0 : (k 0).val = t.val / 4) (h1 : (k 1).val = 512 * (t.val % 4) + (y 1).val) (h2 : (k 2).val = (y 2).val) :
    outF (iblk V c 0 t) (iblk V c 1 t) (iblk V c 2 t) y = GF V c k := by
  obtain ⟨u, r, a, rfl⟩ : ∃ (u : Fin 1) (r : Fin 512) (a : Fin 128), y = ix3 u r a := ⟨_, _, _, eq_ix3 y⟩
  obtain rfl : u = 0 := Subsingleton.elim _ _
  have h2' : (k 2).val = a.val := h2
  have hk : (k 2).val < 128 := (k 2).isLt
  rw [outF_apply, iblk1_eq, iblk2_eq]
  unfold GF
  have e2 : (⟨a.val, by omega⟩ : Fin 256) = ⟨(k 2).val, by omega⟩ := Fin.ext h2'.symm
  rw [e2]
  refine congrArg₂ (· + ·) (Finset.sum_congr rfl fun e _ => ?_) rfl
  rw [iblk0_apply V c t (ix3 0 r e) (ix3 (k 0) (k 1) e) h0 h1 rfl]

theorem pointG (c : Dev nD) (t : Fin cfg0.N) (y : S1x512x128.Idx) (k : S8x2048x128.Idx)
    (h0 : (k 0).val = t.val / 4) (h1 : (k 1).val = 512 * (t.val % 4) + (y 1).val) (h2 : (k 2).val = (y 2).val) :
    outG (iblk V c 0 t) (iblk V c 1 t) (iblk V c 2 t) y = GG V c k := by
  obtain ⟨u, r, a, rfl⟩ : ∃ (u : Fin 1) (r : Fin 512) (a : Fin 128), y = ix3 u r a := ⟨_, _, _, eq_ix3 y⟩
  obtain rfl : u = 0 := Subsingleton.elim _ _
  have h2' : (k 2).val = a.val := h2
  have hk : (k 2).val < 128 := (k 2).isLt
  rw [outG_apply, iblk1_eq, iblk2_eq]
  unfold GG
  have e2 : (⟨128 + a.val, by omega⟩ : Fin 256) = ⟨128 + (k 2).val, by omega⟩ :=
    Fin.ext (by show 128 + a.val = 128 + (k 2).val; omega)
  rw [e2]
  refine congrArg₂ (· + ·) (Finset.sum_congr rfl fun e _ => ?_) rfl
  rw [iblk0_apply V c t (ix3 0 r e) (ix3 (k 0) (k 1) e) h0 h1 rfl]

theorem flushedF_eq (c : Dev nD) (t : Fin cfg0.N) :
    (dat V c).flushed 3 t = ((cfg0.win 3).blk t).view.read (Elt Ideal) (GF V c) := by
  show (cfg0.win 3).cut (grid0.coords t) ((dat V c).after 3 t) = _
  rw [after_3]
  obtain ⟨-, -, -, ⟨a0, a1, a2⟩, -⟩ := idx_facts t
  funext y
  rw [View.read_apply]
  refine pointF V c t y (((cfg0.win 3).blk t).view.emb y) ?_ ?_ ?_
  · show win0_3.index t (0 : Fin 3) * 1 + 1 * (y 0).val = t.val / 4
    have hy : (y 0).val < 1 := (y 0).isLt
    rw [a0]; omega
  · show win0_3.index t (1 : Fin 3) * 512 + 1 * (y 1).val = 512 * (t.val % 4) + (y 1).val
    rw [a1]; omega
  · show win0_3.index t (2 : Fin 3) * 128 + 1 * (y 2).val = (y 2).val
    rw [a2]; omega

theorem flushedG_eq (c : Dev nD) (t : Fin cfg0.N) :
    (dat V c).flushed 4 t = ((cfg0.win 4).blk t).view.read (Elt Ideal) (GG V c) := by
  show (cfg0.win 4).cut (grid0.coords t) ((dat V c).after 4 t) = _
  rw [after_4]
  obtain ⟨-, -, -, -, ⟨a0, a1, a2⟩, -⟩ := idx_facts t
  funext y
  rw [View.read_apply]
  refine pointG V c t y (((cfg0.win 4).blk t).view.emb y) ?_ ?_ ?_
  · show win0_4.index t (0 : Fin 3) * 1 + 1 * (y 0).val = t.val / 4
    have hy : (y 0).val < 1 := (y 0).isLt
    rw [a0]; omega
  · show win0_4.index t (1 : Fin 3) * 512 + 1 * (y 1).val = 512 * (t.val % 4) + (y 1).val
    rw [a1]; omega
  · show win0_4.index t (2 : Fin 3) * 128 + 1 * (y 2).val = (y 2).val
    rw [a2]; omega

theorem flushedX_eq (c : Dev nD) (t : Fin cfg0.N) :
    (dat V c).flushed 5 t = ((cfg0.win 5).blk t).view.read (Elt Ideal) (GX V c) := by
  show (cfg0.win 5).cut (grid0.coords t) ((dat V c).after 5 t) = _
  rw [after_5]
  obtain ⟨-, -, -, -, -, ⟨a0, a1, a2⟩⟩ := idx_facts t
  funext y
  rw [View.read_apply]
  show outX (iblk V c 0 t) y = GX V c (((cfg0.win 5).blk t).view.emb y)
  unfold GX
  rw [outX_apply]
  refine iblk0_apply V c t y _ ?_ ?_ ?_
  · show win0_5.index t (0 : Fin 3) * 1 + 1 * (y 0).val = t.val / 4
    have hy : (y 0).val < 1 := (y 0).isLt
    rw [a0]; omega
  · show win0_5.index t (1 : Fin 3) * 512 + 1 * (y 1).val = 512 * (t.val % 4) + (y 1).val
    rw [a1]; omega
  · show win0_5.index t (2 : Fin 3) * 1024 + 1 * (y 2).val = (y 2).val
    rw [a2]; omega

/-! ## Every entry of a result array is in some point's block

Token n of batch entry b is row n % 512 of the block of point 4·b + n / 512, and every point writes its block back. -/

/-- The point whose block holds token n of batch entry b. -/
def pointOf (b : Fin 8) (n : Fin 2048) : Fin cfg0.N :=
  ⟨4 * b.val + n.val / 512, by rw [show cfg0.N = 32 from N_0]; omega⟩

theorem mem_blk3 (t : Fin cfg0.N) (i : S8x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v2_0).slice (win0_3.rect t)).set ↔ _
  rw [View.set_slice_whole, Rect.mem_set_unit]
  exact Iff.rfl

theorem mem_blk4 (t : Fin cfg0.N) (i : S8x2048x128.Idx) :
    i ∈ ((cfg0.win 4).blk t).view.set ↔ ∀ a : Fin 3, win0_4.index t a * S1x512x128.size a ≤ (i a).val ∧ (i a).val < win0_4.index t a * S1x512x128.size a + S1x512x128.size a := by
  show i ∈ ((View.whole main_v2_1).slice (win0_4.rect t)).set ↔ _
  rw [View.set_slice_whole, Rect.mem_set_unit]
  exact Iff.rfl

theorem mem_blk5 (t : Fin cfg0.N) (i : S8x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v2_2).slice (win0_5.rect t)).set ↔ _
  rw [View.set_slice_whole, Rect.mem_set_unit]
  exact Iff.rfl

theorem cover3 (i : S8x2048x128.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 128 := (i 2).isLt
  refine ⟨pointOf (i 0) (i 1), flush0_3 _, ?_⟩
  obtain ⟨-, -, -, ⟨a0, a1, a2⟩, -⟩ := idx_facts (pointOf (i 0) (i 1))
  have hv : (pointOf (i 0) (i 1)).val = 4 * (i 0).val + (i 1).val / 512 := rfl
  rw [mem_blk3]
  intro a
  match a with
  | ⟨0, _⟩ =>
    show win0_3.index (pointOf (i 0) (i 1)) (0 : Fin 3) * 1 ≤ (i 0).val ∧ (i 0).val < win0_3.index (pointOf (i 0) (i 1)) (0 : Fin 3) * 1 + 1
    rw [a0, hv]; omega
  | ⟨1, _⟩ =>
    show win0_3.index (pointOf (i 0) (i 1)) (1 : Fin 3) * 512 ≤ (i 1).val ∧ (i 1).val < win0_3.index (pointOf (i 0) (i 1)) (1 : Fin 3) * 512 + 512
    rw [a1, hv]; omega
  | ⟨2, _⟩ =>
    show win0_3.index (pointOf (i 0) (i 1)) (2 : Fin 3) * 128 ≤ (i 2).val ∧ (i 2).val < win0_3.index (pointOf (i 0) (i 1)) (2 : Fin 3) * 128 + 128
    rw [a2]; omega

theorem cover4 (i : S8x2048x128.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 128 := (i 2).isLt
  refine ⟨pointOf (i 0) (i 1), flush0_4 _, ?_⟩
  obtain ⟨-, -, -, -, ⟨a0, a1, a2⟩, -⟩ := idx_facts (pointOf (i 0) (i 1))
  have hv : (pointOf (i 0) (i 1)).val = 4 * (i 0).val + (i 1).val / 512 := rfl
  rw [mem_blk4]
  intro a
  match a with
  | ⟨0, _⟩ =>
    show win0_4.index (pointOf (i 0) (i 1)) (0 : Fin 3) * 1 ≤ (i 0).val ∧ (i 0).val < win0_4.index (pointOf (i 0) (i 1)) (0 : Fin 3) * 1 + 1
    rw [a0, hv]; omega
  | ⟨1, _⟩ =>
    show win0_4.index (pointOf (i 0) (i 1)) (1 : Fin 3) * 512 ≤ (i 1).val ∧ (i 1).val < win0_4.index (pointOf (i 0) (i 1)) (1 : Fin 3) * 512 + 512
    rw [a1, hv]; omega
  | ⟨2, _⟩ =>
    show win0_4.index (pointOf (i 0) (i 1)) (2 : Fin 3) * 128 ≤ (i 2).val ∧ (i 2).val < win0_4.index (pointOf (i 0) (i 1)) (2 : Fin 3) * 128 + 128
    rw [a2]; omega

theorem cover5 (i : S8x2048x1024.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  refine ⟨pointOf (i 0) (i 1), flush0_5 _, ?_⟩
  obtain ⟨-, -, -, -, -, ⟨a0, a1, a2⟩⟩ := idx_facts (pointOf (i 0) (i 1))
  have hv : (pointOf (i 0) (i 1)).val = 4 * (i 0).val + (i 1).val / 512 := rfl
  rw [mem_blk5]
  intro a
  match a with
  | ⟨0, _⟩ =>
    show win0_5.index (pointOf (i 0) (i 1)) (0 : Fin 3) * 1 ≤ (i 0).val ∧ (i 0).val < win0_5.index (pointOf (i 0) (i 1)) (0 : Fin 3) * 1 + 1
    rw [a0, hv]; omega
  | ⟨1, _⟩ =>
    show win0_5.index (pointOf (i 0) (i 1)) (1 : Fin 3) * 512 ≤ (i 1).val ∧ (i 1).val < win0_5.index (pointOf (i 0) (i 1)) (1 : Fin 3) * 512 + 512
    rw [a1, hv]; omega
  | ⟨2, _⟩ =>
    show win0_5.index (pointOf (i 0) (i 1)) (2 : Fin 3) * 1024 ≤ (i 2).val ∧ (i 2).val < win0_5.index (pointOf (i 0) (i 1)) (2 : Fin 3) * 1024 + 1024
    rw [a2]; omega

/-! ## The three result arrays after the call -/

/-- The queries' array after the call, whole. -/
theorem arrF_eq (c : Dev nD) : (dat V c).arrAt 3 cfg0.N = GF V c :=
  (dat V c).arrAt_eq_of_cover 3 (GF V c) (fun t _ => flushedF_eq V c t) cover3

/-- The keys' array after the call, whole. -/
theorem arrG_eq (c : Dev nD) : (dat V c).arrAt 4 cfg0.N = GG V c :=
  (dat V c).arrAt_eq_of_cover 4 (GG V c) (fun t _ => flushedG_eq V c t) cover4

/-- The stored tokens' array after the call, whole. -/
theorem arrX_eq (c : Dev nD) : (dat V c).arrAt 5 cfg0.N = GX V c :=
  (dat V c).arrAt_eq_of_cover 5 (GX V c) (fun t _ => flushedX_eq V c t) cover5

/-- Query a of token (b, n): x[b, n, ·] against column a of the stacked weights, plus entry a of the stacked bias. -/
theorem arrF (c : Dev nD) (b : Fin 8) (n : Fin 2048) (a : Fin 128) :
    ((dat V c).arrAt 3 cfg0.N) (ix3 b n a)
      = (∑ e : Fin 1024, argX V c (ix3 b n e) * argW V c (ix2 e ⟨a.val, by omega⟩)) + argB V c (ix1 ⟨a.val, by omega⟩) := by
  rw [arrF_eq]; rfl

/-- Key a of token (b, n): the same at column 128 + a. -/
theorem arrG (c : Dev nD) (b : Fin 8) (n : Fin 2048) (a : Fin 128) :
    ((dat V c).arrAt 4 cfg0.N) (ix3 b n a)
      = (∑ e : Fin 1024, argX V c (ix3 b n e) * argW V c (ix2 e ⟨128 + a.val, by omega⟩)) + argB V c (ix1 ⟨128 + a.val, by omega⟩) := by
  rw [arrG_eq]; rfl

/-- The stored token (b, n), feature d, is the token. -/
theorem arrX (c : Dev nD) (b : Fin 8) (n : Fin 2048) (d : Fin 1024) :
    ((dat V c).arrAt 5 cfg0.N) (ix3 b n d) = argX V c (ix3 b n d) := by
  rw [arrX_eq]; rfl

end Cert.KernelIdeal.ProjValue

end
-- ==== Proof.ConcatAtIndex.lean ====
/-
  The host's two concatenations read at an index.

  The kernel's host program glues the two projection matrices side by side (columns 0..127 from the first,
  columns 128..255 from the second) and the two bias vectors end to end. Read at a plain coordinate, the glued
  array is the first piece on the low half of the glued axis and the second piece, shifted by 128, on the high half.
-/
import proofs.«107902_j85942295593581_2_alg».proof.Proof.Gen.KernelIdeal.Launch
import Idealize.ShloMosaic.Lib.Pipeline.Value
import Idealize.ShloMosaic.Lib.ValueIdx

noncomputable section

namespace AttnConcat

open Idealize.ShloMosaic Idealize.ShloMosaic.ValueIdx
open Cert.KernelIdeal

variable {α : Type}

/-- Columns 0..127 of the glued matrix are the first matrix. -/
theorem concat_mat_left (a b : S1024x128.Idx → α) (h : Shape.Concatenates [S1024x128, S1024x128] S1024x256 1)
    (e : Fin 1024) (k : Fin 128) :
    concatenate S1024x256 1 [⟨S1024x128, a⟩, ⟨S1024x128, b⟩] h (ix2 e ⟨k.val, by omega⟩) = a (ix2 e k) := by
  refine concatenate_pair_apply_left (1 : Fin S1024x256.rank) a b h _ rfl (ix2 e k) ?_
  intro d
  match d with
  | ⟨0, _⟩ => rfl
  | ⟨1, _⟩ => rfl

/-- Columns 128..255 of the glued matrix are the second matrix. -/
theorem concat_mat_right (a b : S1024x128.Idx → α) (h : Shape.Concatenates [S1024x128, S1024x128] S1024x256 1)
    (e : Fin 1024) (k : Fin 128) :
    concatenate S1024x256 1 [⟨S1024x128, a⟩, ⟨S1024x128, b⟩] h (ix2 e ⟨128 + k.val, by omega⟩) = b (ix2 e k) := by
  refine concatenate_pair_apply_right (1 : Fin S1024x256.rank) a b h _ rfl rfl (ix2 e k) ?_ ?_
  · intro d hd
    match d, hd with
    | ⟨0, _⟩, _ => rfl
    | ⟨1, _⟩, hd => exact absurd rfl hd
  · show k.val + 128 = 128 + k.val
    omega

/-- Entries 0..127 of the glued vector are the first vector. -/
theorem concat_vec_left (a b : S128.Idx → α) (h : Shape.Concatenates [S128, S128] S256 0) (k : Fin 128) :
    concatenate S256 0 [⟨S128, a⟩, ⟨S128, b⟩] h (ix1 ⟨k.val, by omega⟩) = a (ix1 k) := by
  refine concatenate_pair_apply_left (0 : Fin S256.rank) a b h _ rfl (ix1 k) ?_
  intro d
  match d with
  | ⟨0, _⟩ => rfl

/-- Entries 128..255 of the glued vector are the second vector. -/
theorem concat_vec_right (a b : S128.Idx → α) (h : Shape.Concatenates [S128, S128] S256 0) (k : Fin 128) :
    concatenate S256 0 [⟨S128, a⟩, ⟨S128, b⟩] h (ix1 ⟨128 + k.val, by omega⟩) = b (ix1 k) := by
  refine concatenate_pair_apply_right (0 : Fin S256.rank) a b h _ rfl rfl (ix1 k) ?_ ?_
  · intro d hd
    match d, hd with
    | ⟨0, _⟩, hd => exact absurd rfl hd
  · show k.val + 128 = 128 + k.val
    omega

end AttnConcat

end
-- ==== Proof.IdealResult.lean ====
/-
  The kernel's result array, entry by entry, as the specification's running-softmax formula of the five argument arrays.
  The host's concatenations put Wf beside Wg and bf beside bg; the projection call therefore leaves the queries
  x·Wf + bf, the keys x·Wg + bg and the tokens themselves; the attention call's blocks are blocks of those; a query row's
  four key blocks chain into four steps of the running softmax from the reset state; and the last key block's point
  stores the quotient plus the token. No finiteness is used here: both sides are the same arithmetic in the same order.
-/
import proofs.«107902_j85942295593581_2_alg».proof.Proof.IdealRun
import proofs.«107902_j85942295593581_2_alg».proof.Proof.IdealAttnState
import proofs.«107902_j85942295593581_2_alg».proof.Proof.IdealAttnBlocks
import proofs.«107902_j85942295593581_2_alg».proof.Proof.IdealProjValue
import proofs.«107902_j85942295593581_2_alg».proof.Proof.ConcatAtIndex
import proofs.«107902_j85942295593581_2_alg».proof.Proof.Spec
import Idealize.ShloMosaic.Lib.StableHlo.Run
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem
open Cert.KernelIdeal Cert.KernelIdeal.Gen Cert.KernelIdeal.Run Cert.KernelIdeal.Attn
open scoped BigOperators

variable (m : (ℓ : Loc nD τ sig) → Buf (Elt Ideal) ℓ) (ρ : Dev nD → PrngReg)

/-! ## The five arguments at plain coordinates -/

def X (c : Dev nD) : Fin 8 → Fin 2048 → Fin 1024 → EReal := fun b n d => (m ((c : Thread nD τ).loc main_arg0) : S8x2048x1024.Idx → EReal) (ix3 b n d)
def Wf (c : Dev nD) : Fin 1024 → Fin 128 → EReal := fun e a => (m ((c : Thread nD τ).loc main_arg1) : S1024x128.Idx → EReal) (ix2 e a)
def βf (c : Dev nD) : Fin 128 → EReal := fun a => (m ((c : Thread nD τ).loc main_arg2) : S128.Idx → EReal) (ix1 a)
def Wg (c : Dev nD) : Fin 1024 → Fin 128 → EReal := fun e a => (m ((c : Thread nD τ).loc main_arg3) : S1024x128.Idx → EReal) (ix2 e a)
def βg (c : Dev nD) : Fin 128 → EReal := fun a => (m ((c : Thread nD τ).loc main_arg4) : S128.Idx → EReal) (ix1 a)

/-! ## What the host leaves: the concatenations -/

theorem V1_v0 (c : Dev nD) : (V1 m ρ c main_v0 : S1024x256.Idx → EReal)
    = concatenate S1024x256 1 [⟨S1024x128, m ((c : Thread nD τ).loc main_arg1)⟩, ⟨S1024x128, m ((c : Thread nD τ).loc main_arg3)⟩] concatenates_S1024x128_S1024x128_S1024x256_d1 := by
  dsimp only [V1, W1, hostOps0]; after_results

theorem V1_v1 (c : Dev nD) : (V1 m ρ c main_v1 : S256.Idx → EReal)
    = concatenate S256 0 [⟨S128, m ((c : Thread nD τ).loc main_arg2)⟩, ⟨S128, m ((c : Thread nD τ).loc main_arg4)⟩] concatenates_S128_S128_S256_d0 := by
  dsimp only [V1, W1, hostOps0]; after_results

theorem V1_arg0 (c : Dev nD) : V1 m ρ c main_arg0 = m ((c : Thread nD τ).loc main_arg0) :=
  W1_of_arg m ρ c main_arg0 (by decide) (by decide)

theorem V2_arg0 (c : Dev nD) : V2 m ρ c main_arg0 = m ((c : Thread nD τ).loc main_arg0) :=
  ((W2_arr m ρ c 0).trans (((Proj.dat (V1 m ρ) c).arrAt_in 0 rfl _).trans (Proj.A_eq (V1 m ρ) c 0))).trans (V1_arg0 m ρ c)

/-! ## What the projection call leaves -/

theorem queries (c : Dev nD) (b : Fin 8) (n : Fin 2048) (a : Fin 128) :
    (V2 m ρ c main_v2_0 : S8x2048x128.Idx → EReal) (ix3 b n a) = AttnSpec.proj (X m c) (Wf m c) (βf m c) b n a := by
  refine (congrFun (W2_arr m ρ c 3) (ix3 b n a)).trans ((ProjValue.arrF (V1 m ρ) c b n a).trans ?_)
  unfold AttnSpec.proj
  refine congrArg₂ (· + ·) (Finset.sum_congr rfl fun e _ => congrArg₂ (· * ·) ?_ ?_) ?_
  · exact congrFun (V1_arg0 m ρ c) (ix3 b n e)
  · exact (congrFun (V1_v0 m ρ c) _).trans (AttnConcat.concat_mat_left _ _ _ e a)
  · exact (congrFun (V1_v1 m ρ c) _).trans (AttnConcat.concat_vec_left _ _ _ a)

theorem keys (c : Dev nD) (b : Fin 8) (n : Fin 2048) (a : Fin 128) :
    (V2 m ρ c main_v2_1 : S8x2048x128.Idx → EReal) (ix3 b n a) = AttnSpec.proj (X m c) (Wg m c) (βg m c) b n a := by
  refine (congrFun (W2_arr m ρ c 4) (ix3 b n a)).trans ((ProjValue.arrG (V1 m ρ) c b n a).trans ?_)
  unfold AttnSpec.proj
  refine congrArg₂ (· + ·) (Finset.sum_congr rfl fun e _ => congrArg₂ (· * ·) ?_ ?_) ?_
  · exact congrFun (V1_arg0 m ρ c) (ix3 b n e)
  · exact (congrFun (V1_v0 m ρ c) _).trans (AttnConcat.concat_mat_right _ _ _ e a)
  · exact (congrFun (V1_v1 m ρ c) _).trans (AttnConcat.concat_vec_right _ _ _ a)

theorem tokens (c : Dev nD) (b : Fin 8) (n : Fin 2048) (d : Fin 1024) :
    (V2 m ρ c main_v2_2 : S8x2048x1024.Idx → EReal) (ix3 b n d) = X m c b n d :=
  (congrFun (W2_arr m ρ c 5) (ix3 b n d)).trans ((ProjValue.arrX (V1 m ρ) c b n d).trans (congrFun (V1_arg0 m ρ c) (ix3 b n d)))

/-! ## The attention call's blocks, at coordinates given by their values -/

theorem score_of_point (c : Dev nD) (t : Fin cfg1.N) (r : Fin 1024) (k : Fin 512) (b : Fin 8) (n n' : Fin 2048)
    (hb : b.val = t.val / 8) (hn : n.val = 1024 * ((t.val / 4) % 2) + r.val) (hn' : n'.val = 512 * (t.val % 4) + k.val) :
    AttnState.sc (V2 m ρ) c t r k = AttnSpec.score (X m c) (Wf m c) (βf m c) (Wg m c) (βg m c) b n n' := by
  unfold AttnState.sc AttnSpec.score
  refine Finset.sum_congr rfl fun a _ => congrArg₂ (· * ·) ?_ ?_
  · refine (AttnBlocks.blk0 (V2 m ρ) c t r a).trans ?_
    rw [← queries m ρ c b n a]
    exact congrArg _ (congrArg₂ (fun p q => ix3 p q a) (Fin.ext hb.symm) (Fin.ext hn.symm))
  · refine (AttnBlocks.blk1 (V2 m ρ) c t k a).trans ?_
    rw [← keys m ρ c b n' a]
    exact congrArg _ (congrArg₂ (fun p q => ix3 p q a) (Fin.ext hb.symm) (Fin.ext hn'.symm))

theorem value_of_point (c : Dev nD) (t : Fin cfg1.N) (d : Fin 1024) (k : Fin 512) (b : Fin 8) (n' : Fin 2048)
    (hb : b.val = t.val / 8) (hn' : n'.val = 512 * (t.val % 4) + k.val) :
    AttnState.vl (V2 m ρ) c t d k = X m c b n' d := by
  unfold AttnState.vl
  refine (AttnBlocks.blk2 (V2 m ρ) c t k d).trans ?_
  rw [← tokens m ρ c b n' d]
  exact congrArg _ (congrArg₂ (fun p q => ix3 p q d) (Fin.ext hb.symm) (Fin.ext hn'.symm))

theorem token_of_point (c : Dev nD) (t : Fin cfg1.N) (r d : Fin 1024) (b : Fin 8) (n : Fin 2048)
    (hb : b.val = t.val / 8) (hn : n.val = 1024 * ((t.val / 4) % 2) + r.val) :
    AttnState.bQ (V2 m ρ) c t (ix3 (0 : Fin 1) r d) = X m c b n d := by
  refine (AttnBlocks.blk3 (V2 m ρ) c t r d).trans ?_
  unfold X
  rw [← V2_arg0 m ρ c]
  exact congrArg _ (congrArg₂ (fun p q => ix3 p q d) (Fin.ext hb.symm) (Fin.ext hn.symm))

/-! ## A query row's four key blocks -/

/-- The scores and the values a point offers row r and column d, as the specification's, when the point is key block j
    of the query row n of batch entry b. -/
theorem block_of_point (c : Dev nD) (t : Fin cfg1.N) (r d : Fin 1024) (b : Fin 8) (n : Fin 2048) (j : Fin 4)
    (hb : b.val = t.val / 8) (hn : n.val = 1024 * ((t.val / 4) % 2) + r.val) (hj : j.val = t.val % 4) :
    AttnState.sc (V2 m ρ) c t r = (fun k => AttnSpec.score (X m c) (Wf m c) (βf m c) (Wg m c) (βg m c) b n (AttnSpec.key j k))
    ∧ AttnState.vl (V2 m ρ) c t d = (fun k => X m c b (AttnSpec.key j k) d) :=
  ⟨funext fun k => score_of_point m ρ c t r k b n (AttnSpec.key j k) hb hn (by unfold AttnSpec.key; show j.val * 512 + k.val = _; omega),
   funext fun k => value_of_point m ρ c t d k b (AttnSpec.key j k) hb (by unfold AttnSpec.key; show j.val * 512 + k.val = _; omega)⟩

/-- After a last key block the carried buffers hold, for (r, d), the four steps of the running softmax over the row's
    four key blocks from the reset state. -/
theorem row_after_last (c : Dev nD) (t : Fin cfg1.N) (h3 : t.val % 4 = 3) (r d : Fin 1024) (b : Fin 8) (n : Fin 2048)
    (hb : b.val = t.val / 8) (hn : n.val = 1024 * ((t.val / 4) % 2) + r.val) :
    AttnState.rowState (V2 m ρ) c t.val t.isLt r d
      = AttnSpec.runFrom (AttnSpec.negBig, 0, 0) (fun j k => AttnSpec.score (X m c) (Wf m c) (βf m c) (Wg m c) (βg m c) b n (AttnSpec.key j k))
          (fun j k => X m c b (AttnSpec.key j k) d) := by
  have hN : t.val < 64 := lt_of_lt_of_eq t.isLt (show cfg1.N = 64 from N_1)
  have l2 : t.val - 1 < cfg1.N := Nat.lt_of_le_of_lt (Nat.sub_le _ _) t.isLt
  have l1 : t.val - 1 - 1 < cfg1.N := Nat.lt_of_le_of_lt (Nat.sub_le _ _) l2
  have l0 : t.val - 1 - 1 - 1 < cfg1.N := Nat.lt_of_le_of_lt (Nat.sub_le _ _) l1
  have e3 : AttnState.rowState (V2 m ρ) c t.val t.isLt r d = OnlineSoftmax.step (AttnState.rowState (V2 m ρ) c (t.val - 1) l2 r d) (AttnState.sc (V2 m ρ) c t r) (AttnState.vl (V2 m ρ) c t d) :=
    AttnState.state_next (V2 m ρ) c t (by omega) r d
  have e2 : AttnState.rowState (V2 m ρ) c (t.val - 1) l2 r d = OnlineSoftmax.step (AttnState.rowState (V2 m ρ) c (t.val - 1 - 1) l1 r d) (AttnState.sc (V2 m ρ) c ⟨t.val - 1, l2⟩ r) (AttnState.vl (V2 m ρ) c ⟨t.val - 1, l2⟩ d) :=
    AttnState.state_next (V2 m ρ) c ⟨t.val - 1, l2⟩ (by show ¬(t.val - 1) % 4 = 0; omega) r d
  have e1 : AttnState.rowState (V2 m ρ) c (t.val - 1 - 1) l1 r d = OnlineSoftmax.step (AttnState.rowState (V2 m ρ) c (t.val - 1 - 1 - 1) l0 r d) (AttnState.sc (V2 m ρ) c ⟨t.val - 1 - 1, l1⟩ r) (AttnState.vl (V2 m ρ) c ⟨t.val - 1 - 1, l1⟩ d) :=
    AttnState.state_next (V2 m ρ) c ⟨t.val - 1 - 1, l1⟩ (by show ¬(t.val - 1 - 1) % 4 = 0; omega) r d
  have e0 : AttnState.rowState (V2 m ρ) c (t.val - 1 - 1 - 1) l0 r d = OnlineSoftmax.step (AttnSpec.negBig, 0, 0) (AttnState.sc (V2 m ρ) c ⟨t.val - 1 - 1 - 1, l0⟩ r) (AttnState.vl (V2 m ρ) c ⟨t.val - 1 - 1 - 1, l0⟩ d) :=
    AttnState.state_first (V2 m ρ) c ⟨t.val - 1 - 1 - 1, l0⟩ (by show (t.val - 1 - 1 - 1) % 4 = 0; omega) r d
  obtain ⟨s3, v3⟩ := block_of_point m ρ c t r d b n 3 hb hn (by show 3 = t.val % 4; omega)
  obtain ⟨s2, v2⟩ := block_of_point m ρ c ⟨t.val - 1, l2⟩ r d b n 2 (by show b.val = (t.val - 1) / 8; omega) (by show n.val = 1024 * (((t.val - 1) / 4) % 2) + r.val; omega) (by show 2 = (t.val - 1) % 4; omega)
  obtain ⟨s1, v1⟩ := block_of_point m ρ c ⟨t.val - 1 - 1, l1⟩ r d b n 1 (by show b.val = (t.val - 1 - 1) / 8; omega) (by show n.val = 1024 * (((t.val - 1 - 1) / 4) % 2) + r.val; omega) (by show 1 = (t.val - 1 - 1) % 4; omega)
  obtain ⟨s0, v0⟩ := block_of_point m ρ c ⟨t.val - 1 - 1 - 1, l0⟩ r d b n 0 (by show b.val = (t.val - 1 - 1 - 1) / 8; omega) (by show n.val = 1024 * (((t.val - 1 - 1 - 1) / 4) % 2) + r.val; omega) (by show 0 = (t.val - 1 - 1 - 1) % 4; omega)
  rw [e3, e2, e1, e0, s3, v3, s2, v2, s1, v1, s0, v0]
  rfl

/-! ## The result array -/

/-- The specification's kernel-side formula as an array. -/
def G (c : Dev nD) : S8x2048x1024.Idx → EReal :=
  fun i => AttnSpec.kernelOut (X m c) (Wf m c) (βf m c) (Wg m c) (βg m c) (i 0) (i 1) (i 2)

/-- The result array after the run. -/
theorem result_eq (c : Dev nD) : (W3 m ρ c (Proc.devRef .tc main_v3) : S8x2048x1024.Idx → EReal) = G m c := by
  refine (W3_arr m ρ c 4).trans (AttnBlocks.arr4 (V2 m ρ) c (G m c) fun t h3 r d => ?_)
  have hN : t.val < 64 := lt_of_lt_of_eq t.isLt (show cfg1.N = 64 from N_1)
  rw [AttnState.out_last (V2 m ρ) c t h3 r d,
    row_after_last m ρ c t h3 r d ⟨t.val / 8, by omega⟩ ⟨1024 * ((t.val / 4) % 2) + r.val, by have := r.isLt; omega⟩ rfl rfl,
    token_of_point m ρ c t r d ⟨t.val / 8, by omega⟩ ⟨1024 * ((t.val / 4) % 2) + r.val, by have := r.isLt; omega⟩ rfl rfl]
  rfl

end Cert.KernelIdeal.Result

end
-- ==== Proof.RefIsSpec.lean ====
/-
  The reference program, read stage by stage at an index, is the one-pass softmax attention of the specification.

  Every stage of the reference is a function of the five argument arrays. Read at an index built from plain
  coordinates: the two projections are the token's row times a weight column plus the bias entry; the score array at
  (b, n, m) is the dot product over the 128 features of the query projection of token n and the key projection of
  token m; the row maximum is the fold of max from −∞ over the 2048 scores of the row, taken once more against −∞;
  the exponentials are taken of score minus that maximum; their row sum is 0 plus the sum over the row; each weight is
  the exponential divided by that sum; the weighted tokens are the sum over m of weight (b, n, m) times token
  x[b, m, d]; and the result adds x[b, n, d]. This is the same arithmetic in the same order as the specification's
  reference entry, so no finiteness is needed: the proof only identifies the index maps of the layout stages (a
  broadcast reads its operand at the coordinates it keeps, a contraction walks one axis) with plain coordinates.
-/
import proofs.«107902_j85942295593581_2_alg».proof.Proof.Gen.ReferenceIdeal.Read
import proofs.«107902_j85942295593581_2_alg».proof.Proof.Spec
import Idealize.ShloMosaic.Lib.ValueIdx
import Idealize.ShloMosaic.PureOps.Ideal.Laws

noncomputable section

namespace AttnRef

open Idealize.ShloMosaic Idealize.ShloMosaic.ValueIdx Idealize.ShloMosaic.TcCoe Idealize.SL.Sem
open Cert.ReferenceIdeal Cert.ReferenceIdeal.Gen Cert.ReferenceIdeal.Read
open scoped BigOperators

/-! ## The index maps of the stages at plain coordinates -/

theorem lidx_v0 (b : Fin 8) (n : Fin 2048) (a : Fin 128) (k : Fin 1024) : lidx_main_v0 (ix3 b n a) k = ix3 b n k :=
  funext fun c => by match c with | ⟨0, _⟩ => rfl | ⟨1, _⟩ => rfl | ⟨2, _⟩ => rfl
theorem ridx_v0 (b : Fin 8) (n : Fin 2048) (a : Fin 128) (k : Fin 1024) : ridx_main_v0 (ix3 b n a) k = ix2 k a :=
  funext fun c => by match c with | ⟨0, _⟩ => rfl | ⟨1, _⟩ => rfl
theorem idx_v2_v1 (b : Fin 8) (n : Fin 2048) (a : Fin 128) : idx_main_v1 (idx_main_v2 (ix3 b n a)) = ix1 a :=
  funext fun c => by match c with | ⟨0, _⟩ => rfl
theorem lidx_v4 (b : Fin 8) (n : Fin 2048) (a : Fin 128) (k : Fin 1024) : lidx_main_v4 (ix3 b n a) k = ix3 b n k :=
  funext fun c => by match c with | ⟨0, _⟩ => rfl | ⟨1, _⟩ => rfl | ⟨2, _⟩ => rfl
theorem ridx_v4 (b : Fin 8) (n : Fin 2048) (a : Fin 128) (k : Fin 1024) : ridx_main_v4 (ix3 b n a) k = ix2 k a :=
  funext fun c => by match c with | ⟨0, _⟩ => rfl | ⟨1, _⟩ => rfl
theorem idx_v6_v5 (b : Fin 8) (n : Fin 2048) (a : Fin 128) : idx_main_v5 (idx_main_v6 (ix3 b n a)) = ix1 a :=
  funext fun c => by match c with | ⟨0, _⟩ => rfl
theorem lidx_v8 (b : Fin 8) (n m : Fin 2048) (k : Fin 128) : lidx_main_v8 (ix3 b n m) k = ix3 b n k :=
  funext fun c => by match c with | ⟨0, _⟩ => rfl | ⟨1, _⟩ => rfl | ⟨2, _⟩ => rfl
theorem ridx_v8 (b : Fin 8) (n m : Fin 2048) (k : Fin 128) : ridx_main_v8 (ix3 b n m) k = ix3 b m k :=
  funext fun c => by match c with | ⟨0, _⟩ => rfl | ⟨1, _⟩ => rfl | ⟨2, _⟩ => rfl
theorem idx_v13_v12 (b : Fin 8) (n m : Fin 2048) : idx_main_v12 (idx_main_v13 (ix3 b n m)) = ix2 b n :=
  funext fun c => by match c with | ⟨0, _⟩ => rfl | ⟨1, _⟩ => rfl
theorem idx_v16 (b : Fin 8) (n : Fin 2048) (k : Fin 2048) : idx_main_v16 (ix2 b n) k = ix3 b n k :=
  funext fun c => by match c with | ⟨0, _⟩ => rfl | ⟨1, _⟩ => rfl | ⟨2, _⟩ => rfl
theorem idx_v18_v17 (b : Fin 8) (n m : Fin 2048) : idx_main_v17 (idx_main_v18 (ix3 b n m)) = ix2 b n :=
  funext fun c => by match c with | ⟨0, _⟩ => rfl | ⟨1, _⟩ => rfl
theorem lidx_v20 (b : Fin 8) (n : Fin 2048) (d : Fin 1024) (k : Fin 2048) : lidx_main_v20 (ix3 b n d) k = ix3 b n k :=
  funext fun c => by match c with | ⟨0, _⟩ => rfl | ⟨1, _⟩ => rfl | ⟨2, _⟩ => rfl
theorem ridx_v20 (b : Fin 8) (n : Fin 2048) (d : Fin 1024) (k : Fin 2048) : ridx_main_v20 (ix3 b n d) k = ix3 b k d :=
  funext fun c => by match c with | ⟨0, _⟩ => rfl | ⟨1, _⟩ => rfl | ⟨2, _⟩ => rfl

/-- The pattern of −∞ denotes −∞. -/
theorem ofBits_neg_inf : Ideal.ofBits .f32 0xFF800000#32 = (⊥ : EReal) := by simp [Ideal.ofBits, Ideal.ieee]
/-- The pattern of +0 denotes 0. -/
theorem ofBits_zero : Ideal.ofBits .f32 0x00000000#32 = (0 : EReal) := by simp [Ideal.ofBits, Ideal.ieee]

/-! ## The stages at plain coordinates -/

section Stages

variable (x0 : (⟨S8x2048x1024, .f32⟩ : BufTy).Contents (Elt Ideal)) (x1 : (⟨S1024x128, .f32⟩ : BufTy).Contents (Elt Ideal))
  (x2 : (⟨S128, .f32⟩ : BufTy).Contents (Elt Ideal)) (x3 : (⟨S1024x128, .f32⟩ : BufTy).Contents (Elt Ideal))
  (x4 : (⟨S128, .f32⟩ : BufTy).Contents (Elt Ideal))

/-- The query projection: the token's row against a column of the first weight array, plus the bias entry. -/
theorem v3_eq (b : Fin 8) (n : Fin 2048) (a : Fin 128) :
    val_main_v3 (F := Ideal) x0 x1 x2 (ix3 b n a)
      = AttnSpec.proj (fun b n d => x0 (ix3 b n d)) (fun e a => x1 (ix2 e a)) (fun a => x2 (ix1 a)) b n a := by
  rw [val_main_v3_apply, val_main_v0_apply, val_main_v2_apply, val_main_v1_apply]
  simp only [Ideal.addf_def, lidx_v0, ridx_v0, idx_v2_v1]
  rfl

/-- The key projection: the same against the second weight array and bias. -/
theorem v7_eq (b : Fin 8) (n : Fin 2048) (a : Fin 128) :
    val_main_v7 (F := Ideal) x0 x3 x4 (ix3 b n a)
      = AttnSpec.proj (fun b n d => x0 (ix3 b n d)) (fun e a => x3 (ix2 e a)) (fun a => x4 (ix1 a)) b n a := by
  rw [val_main_v7_apply, val_main_v4_apply, val_main_v6_apply, val_main_v5_apply]
  simp only [Ideal.addf_def, lidx_v4, ridx_v4, idx_v6_v5]
  rfl

/-- The score array: the dot product over the features of a query projection and a key projection. -/
theorem v8_eq (b : Fin 8) (n m : Fin 2048) :
    val_main_v8 (F := Ideal) x0 x1 x2 x3 x4 (ix3 b n m)
      = AttnSpec.score (fun b n d => x0 (ix3 b n d)) (fun e a => x1 (ix2 e a)) (fun a => x2 (ix1 a))
          (fun e a => x3 (ix2 e a)) (fun a => x4 (ix1 a)) b n m := by
  rw [val_main_v8_apply]
  simp only [lidx_v8, ridx_v8, v3_eq, v7_eq]
  rfl

/-- A max-reduce over the last axis from −∞, read at a row: the fold of max from −∞ over the row's 2048 entries. -/
theorem reduce_max_row (y : FVec Ideal S8x2048x2048 .f32) (b : Fin 8) (n : Fin 2048) :
    Host.reduce (α := Ideal .f32) (FloatOps.maximumf (F := Ideal) (φ := .f32)) y (val_main_cst (F := Ideal))
        reducesTo_S8x2048x2048_S8x2048_d2 h_S_ (ix2 b n)
      = (Finset.univ : Finset (Fin 2048)).fold max ⊥ (fun m => y (ix3 b n m)) := by
  have h : S8x2048x2048.Reduces [2] S8x2048 := by decide
  rw [Host.reduce_eq_fold_single (FloatOps.maximumf (F := Ideal) (φ := .f32)) y _ _ h h_S_]
  have hf : (y ∘ h.lift (ix2 b n)) = fun k : Fin 2048 => y (ix3 b n k) := funext fun k => congrArg y (by
    funext c; apply Fin.ext
    match c with | ⟨0, _⟩ => rfl | ⟨1, _⟩ => rfl | ⟨2, _⟩ => rfl)
  rw [hf]
  show Finset.fold max (Ideal.ofBits .f32 0xFF800000#32) (fun k : Fin 2048 => y (ix3 b n k)) Finset.univ = _
  rw [ofBits_neg_inf]

/-- The row maximum as the reference takes it: −∞ against the fold of max from −∞ over the row's scores. -/
theorem v11_eq (b : Fin 8) (n : Fin 2048) :
    val_main_v11 (F := Ideal) x0 x1 x2 x3 x4 (ix2 b n)
      = AttnSpec.rowMax (fun b n d => x0 (ix3 b n d)) (fun e a => x1 (ix2 e a)) (fun a => x2 (ix1 a))
          (fun e a => x3 (ix2 e a)) (fun a => x4 (ix1 a)) b n := by
  rw [val_main_v11_apply, val_main_v10_apply, val_main_cst_0_apply]
  unfold val_main_v9
  rw [reduce_max_row]
  simp only [Ideal.maximumf_def, Ideal.ofBits_def, ofBits_neg_inf, v8_eq]
  rfl

/-- The exponentials: of the score less the row maximum. -/
theorem v15_eq (b : Fin 8) (n m : Fin 2048) :
    val_main_v15 (F := Ideal) x0 x1 x2 x3 x4 (ix3 b n m)
      = Ideal.exp (AttnSpec.score (fun b n d => x0 (ix3 b n d)) (fun e a => x1 (ix2 e a)) (fun a => x2 (ix1 a))
          (fun e a => x3 (ix2 e a)) (fun a => x4 (ix1 a)) b n m
          - AttnSpec.rowMax (fun b n d => x0 (ix3 b n d)) (fun e a => x1 (ix2 e a)) (fun a => x2 (ix1 a))
          (fun e a => x3 (ix2 e a)) (fun a => x4 (ix1 a)) b n) := by
  rw [val_main_v15_apply, val_main_v14_apply, val_main_v13_apply, val_main_v12_apply]
  simp only [Ideal.hostUnary_exp_def, Ideal.subf_def, idx_v13_v12, v8_eq, v11_eq]

/-- The row sum of the exponentials: 0 plus the sum over the row. -/
theorem v16_eq (b : Fin 8) (n : Fin 2048) :
    val_main_v16 (F := Ideal) x0 x1 x2 x3 x4 (ix2 b n)
      = 0 + ∑ m' : Fin 2048, Ideal.exp (AttnSpec.score (fun b n d => x0 (ix3 b n d)) (fun e a => x1 (ix2 e a)) (fun a => x2 (ix1 a))
          (fun e a => x3 (ix2 e a)) (fun a => x4 (ix1 a)) b n m'
          - AttnSpec.rowMax (fun b n d => x0 (ix3 b n d)) (fun e a => x1 (ix2 e a)) (fun a => x2 (ix1 a))
          (fun e a => x3 (ix2 e a)) (fun a => x4 (ix1 a)) b n) := by
  rw [val_main_v16_apply, val_main_cst_1_apply]
  simp only [Ideal.ofBits_def, ofBits_zero, idx_v16, v15_eq]

/-- The weights: each exponential divided by the row sum. -/
theorem v19_eq (b : Fin 8) (n m : Fin 2048) :
    val_main_v19 (F := Ideal) x0 x1 x2 x3 x4 (ix3 b n m)
      = Ideal.div (Ideal.exp (AttnSpec.score (fun b n d => x0 (ix3 b n d)) (fun e a => x1 (ix2 e a)) (fun a => x2 (ix1 a))
          (fun e a => x3 (ix2 e a)) (fun a => x4 (ix1 a)) b n m
          - AttnSpec.rowMax (fun b n d => x0 (ix3 b n d)) (fun e a => x1 (ix2 e a)) (fun a => x2 (ix1 a))
          (fun e a => x3 (ix2 e a)) (fun a => x4 (ix1 a)) b n))
        (0 + ∑ m' : Fin 2048, Ideal.exp (AttnSpec.score (fun b n d => x0 (ix3 b n d)) (fun e a => x1 (ix2 e a)) (fun a => x2 (ix1 a))
          (fun e a => x3 (ix2 e a)) (fun a => x4 (ix1 a)) b n m'
          - AttnSpec.rowMax (fun b n d => x0 (ix3 b n d)) (fun e a => x1 (ix2 e a)) (fun a => x2 (ix1 a))
          (fun e a => x3 (ix2 e a)) (fun a => x4 (ix1 a)) b n)) := by
  rw [val_main_v19_apply, val_main_v18_apply, val_main_v17_apply]
  simp only [Ideal.hostDivf_def, idx_v18_v17, v15_eq, v16_eq]

/-- The reference's last stage at (b, n, d) is the specification's reference entry of the argument arrays read at
    plain coordinates. -/
theorem ref_is_spec (b : Fin 8) (n : Fin 2048) (d : Fin 1024) :
    val_main_v21 (F := Ideal) x0 x1 x2 x3 x4 (ix3 b n d)
      = AttnSpec.refOut (fun b n d => x0 (ix3 b n d)) (fun e a => x1 (ix2 e a)) (fun a => x2 (ix1 a))
          (fun e a => x3 (ix2 e a)) (fun a => x4 (ix1 a)) b n d := by
  rw [val_main_v21_apply, val_main_v20_apply]
  simp only [Ideal.addf_def, lidx_v20, ridx_v20, v19_eq]
  rfl

end Stages

/-- The run's result term (what the reference's run leaves in its result buffer, as a term of the launch contents `m`
    of the five argument buffers) at (b, n, d): the specification's reference entry of those contents read at plain
    coordinates. -/
theorem res_is_spec (m : (ℓ : Loc nD τ sig) → Buf (Elt Ideal) ℓ) (c : Dev nD) (b : Fin 8) (n : Fin 2048) (d : Fin 1024) :
    Cert.ReferenceIdeal.Value.res_main_v21 (F := Ideal) m c (ix3 b n d)
      = AttnSpec.refOut (fun b n d => (m ((c.tc : Thread nD τ).loc main_arg0) : (⟨S8x2048x1024, .f32⟩ : BufTy).Contents (Elt Ideal)) (ix3 b n d))
          (fun e a => (m ((c.tc : Thread nD τ).loc main_arg1) : (⟨S1024x128, .f32⟩ : BufTy).Contents (Elt Ideal)) (ix2 e a))
          (fun a => (m ((c.tc : Thread nD τ).loc main_arg2) : (⟨S128, .f32⟩ : BufTy).Contents (Elt Ideal)) (ix1 a))
          (fun e a => (m ((c.tc : Thread nD τ).loc main_arg3) : (⟨S1024x128, .f32⟩ : BufTy).Contents (Elt Ideal)) (ix2 e a))
          (fun a => (m ((c.tc : Thread nD τ).loc main_arg4) : (⟨S128, .f32⟩ : BufTy).Contents (Elt Ideal)) (ix1 a)) b n d := by
  rw [val_main_v21_eq]
  exact ref_is_spec _ _ _ _ _ b n d

end AttnRef

end
-- ==== Proof.Bridge.lean ====
/-
  The kernel's running softmax over four key blocks and the reference's one-pass softmax give the same row.

  With every entry of the five argument arrays a real number, each projected feature and each score is a real
  number (a finite sum of products of reals). The kernel starts its running state at (−B, 0, 0) with B a large
  real; this is the state (M, exp (−M) · 0, exp (−M) · 0) with M = −B, i.e. a state that has seen nothing yet
  relative to a real shift. Absorbing four blocks of 512 real scores keeps the form (M', exp (−M') · E, exp (−M') · W)
  with E the sum of exp s and W the sum of exp s · x over the keys seen, so the kernel's quotient is W / E, the shift
  cancelling because E > 0. The reference subtracts the row's maximum, a real, from every score; its weights
  exp (s − max) / (0 + Σ exp (s − max)) summed against the tokens give W' / E' with the sums taken over all 2048 keys
  at once. A sum over 2048 keys is the sum over 4 blocks of 512, key 512·j + k being entry k of block j, so
  W = W' and E = E'. Both programs then add the token itself.
-/
import proofs.«107902_j85942295593581_2_alg».proof.Proof.Spec

noncomputable section

namespace AttnBridge

open Idealize.ShloMosaic
open scoped BigOperators

/-- The start value of the running shift is a real number (finite exponent field, so neither infinity nor junk). -/
theorem negBig_real : ∃ r : ℝ, AttnSpec.negBig = (r : EReal) := by
  unfold AttnSpec.negBig
  simp [Ideal.ofBits, Ideal.ieee]
  exact ⟨-(11744050 * 2 ^ 104), by push_cast; rfl⟩

/-- A projected feature of real data is real. -/
theorem proj_real (X : Fin 8 → Fin 2048 → Fin 1024 → EReal) (W : Fin 1024 → Fin 128 → EReal) (β : Fin 128 → EReal)
    (hX : ∀ b n d, ∃ r : ℝ, X b n d = (r : EReal)) (hW : ∀ d a, ∃ r : ℝ, W d a = (r : EReal))
    (hβ : ∀ a, ∃ r : ℝ, β a = (r : EReal)) (b : Fin 8) (n : Fin 2048) (a : Fin 128) :
    ∃ r : ℝ, AttnSpec.proj X W β b n a = (r : EReal) := by
  choose x hx using hX
  choose w hw using hW
  choose c hc using hβ
  refine ⟨(∑ d : Fin 1024, x b n d * w d a) + c a, ?_⟩
  unfold AttnSpec.proj
  simp only [hx, hw, hc, ← EReal.coe_mul, Cert.LibSoftmaxShift.coe_sum, ← EReal.coe_add]

/-- A score of real data is real. -/
theorem score_real (X : Fin 8 → Fin 2048 → Fin 1024 → EReal) (Wf : Fin 1024 → Fin 128 → EReal) (βf : Fin 128 → EReal)
    (Wg : Fin 1024 → Fin 128 → EReal) (βg : Fin 128 → EReal)
    (hX : ∀ b n d, ∃ r : ℝ, X b n d = (r : EReal)) (hWf : ∀ d a, ∃ r : ℝ, Wf d a = (r : EReal))
    (hβf : ∀ a, ∃ r : ℝ, βf a = (r : EReal)) (hWg : ∀ d a, ∃ r : ℝ, Wg d a = (r : EReal))
    (hβg : ∀ a, ∃ r : ℝ, βg a = (r : EReal)) (b : Fin 8) (n m : Fin 2048) :
    ∃ r : ℝ, AttnSpec.score X Wf βf Wg βg b n m = (r : EReal) := by
  choose f hf using proj_real X Wf βf hX hWf hβf
  choose g hg using proj_real X Wg βg hX hWg hβg
  refine ⟨∑ a : Fin 128, f b n a * g b m a, ?_⟩
  unfold AttnSpec.score
  simp only [hf, hg, ← EReal.coe_mul, Cert.LibSoftmaxShift.coe_sum]

/-- Four real blocks absorbed into a state that has seen (E, W): the quotient is the exponential-weighted mean over
    what was seen before and the four blocks together. -/
theorem out_runFrom (st : EReal × EReal × EReal) (E W : ℝ) (h : OnlineSoftmax.Seen st E W) (hE : 0 ≤ E)
    (s v : Fin 4 → Fin 512 → ℝ) :
    OnlineSoftmax.out (AttnSpec.runFrom st (fun j k => ((s j k : ℝ) : EReal)) (fun j k => ((v j k : ℝ) : EReal)))
      = (((W + ∑ j : Fin 4, ∑ k : Fin 512, Real.exp (s j k) * v j k)
          / (E + ∑ j : Fin 4, ∑ k : Fin 512, Real.exp (s j k)) : ℝ) : EReal) := by
  have hn : 0 < 512 := by norm_num
  have h4 := OnlineSoftmax.seen_step hn _ _ _ (OnlineSoftmax.seen_step hn _ _ _ (OnlineSoftmax.seen_step hn _ _ _
    (OnlineSoftmax.seen_step hn st E W h (s 0) (v 0)) (s 1) (v 1)) (s 2) (v 2)) (s 3) (v 3)
  have hpos : ∀ j : Fin 4, 0 < ∑ k : Fin 512, Real.exp (s j k) := fun j =>
    Finset.sum_pos (fun _ _ => Real.exp_pos _) ⟨⟨0, hn⟩, Finset.mem_univ _⟩
  have hE4 : 0 < E + (∑ k : Fin 512, Real.exp (s 0 k)) + (∑ k : Fin 512, Real.exp (s 1 k))
      + (∑ k : Fin 512, Real.exp (s 2 k)) + (∑ k : Fin 512, Real.exp (s 3 k)) := by
    have := hpos 0; have := hpos 1; have := hpos 2; have := hpos 3; positivity
  have hout := OnlineSoftmax.out_of_seen _ _ _ h4 hE4
  rw [Fin.sum_univ_four, Fin.sum_univ_four]
  unfold AttnSpec.runFrom
  refine hout.trans ?_
  congr 1
  simp only [add_assoc]

theorem kernelOut_eq_refOut (X : Fin 8 → Fin 2048 → Fin 1024 → EReal) (Wf : Fin 1024 → Fin 128 → EReal) (βf : Fin 128 → EReal)
    (Wg : Fin 1024 → Fin 128 → EReal) (βg : Fin 128 → EReal)
    (hX : ∀ b n d, ∃ r : ℝ, X b n d = (r : EReal)) (hWf : ∀ d a, ∃ r : ℝ, Wf d a = (r : EReal))
    (hβf : ∀ a, ∃ r : ℝ, βf a = (r : EReal)) (hWg : ∀ d a, ∃ r : ℝ, Wg d a = (r : EReal))
    (hβg : ∀ a, ∃ r : ℝ, βg a = (r : EReal))
    (b : Fin 8) (n : Fin 2048) (d : Fin 1024) :
    AttnSpec.kernelOut X Wf βf Wg βg b n d = AttnSpec.refOut X Wf βf Wg βg b n d := by
  -- real witnesses for the row's scores and for column d of the batch entry's tokens
  choose s hs using score_real X Wf βf Wg βg hX hWf hβf hWg hβg b n
  choose x hx using fun m => hX b m d
  obtain ⟨B, hB⟩ := negBig_real
  -- the start state has seen nothing, relative to the real shift B
  have h0 : OnlineSoftmax.Seen (AttnSpec.negBig, 0, 0) 0 0 := ⟨B, by rw [hB, mul_zero, EReal.coe_zero]⟩
  -- the kernel's quotient
  have hK := out_runFrom _ 0 0 h0 le_rfl (fun j k => s (AttnSpec.key j k)) (fun j k => x (AttnSpec.key j k))
  -- the row's maximum is a real
  obtain ⟨M, hM⟩ := Cert.LibSoftmaxShift.fold_max_real (n := 2048) (by norm_num)
    (fun m => AttnSpec.score X Wf βf Wg βg b n m) (fun m => ⟨s m, hs m⟩)
  have hmax : AttnSpec.rowMax X Wf βf Wg βg b n = (M : EReal) := by
    unfold AttnSpec.rowMax; rw [hM]; exact max_eq_right bot_le
  -- the reference's sum
  have hR := OnlineSoftmax.softmax_sum (ι := Fin 2048) s x M
  unfold AttnSpec.kernelOut AttnSpec.refOut
  simp only [hmax, hs, hx]
  -- 2048 keys are 4 blocks of 512
  have eW : (0 : ℝ) + ∑ j : Fin 4, ∑ k : Fin 512, Real.exp (s (AttnSpec.key j k)) * x (AttnSpec.key j k)
      = ∑ m : Fin 2048, Real.exp (s m) * x m := by
    rw [zero_add]
    exact (BlockSums.sum_blocks (m := 4) (n := 512) (N := 2048) (by norm_num) AttnSpec.key (fun _ _ => rfl)
      (fun m => Real.exp (s m) * x m)).symm
  have eE : (0 : ℝ) + ∑ j : Fin 4, ∑ k : Fin 512, Real.exp (s (AttnSpec.key j k))
      = ∑ m : Fin 2048, Real.exp (s m) := by
    rw [zero_add]
    exact (BlockSums.sum_blocks (m := 4) (n := 512) (N := 2048) (by norm_num) AttnSpec.key (fun _ _ => rfl)
      (fun m => Real.exp (s m))).symm
  rw [hK, hR, eW, eE]

end AttnBridge

end
-- ==== Proof.FiniteInputs.lean ====
/-
  Finiteness of the five argument arrays out of the precondition.

  The precondition is the conjunction, over the five arrays, of "every entry has absolute value below +∞".
  On the extended reals |x| = max x (−x) is +∞ at both infinities (and −∞, the value an undefined entry
  takes, has −x = +∞), so |x| < +∞ holds exactly when x is a real number.
-/
import proofs.«107902_j85942295593581_2_alg».proof.Pre_finite_inputs
import proofs.«107902_j85942295593581_2_alg».proof.Proof.Gen.Pre_finite_inputs
import Idealize.ShloMosaic.Lib.ReduceAll
import Idealize.ShloMosaic.Lib.ValueIdx
import Idealize.ShloMosaic.PureOps.Ideal

noncomputable section

namespace AttnFinite

open Idealize.ShloMosaic Idealize.ShloMosaic.ValueIdx
open Cert.Pre_finite_inputs

/-- The single-precision word 0x7F800000 denotes +∞. -/
theorem inf_word : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test "|x| < +∞" answering 1 says the entry is a real number. -/
theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word] at h'
  unfold Ideal.cmp at h'
  refine real_of_abs_lt_top x ?_
  by_contra hn
  simp [hn] at h'

/-- The scalar shape has one index. -/
instance : Subsingleton S_.Idx := ⟨fun a b => funext fun d => d.elim0⟩

/-- An array whose test "all |x| < +∞" answers 1 has only real entries. -/
theorem real_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant (F := Ideal) S_ .f32 0x7F800000#32)))
          (constantI S_ 1 1#1) hr hu ix0 = 1#1) (i : s.Idx) :
    ∃ r : ℝ, x i = (r : EReal) :=
  real_of_test (x i) (Host.reduce_andi_all _ _ hr hu ix0 h i)

/-- Under the precondition every entry of the five argument arrays is a real number. -/
theorem real_of_pre [hF : Facts] (a0 : FVec Ideal S8x2048x1024 .f32) (a1 : FVec Ideal S1024x128 .f32)
    (a2 : FVec Ideal S128 .f32) (a3 : FVec Ideal S1024x128 .f32) (a4 : FVec Ideal S128 .f32)
    (h : fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ix0
  dsimp only [fn, fn_part1] at e
  simp only [andi, IntOp.andi_eq_one] at e
  obtain ⟨⟨⟨⟨h0, h1⟩, h2⟩, h3⟩, h4⟩ := e
  exact ⟨real_of_all _ _ _ a0 h0, real_of_all _ _ _ a1 h1, real_of_all _ _ _ a2 h2, real_of_all _ _ _ a3 h3,
    real_of_all _ _ _ a4 h4⟩

end AttnFinite

end
-- ==== Proof.lean ====
/-
  The five claims about a two-call attention kernel and its reference.

  Both programs compute, for every token n of every batch entry b, the softmax-weighted mean over all tokens m of the
  tokens x[b, m, ·] — weights from the scores (x[b, n, ·]·Wf + bf) · (x[b, m, ·]·Wg + bg) — plus x[b, n, ·] itself. The
  reference does it in one pass with the row's maximum as the softmax's shift. The kernel first projects the tokens
  (one call), then walks the keys in four blocks with a running shift, a running sum of exponentials and a running
  weighted sum, started from a large negative REAL shift, and divides at the end (a second call). On the extended
  reals the two agree whenever every input is a real number: then every score is real, any real shift cancels from the
  quotient (the sum of exponentials being positive), and a sum over 2048 keys is the sum over four blocks of 512. That
  law needs finiteness — at an infinite score the shifts do not cancel — so the precondition is used, exactly there.

  Frames: each program terminates without fault and leaves its arguments as launched. For the kernel (read at words and
  read at the exact values) this is one run over its three items — the host's concatenations, the projection call, the
  attention call — whose post names every unscoped buffer's final contents; for the reference it is its run with the
  result dropped. The ideal pass rewrote nothing, so `preserves` has nothing to state.
-/
import proofs.«107902_j85942295593581_2_alg».proof.Defs
import proofs.«107902_j85942295593581_2_alg».proof.Proof.Gen.Kernel
import proofs.«107902_j85942295593581_2_alg».proof.Proof.Gen.KernelIdeal
import proofs.«107902_j85942295593581_2_alg».proof.Proof.Gen.ReferenceIdeal
import proofs.«107902_j85942295593581_2_alg».proof.Proof.Gen.ReferenceIdeal.Run
import proofs.«107902_j85942295593581_2_alg».proof.Proof.Gen.ReferenceIdeal.Read
import proofs.«107902_j85942295593581_2_alg».proof.Proof.Gen.Pre_finite_inputs
import proofs.«107902_j85942295593581_2_alg».proof.Proof.BitsRun
import proofs.«107902_j85942295593581_2_alg».proof.Proof.IdealRun
import proofs.«107902_j85942295593581_2_alg».proof.Proof.IdealResult
import proofs.«107902_j85942295593581_2_alg».proof.Proof.RefIsSpec
import proofs.«107902_j85942295593581_2_alg».proof.Proof.Bridge
import proofs.«107902_j85942295593581_2_alg».proof.Proof.FiniteInputs
import Idealize.ShloMosaic.Adequacy
import Idealize.ShloMosaic.Init

noncomputable section

namespace Cert.Proof

open Idealize.ShloMosaic Idealize.SL.Sem Idealize.ShloMosaic.TcCoe Idealize.ShloMosaic.ValueIdx

/-- The kernel at the word level runs to the end and keeps its arguments. -/
theorem frame_k : Cert.frame_Kernel := fun m ρ _ => Cert.Kernel.Run.frame m ρ

/-- The kernel at the exact values runs to the end and keeps its arguments. -/
theorem frame_ki : Cert.frame_KernelIdeal := fun m ρ _ => Cert.KernelIdeal.Run.frame m ρ

/-- The reference runs to the end and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, all of them real: the kernel's result array is the running-softmax
    formula entry by entry, the reference's is the one-pass formula, and the two formulas agree on real inputs. -/
theorem algebraic : Cert.algebraic_KernelIdeal_ReferenceIdeal := by
  intro m ρ m' ρ' hpre hagree
  refine ⟨fun c => Cert.KernelIdeal.Result.G m c, ?_, ?_⟩
  · refine (θ_run Cert.KernelIdeal.defs _ _).mono (fun r h c => ?_) (Cert.KernelIdeal.Run.run_all m ρ)
    exact ⟨(h c _ (Cert.KernelIdeal.Run.mem_uc Cert.KernelIdeal.main_v3 (by decide))).trans (Cert.KernelIdeal.Result.result_eq m ρ c),
      (h c _ (Cert.KernelIdeal.Run.mem_uc Cert.KernelIdeal.main_arg0 (by decide))).trans (Cert.KernelIdeal.Run.W3_main_arg0 m ρ c),
      (h c _ (Cert.KernelIdeal.Run.mem_uc Cert.KernelIdeal.main_arg1 (by decide))).trans (Cert.KernelIdeal.Run.W3_main_arg1 m ρ c),
      (h c _ (Cert.KernelIdeal.Run.mem_uc Cert.KernelIdeal.main_arg2 (by decide))).trans (Cert.KernelIdeal.Run.W3_main_arg2 m ρ c),
      (h c _ (Cert.KernelIdeal.Run.mem_uc Cert.KernelIdeal.main_arg3 (by decide))).trans (Cert.KernelIdeal.Run.W3_main_arg3 m ρ c),
      (h c _ (Cert.KernelIdeal.Run.mem_uc Cert.KernelIdeal.main_arg4 (by decide))).trans (Cert.KernelIdeal.Run.W3_main_arg4 m ρ c)⟩
  · refine (θ_run Cert.ReferenceIdeal.defs _ _).mono (fun r h c => ⟨?_, (h c).2⟩) (Cert.ReferenceIdeal.Value.run (F := Ideal) m' ρ')
    rw [(h c).1]
    funext i
    obtain ⟨b, n, d, rfl⟩ : ∃ (b : Fin 8) (n : Fin 2048) (d : Fin 1024), i = ix3 b n d := ⟨i 0, i 1, i 2, eq_ix3 i⟩
    obtain ⟨a0, a1, a2, a3, a4⟩ := hagree c
    obtain ⟨f0, f1, f2, f3, f4⟩ := AttnFinite.real_of_pre _ _ _ _ _ (hpre c)
    rw [AttnRef.res_is_spec m' c b n d, a0, a1, a2, a3, a4]
    exact (AttnBridge.kernelOut_eq_refOut (Cert.KernelIdeal.Result.X m c) (Cert.KernelIdeal.Result.Wf m c) (Cert.KernelIdeal.Result.βf m c)
      (Cert.KernelIdeal.Result.Wg m c) (Cert.KernelIdeal.Result.βg m c)
      (fun b n d => f0 (ix3 b n d)) (fun e a => f1 (ix2 e a)) (fun a => f2 (ix1 a)) (fun e a => f3 (ix2 e a)) (fun a => f4 (ix1 a)) b n d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
